-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v54) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S_S_d : S_.ReducesTo [] S_

variable [Facts]

def fn_part1 {F : FTy → Type} [FloatOps F] (main_arg6 : FVec F S256 .f32) (main_arg7 : FVec F S_ .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S_ .f32 := Host.absf main_arg7
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : FVec F S50000x256 .f32) (main_arg1 : IVec S800000 32) (main_arg2 : IVec S800000 32) (main_arg3 : FVec F S256x256 .f32) (main_arg4 : FVec F S256 .f32) (main_arg5 : FVec F S256x256 .f32) (main_arg6 : FVec F S256 .f32) (main_arg7 : FVec F S_ .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S1x1 : Shape := ⟨2, ![1, 1]⟩
abbrev S2000x256 : Shape := ⟨2, ![2000, 256]⟩
abbrev S2000x1 : Shape := ⟨2, ![2000, 1]⟩
abbrev S1x512 : Shape := ⟨2, ![1, 512]⟩

abbrev nBuf : Space → Nat
  | .hbm => 81
  | .vmem => 26
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S1x256, .f32⟩
  | .hbm, ⟨58, _⟩ => ⟨S1x1, .f32⟩
  | .hbm, ⟨59, _⟩ => ⟨S50000x256, .f32⟩
  | .hbm, ⟨60, _⟩ => ⟨S50000x256, .bf16⟩
  | .hbm, ⟨61, _⟩ => ⟨S1x256, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x256, .bf16⟩
  | .hbm, ⟨71, _⟩ => ⟨S800000x256, .f32⟩
  | .hbm, ⟨72, _⟩ => ⟨S_, .f32⟩
  | .hbm, ⟨73, _⟩ => ⟨S50000x256, .f32⟩
  | .hbm, ⟨74, _⟩ => ⟨S800000x1, .i32⟩
  | .hbm, ⟨75, _⟩ => ⟨S50000x256, .f32⟩
  | .hbm, ⟨76, _⟩ => ⟨S1x256, .f32⟩
  | .hbm, ⟨77, _⟩ => ⟨S1x1, .f32⟩
  | .hbm, ⟨78, _⟩ => ⟨S50000x256, .f32⟩
  | .hbm, ⟨79, _⟩ => ⟨S1x256, .f32⟩
  | .hbm, ⟨80, _⟩ => ⟨S1x512, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S2000x1, .f32⟩
  | .local _ .vmem, ⟨5, _⟩ => ⟨S2000x1, .f32⟩
  | .local _ .vmem, ⟨6, _⟩ => ⟨S256x256, .f32⟩
  | .local _ .vmem, ⟨7, _⟩ => ⟨S1x256, .f32⟩
  | .local _ .vmem, ⟨8, _⟩ => ⟨S1x1, .f32⟩
  | .local _ .vmem, ⟨9, _⟩ => ⟨S2000x256, .f32⟩
  | .local _ .vmem, ⟨10, _⟩ => ⟨S2000x256, .f32⟩
  | .local _ .vmem, ⟨11, _⟩ => ⟨S2000x256, .bf16⟩
  | .local _ .vmem, ⟨12, _⟩ => ⟨S2000x256, .bf16⟩
  | .local _ .vmem, ⟨13, _⟩ => ⟨S1x256, .f32⟩
  | .local _ .vmem, ⟨14, _⟩ => ⟨S1x256, .f32⟩
  | .local _ .vmem, ⟨15, _⟩ => ⟨S2000x256, .f32⟩
  | .local _ .vmem, ⟨16, _⟩ => ⟨S2000x256, .f32⟩
  | .local _ .vmem, ⟨17, _⟩ => ⟨S2000x1, .f32⟩
  | .local _ .vmem, ⟨18, _⟩ => ⟨S2000x1, .f32⟩
  | .local _ .vmem, ⟨19, _⟩ => ⟨S256x256, .f32⟩
  | .local _ .vmem, ⟨20, _⟩ => ⟨S1x256, .f32⟩
  | .local _ .vmem, ⟨21, _⟩ => ⟨S1x1, .f32⟩
  | .local _ .vmem, ⟨22, _⟩ => ⟨S2000x256, .f32⟩
  | .local _ .vmem, ⟨23, _⟩ => ⟨S2000x256, .f32⟩
  | .local _ .vmem, ⟨24, _⟩ => ⟨S1x256, .f32⟩
  | .local _ .vmem, ⟨25, _⟩ => ⟨S1x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39_0 : Ref sig .tc := ⟨.hbm, 59, rfl⟩
abbrev main_v39_1 : Ref sig .tc := ⟨.hbm, 60, rfl⟩
abbrev main_v39_2 : Ref sig .tc := ⟨.hbm, 61, rfl⟩
abbrev main_c_10 : Ref sig .tc := ⟨.hbm, 62, rfl⟩
abbrev main_v40 : Ref sig .tc := ⟨.hbm, 63, rfl⟩
abbrev main_v41 : Ref sig .tc := ⟨.hbm, 64, rfl⟩
abbrev main_c_11 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53_0 : Ref sig .tc := ⟨.hbm, 78, rfl⟩
abbrev main_v53_1 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc1_sem6_0 : DmaSem sig := 23

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v38 : BitVec 1 := Scalar.cmpi .eq arg0 c24_i32
  let v39 : BitVec 32 := Scalar.extui v38
  let c0_i32_22 : BitVec 32 := 0#32
  let v40 : BitVec 1 := Scalar.cmpi .ne v39 c0_i32_22
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v32 : BitVec 1 := Scalar.cmpi .eq arg0 c24_i32
  let v33 : BitVec 32 := Scalar.extui v32
  let c0_i32_18 : BitVec 32 := 0#32
  let v34 : BitVec 1 := Scalar.cmpi .ne v33 c0_i32_18
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  shapeCasts_S256_S1x256 : S256.ShapeCasts S1x256
  shapeCasts_S_S1x1 : S_.ShapeCasts S1x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  broadcasts_S1x256_S2000x256 : S1x256.Broadcasts S2000x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  packedbf16_S2000x256_S2000x256_0_0 : (Rect.unit (s := S2000x256) ![0, 0] S2000x256.size inb_S2000x256_S2000x256_0_0).PackedRows (EltTy.packing .bf16)
  reduces_S2000x256_S256 : S2000x256.Reduces [0] S256
  concatenates_S1x256_S1x256_S1x512_d1 : Shape.Concatenates [S1x256, S1x256] S1x512 1
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .bf16 = 32 ∨ (Rect.block (s := S50000x256) S2000x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v36) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39_0) S2000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v39_1) S2000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v39_2) S1x256.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

abbrev win1_0 : Pipeline.Window sig grid1 :=
  Pipeline.Window.ofSpec (Memref.whole main_v50) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53_0) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v53_1) S1x256.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S1x512 : Shape := ⟨2, ![1, 512]⟩

abbrev nBuf : Space → Nat
  | .hbm => 103
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x256, .f32⟩
  | .hbm, ⟨43, _⟩ => ⟨S50000x256, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x256, .f32⟩
  | .hbm, ⟨53, _⟩ => ⟨S_, .f32⟩
  | .hbm, ⟨54, _⟩ => ⟨S50000x256, .f32⟩
  | .hbm, ⟨55, _⟩ => ⟨S800000x1, .i32⟩
  | .hbm, ⟨56, _⟩ => ⟨S50000x256, .f32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S50000x256, .f32⟩
  | .hbm, ⟨65, _⟩ => ⟨S50000x256, .i1⟩
  | .hbm, ⟨66, _⟩ => ⟨S50000x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S256, .f32⟩
  | .hbm, ⟨71, _⟩ => ⟨S1x256, .f32⟩
  | .hbm, ⟨72, _⟩ => ⟨S50000x256, .f32⟩
  | .hbm, ⟨73, _⟩ => ⟨S50000x256, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x256, .f32⟩
  | .hbm, ⟨83, _⟩ => ⟨S_, .f32⟩
  | .hbm, ⟨84, _⟩ => ⟨S50000x256, .f32⟩
  | .hbm, ⟨85, _⟩ => ⟨S800000x1, .i32⟩
  | .hbm, ⟨86, _⟩ => ⟨S50000x256, .f32⟩
  | .hbm, ⟨87, _⟩ => ⟨S50000x256, .f32⟩
  | .hbm, ⟨88, _⟩ => ⟨S50000x256, .f32⟩
  | .hbm, ⟨89, _⟩ => ⟨S50000x256, .f32⟩
  | .hbm, ⟨90, _⟩ => ⟨S1x256, .f32⟩
  | .hbm, ⟨91, _⟩ => ⟨S50000x256, .f32⟩
  | .hbm, ⟨92, _⟩ => ⟨S50000x256, .f32⟩
  | .hbm, ⟨93, _⟩ => ⟨S_, .f32⟩
  | .hbm, ⟨94, _⟩ => ⟨S50000x256, .f32⟩
  | .hbm, ⟨95, _⟩ => ⟨S50000x256, .i1⟩
  | .hbm, ⟨96, _⟩ => ⟨S50000x256, .f32⟩
  | .hbm, ⟨97, _⟩ => ⟨S50000x256, .f32⟩
  | .hbm, ⟨98, _⟩ => ⟨S50000x256, .f32⟩
  | .hbm, ⟨99, _⟩ => ⟨S_, .f32⟩
  | .hbm, ⟨100, _⟩ => ⟨S256, .f32⟩
  | .hbm, ⟨101, _⟩ => ⟨S1x256, .f32⟩
  | .hbm, ⟨102, _⟩ => ⟨S1x512, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_c_13 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  concatenates_S1x256_S1x256_S1x512_d1 : Shape.Concatenates [S1x256, S1x256] S1x512 1
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.K.Data.lean ====
/-
  The proof data of the two kernel regions, stated at a parameter: the buffer contents each region is entered from.

  Each region walks the 25 row tiles of a 50000 × 256 activation. At tile t it reads the tile's rows of the
  aggregated messages and of the degree normalisations, the whole weight matrix, the bias row and the slope, and leaves
  in its output tiles the activated product (and, in the first region, that product rescaled for the next layer).
  Beside the tiles it keeps a 1 × 256 running column sum in a scratch row: cleared at the first tile, increased by
  the tile's column sums at every tile, copied into the pooled-sum output at the last tile. What the scratch row holds
  after tile t is therefore a recursion on t (`acc0`, `acc1`), and the region's invariant between two tiles says so.
-/
import proofs.«115299_j66941360276307_2_alg».proof.Proof.Gen.Kernel.Launch
import proofs.«115299_j66941360276307_2_alg».proof.Proof.Gen.Kernel.Skeleton
import proofs.«115299_j66941360276307_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 -/

/-- Window w's block at tile t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The activated product of tile t: what the region stores into the tile of its first output. -/
def blkH0 (c : Dev nD) (t : Fin cfg0.N) : Vec F S2000x256 .f32 :=
  k0_pay3 (iblk0 V c 0 t) (iblk0 V c 1 t) (iblk0 V c 3 t) (iblk0 V c 4 t) (iblk0 V c 5 t)

/-- The same rescaled row by row for the next layer: what it stores into the tile of its second output. -/
def blkS0 (c : Dev nD) (t : Fin cfg0.N) : Vec F S2000x256 .bf16 :=
  k0_pay4 (iblk0 V c 0 t) (iblk0 V c 1 t) (iblk0 V c 3 t) (iblk0 V c 4 t) (iblk0 V c 5 t) (iblk0 V c 2 t)

/-- The column sums of tile t's activated product. -/
def colsum0 (c : Dev nD) (t : Fin cfg0.N) : FVec F S256 .f32 :=
  k0_pay5 (iblk0 V c 0 t) (iblk0 V c 1 t) (iblk0 V c 3 t) (iblk0 V c 4 t) (iblk0 V c 5 t)

/-- The running column sum after tile n: the cleared row plus tile 0's sums, then each later tile's sums added. -/
def acc0 (c : Dev nD) : (n : ℕ) → n < cfg0.N → Vec F S1x256 .f32
  | 0, h => k0_pay1 (k0_pay2 (F := F)) (colsum0 V c ⟨0, h⟩)
  | n + 1, h => k0_pay1 (acc0 c n (Nat.lt_of_succ_lt h)) (colsum0 V c ⟨n + 1, h⟩)

theorem acc0_zero (c : Dev nD) (h : 0 < cfg0.N) : acc0 V c 0 h = k0_pay1 (k0_pay2 (F := F)) (colsum0 V c ⟨0, h⟩) := rfl
theorem acc0_succ (c : Dev nD) (n : ℕ) (h : n + 1 < cfg0.N) :
    acc0 V c (n + 1) h = k0_pay1 (acc0 V c n (Nat.lt_of_succ_lt h)) (colsum0 V c ⟨n + 1, h⟩) := rfl
theorem acc0_pos (c : Dev nD) (t : Fin cfg0.N) (ht : t.val ≠ 0) :
    acc0 V c t.val t.isLt = k0_pay1 (acc0 V c (t.val - 1) (Nat.lt_of_le_of_lt (Nat.sub_le _ _) t.isLt)) (colsum0 V c t) := by
  obtain ⟨n, hn⟩ := t
  cases n with
  | zero => exact absurd rfl ht
  | succ n => rfl

/-- The running-sum scratch row as a whole memref. -/
abbrev scM0 : Memref sig .tc .vmem S1x256 .f32 := Memref.whole cc0_scratch0

/-- The scoped buffers of the core that are neither a staging buffer of this region nor its scratch row,
    each whole at some contents: the region never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_scratch0), ((c : Thread nD τ).loc cc1_scratch0) ↦{fullShare} f))

/-- The class invariant with the scratch row split off. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-- The region invariant before tile n: at entry the class invariant (the scratch row at anything); afterwards the
    scratch row at the running sum the tile before left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 c) ∗ (∃ r, prngReg c r)) := by
  cases n with
  | zero => exact absurd rfl hz
  | succ n => rfl

/-- The proof data of region 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => blkH0 V c t
    | ⟨7, _⟩ => blkS0 V c t
    | ⟨8, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = blkH0 V c t := by dsimp only [dat0]
theorem after0_7 (c : Dev nD) (t : Fin cfg0.N) : (dat0 V c).after 7 t = blkS0 V c t := by dsimp only [dat0]
theorem after0_8 (c : Dev nD) (t : Fin cfg0.N) : (dat0 V c).after 8 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## Region 0's two conditions over the grid -/

/-- The body clears the running sum exactly at the first tile, -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- and copies it out exactly at the last. -/
abbrev cond0_1 (i : grid0.Coords) : Prop := k0_cond2 i = 1#1
theorem hcond0_1 : ∀ t : Fin cfg0.N, cond0_1 (grid0.coords t) ↔ t.val = 24 :=
  (by decide +kernel : ∀ t : Fin grid0.N, cond0_1 (grid0.coords t) ↔ t.val = 24)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

/-! # Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The activated product of tile t: what the region stores into the tile of its first output. -/
def blkH1 (c : Dev nD) (t : Fin cfg1.N) : Vec F S2000x256 .f32 :=
  k1_pay2 (iblk1 V c 0 t) (iblk1 V c 1 t) (iblk1 V c 2 t) (iblk1 V c 3 t) (iblk1 V c 4 t)

/-- The running column sum after tile n. -/
def acc1 (c : Dev nD) : (n : ℕ) → n < cfg1.N → Vec F S1x256 .f32
  | 0, h => k1_pay3 (iblk1 V c 0 ⟨0, h⟩) (iblk1 V c 1 ⟨0, h⟩) (iblk1 V c 2 ⟨0, h⟩) (iblk1 V c 3 ⟨0, h⟩) (iblk1 V c 4 ⟨0, h⟩) (k1_pay1 (F := F))
  | n + 1, h => k1_pay3 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (acc1 c n (Nat.lt_of_succ_lt h))

theorem acc1_zero (c : Dev nD) (h : 0 < cfg1.N) : acc1 V c 0 h = k1_pay3 (iblk1 V c 0 ⟨0, h⟩) (iblk1 V c 1 ⟨0, h⟩) (iblk1 V c 2 ⟨0, h⟩) (iblk1 V c 3 ⟨0, h⟩) (iblk1 V c 4 ⟨0, h⟩) (k1_pay1 (F := F)) := rfl
theorem acc1_pos (c : Dev nD) (t : Fin cfg1.N) (ht : t.val ≠ 0) :
    acc1 V c t.val t.isLt = k1_pay3 (iblk1 V c 0 t) (iblk1 V c 1 t) (iblk1 V c 2 t) (iblk1 V c 3 t) (iblk1 V c 4 t) (acc1 V c (t.val - 1) (Nat.lt_of_le_of_lt (Nat.sub_le _ _) t.isLt)) := by
  obtain ⟨n, hn⟩ := t
  cases n with
  | zero => exact absurd rfl ht
  | succ n => rfl

abbrev scM1 : Memref sig .tc .vmem S1x256 .f32 := Memref.whole cc1_scratch0

/-- The scoped buffers of the core that are no staging buffer of this region, each whole at some contents, with the
    scratch row (the last of them) at `X`. -/
def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_scratch0), ((c : Thread nD τ).loc cc0_scratch0) ↦{fullShare} f) ∗ X)

/-- The scratch row taken out of the chain, and anything put back in its place. -/
theorem rest1_swap (c : Dev nD) (X Y : sProp 𝕄) : rest1 c X ⊢ iprop(X ∗ (Y -∗ rest1 c Y)) := by
  unfold rest1
  iintro ⟨R1, R2, R3, R4, R5, R6, R7, R8, R9, R10, R11, R12, R13, R14, R15, HX⟩
  isplitl [HX]; · iexact HX
  iintro HY
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  iexact HY

/-- The class invariant with the scratch row (the last scoped buffer of the enumeration) named. -/
theorem PhiA1_eq (c : Dev nD) :
    (Pipeline.ΦA spec1 c : sProp 𝕄)
      = iprop(rest1 c iprop(∃ d, owns (c : Thread nD τ) scM1 fullShare d) ∗ (∃ r, prngReg c r)) := by
  unfold Pipeline.ΦA rest1; rw [scopedRest1_eq]; simp only [scM1, owns_whole]; try rfl

def PhiS1 (c : Dev nD) : (n : ℕ) → n ≤ cfg1.N → sProp 𝕄
  | 0, _ => Pipeline.ΦA spec1 c
  | n + 1, hn => iprop(rest1 c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 c (owns (c : Thread nD τ) scM1 fullShare (acc1 V c n hn)) ∗ (∃ r, prngReg c r)) := rfl
theorem PhiS1_pos (c : Dev nD) (n : ℕ) (h : n ≤ cfg1.N) (hz : n ≠ 0) :
    PhiS1 V c n h = iprop(rest1 c (owns (c : Thread nD τ) scM1 fullShare (acc1 V c (n - 1) (by omega))) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => blkH1 V c t
    | ⟨6, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = blkH1 V c t := by dsimp only [dat1]
theorem after1_6 (c : Dev nD) (t : Fin cfg1.N) : (dat1 V c).after 6 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
abbrev cond1_1 (i : grid1.Coords) : Prop := k1_cond2 i = 1#1
theorem hcond1_1 : ∀ t : Fin cfg1.N, cond1_1 (grid1.coords t) ↔ t.val = 24 :=
  (by decide +kernel : ∀ t : Fin grid1.N, cond1_1 (grid1.coords t) ↔ t.val = 24)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

end Cert.Kernel.Hand

end
-- ==== Proof.K.Vals.lean ====
/-
  The buffer contents at the boundaries between the program's segments: the launch memory, then each host stretch
  applied, then at each region's exit the region's arrays at what its write-backs leave and every other buffer as it was.
-/
import proofs.«115299_j66941360276307_2_alg».proof.Proof.K.Data
import proofs.«115299_j66941360276307_2_alg».proof.Proof.Gen.Kernel.Regions
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations at the region boundaries -/

/-- Region 0 is entered from the launch memory after the first host stretch. -/
abbrev VA (c : Dev nD) (b : Ref sig .tc) : Buf (Elt F) ((c : Thread nD τ).loc b) := Gen.V1 m c b

/-- At region 0's exit: its arrays at what the pipeline leaves, every other buffer as entered. -/
def W2 (c : Dev nD) : Valuation τ sig (Elt F) :=
  Pipeline.withArrays spec0 c (Gen.V1 m c) fun w => (dat0 (VA m) c).arrAt w cfg0.N
theorem W2_arr (c : Dev nD) (w : Fin cfg0.W) :
    W2 m c (Proc.devRef .tc (Pipeline.arrRef spec0 w)) = (dat0 (VA m) c).arrAt w cfg0.N := by
  unfold W2; exact Pipeline.withArrays_arr spec0 launch0.win.arr_inj c _ _ w

/-- What region 0 leaves, as the family the generated valuations are written over. -/
def outs2 : Gen.Outs (F := F) := fun _ r c => W2 m c r

/-- Region 1 is entered from there after the second host stretch. -/
abbrev VB (c : Dev nD) (b : Ref sig .tc) : Buf (Elt F) ((c : Thread nD τ).loc b) := Gen.V3 m (outs2 m) c b

/-- At region 1's exit. -/
def W4 (c : Dev nD) : Valuation τ sig (Elt F) :=
  Pipeline.withArrays spec1 c (Gen.V3 m (outs2 m) c) fun w => (dat1 (VB m) c).arrAt w cfg1.N
theorem W4_arr (c : Dev nD) (w : Fin cfg1.W) :
    W4 m c (Proc.devRef .tc (Pipeline.arrRef spec1 w)) = (dat1 (VB m) c).arrAt w cfg1.N := by
  unfold W4; exact Pipeline.withArrays_arr spec1 launch1.win.arr_inj c _ _ w

/-- What both regions leave: region 0's arrays read after item 1, region 1's after item 3. -/
def outsK : Gen.Outs (F := F) := fun J r c => if J = 4 then W4 m c r else W2 m c r
theorem outsK_2 (r : Ref sig .tc) (c : Dev nD) : outsK m 2 r c = W2 m c r := if_neg (by decide)
theorem outsK_4 (r : Ref sig .tc) (c : Dev nD) : outsK m 4 r c = W4 m c r := if_pos rfl

theorem V2_outsK (c : Dev nD) : Gen.V2 m (outsK m) c = Gen.V2 m (outs2 m) c := by
  simp only [Gen.V2, outsK_2, outs2]
theorem V3_outsK (c : Dev nD) : Gen.V3 m (outsK m) c = Gen.V3 m (outs2 m) c :=
  congrArg (StableHlo.after hostOps1) (V2_outsK m c)

/-! ## What the exit valuations hold at each array of a region -/

theorem V2_v39_0 (c : Dev nD) : Gen.V2 m (outs2 m) c main_v39_0 = (dat0 (VA m) c).arrAt 6 cfg0.N := by
  simp only [Gen.V2]
  rw [Function.update_of_ne (StableHlo.devRef_ne_of_ne (by decide)), Function.update_of_ne (StableHlo.devRef_ne_of_ne (by decide)), Function.update_self]
  exact W2_arr m c 6
theorem V2_v39_1 (c : Dev nD) : Gen.V2 m (outs2 m) c main_v39_1 = (dat0 (VA m) c).arrAt 7 cfg0.N := by
  simp only [Gen.V2]
  rw [Function.update_of_ne (StableHlo.devRef_ne_of_ne (by decide)), Function.update_self]
  exact W2_arr m c 7
theorem V2_v39_2 (c : Dev nD) : Gen.V2 m (outs2 m) c main_v39_2 = (dat0 (VA m) c).arrAt 8 cfg0.N := by
  simp only [Gen.V2]
  rw [Function.update_self]
  exact W2_arr m c 8

theorem V4_v53_0 (c : Dev nD) : Gen.V4 m (outsK m) c main_v53_0 = (dat1 (VB m) c).arrAt 5 cfg1.N := by
  simp only [Gen.V4]
  rw [Function.update_of_ne (StableHlo.devRef_ne_of_ne (by decide)), Function.update_self, outsK_4]
  exact W4_arr m c 5
theorem V4_v53_1 (c : Dev nD) : Gen.V4 m (outsK m) c main_v53_1 = (dat1 (VB m) c).arrAt 6 cfg1.N := by
  simp only [Gen.V4]
  rw [Function.update_self, outsK_4]
  exact W4_arr m c 6

end Cert.Kernel.Hand

end
-- ==== Proof.K.Run0A.lean ====
/-
  The kernel body of region 0 run whole at the first tile (the running sum is cleared first; the pooled-sum output is left alone): on whole memrefs, the inputs at their contents,
  the body terminates leaving the inputs as they were and each buffer it stores into with its stores written, last first.
  The lists of stores are found by the symbolic run itself.
-/
import proofs.«115299_j66941360276307_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) :
    Σ' (L7 : List (View.Piece (Elt F) S2000x256 .f32)) (L8 : List (View.Piece (Elt F) S2000x256 .bf16)), { LS : List (View.Piece (Elt F) S1x256 .f32) //
      ∀ (xi : Vec F S1x256 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare xi ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc0__conv_post_kernel_scaled i arg1 harg1 arg2 harg2 arg3 harg3 arg4 harg4 arg5 harg5 arg6 harg6 arg7 harg7 arg8 harg8 arg9 harg9 arg10 harg10) K } := by
  refine ⟨?_, ?_, ?_, fun xi E K => ?run⟩
  case run =>
    simp only [cc0__conv_post_kernel_scaled_eq_skeleton]; unfold cc0__conv_post_kernel_scaled_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%ds, %fs, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]
    · iexists _; isplitr; · ipureintro; exact harg9.read_unread _
      iexact H9
    iexists _; iexact HS

end Cert.Kernel.Hand

end
-- ==== Proof.K.Run0B.lean ====
/-
  The kernel body of region 0 run whole at a middle tile (the running sum is carried; the pooled-sum output is left alone): on whole memrefs, the inputs at their contents,
  the body terminates leaving the inputs as they were and each buffer it stores into with its stores written, last first.
  The lists of stores are found by the symbolic run itself.
-/
import proofs.«115299_j66941360276307_2_alg».proof.Proof.K.Run0A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    Σ' (L7 : List (View.Piece (Elt F) S2000x256 .f32)) (L8 : List (View.Piece (Elt F) S2000x256 .bf16)), { LS : List (View.Piece (Elt F) S1x256 .f32) //
      ∀ (xi : Vec F S1x256 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare xi ∗ owns (c : Thread nD τ) arg10 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc0__conv_post_kernel_scaled i arg1 harg1 arg2 harg2 arg3 harg3 arg4 harg4 arg5 harg5 arg6 harg6 arg7 harg7 arg8 harg8 arg9 harg9 arg10 harg10) K } := by
  refine ⟨?_, ?_, ?_, fun xi E K => ?run⟩
  case run =>
    simp only [cc0__conv_post_kernel_scaled_eq_skeleton]; unfold cc0__conv_post_kernel_scaled_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hfs
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]
    · iexists _; isplitr; · ipureintro; exact harg9.read_unread _
      iexact H9
    iexists _; iexact HS

end Cert.Kernel.Hand

end
-- ==== Proof.K.Run0C.lean ====
/-
  The kernel body of region 0 run whole at the last tile (the running sum is carried, then copied into the pooled-sum output): on whole memrefs, the inputs at their contents,
  the body terminates leaving the inputs as they were and each buffer it stores into with its stores written, last first.
  The lists of stores are found by the symbolic run itself.
-/
import proofs.«115299_j66941360276307_2_alg».proof.Proof.K.Run0B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    Σ' (L7 : List (View.Piece (Elt F) S2000x256 .f32)) (L8 : List (View.Piece (Elt F) S2000x256 .bf16)) (L9 : List (View.Piece (Elt F) S1x256 .f32)), { LS : List (View.Piece (Elt F) S1x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS)) -∗ K ⟨⟩))
          ⊢ wp frame (wpE (defs₀ (F := F)) Variants.none c none) E (cc0__conv_post_kernel_scaled i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__conv_post_kernel_scaled_eq_skeleton]; unfold cc0__conv_post_kernel_scaled_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg10.eq_unread hfs
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    iexists _; iexact HS

end Cert.Kernel.Hand

end
-- ==== Proof.K.Body0.lean ====
/-
  Region 0's body obligation: at every tile the kernel body, called on the windows' current staging buffers holding
  what the proof data say they hold and on the scratch row at the running sum of the tiles before, terminates and leaves
  each output tile at the activated product of the tile's rows, the scratch row at the running sum including this tile,
  and — at the last tile only — the pooled-sum output at that running sum.

  The body's run leaves each buffer it stores into as a list of stores; each list covers its buffer, and read back it is
  the payload term the proof data name: one whole-tile store per output, and for the scratch row either the row it held
  plus the tile's column sums, or (at the first tile) the cleared row plus those sums.
-/
import proofs.«115299_j66941360276307_2_alg».proof.Proof.K.Run0C
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the stores leave, case by case

The three cases of the body's two conditions — first tile, middle tile, last tile — store into the same buffers, the last
tile into the pooled-sum output too. -/

/-- Zero offsets, however they are spelt. -/
theorem hz0 : (![0, 0] : Fin 2 → Nat) = fun _ => 0 := funext fun a => by fin_cases a <;> rfl

/-! ## The first tile: the stores cover each buffer they go into, and read back as the payload terms -/

theorem cover0_A_7 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (y : S2000x256.Idx) :
    ∃ pc ∈ (kernelRun0_A c i arg1 harg1 arg2 harg2 arg3 harg3 arg4 harg4 arg5 harg5 arg6 harg6 arg7 harg7 arg8 harg8 arg9 harg9 arg10 harg10 hc0 hc1 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x1 x2 x3 x4 x5 x6).1 S2000x256.size (by sl_kernel_rfl) y

theorem cover0_A_8 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (y : S2000x256.Idx) :
    ∃ pc ∈ (kernelRun0_A c i arg1 harg1 arg2 harg2 arg3 harg3 arg4 harg4 arg5 harg5 arg6 harg6 arg7 harg7 arg8 harg8 arg9 harg9 arg10 harg10 hc0 hc1 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x1 x2 x3 x4 x5 x6).2.1 S2000x256.size (by sl_kernel_rfl) y

theorem cover0_A_S (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (y : S1x256.Idx) :
    ∃ pc ∈ (kernelRun0_A c i arg1 harg1 arg2 harg2 arg3 harg3 arg4 harg4 arg5 harg5 arg6 harg6 arg7 harg7 arg8 harg8 arg9 harg9 arg10 harg10 hc0 hc1 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x1 x2 x3 x4 x5 x6).2.2.1 S1x256.size (by sl_kernel_rfl) y

/-- The one store into the first output's tile writes the activated product of the blocks read. -/
theorem piece0_A_7 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) :
    View.canon (kernelRun0_A c i arg1 harg1 arg2 harg2 arg3 harg3 arg4 harg4 arg5 harg5 arg6 harg6 arg7 harg7 arg8 harg8 arg9 harg9 arg10 harg10 hc0 hc1 x1 x2 x3 x4 x5 x6).1 = k0_pay3 x1 x2 x4 x5 x6 := by
  unfold kernelRun0_A
  dsimp only
  rw [View.canon_unit_zero hz0]
  simp only [View.readAt_eq_ld, harg1.read_unread, harg2.read_unread, harg3.read_unread, harg4.read_unread, harg5.read_unread, harg6.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-- The one store into the second output's tile writes that product rescaled row by row. -/
theorem piece0_A_8 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) :
    View.canon (kernelRun0_A c i arg1 harg1 arg2 harg2 arg3 harg3 arg4 harg4 arg5 harg5 arg6 harg6 arg7 harg7 arg8 harg8 arg9 harg9 arg10 harg10 hc0 hc1 x1 x2 x3 x4 x5 x6).2.1 = k0_pay4 x1 x2 x4 x5 x6 x3 := by
  unfold kernelRun0_A
  dsimp only
  rw [View.canon_unit_zero hz0]
  simp only [View.readAt_eq_ld, harg1.read_unread, harg2.read_unread, harg3.read_unread, harg4.read_unread, harg5.read_unread, harg6.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-- The scratch row is stored into twice: cleared, then the cleared row (read back) plus the tile's column sums. -/
theorem piece0_A_S (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) :
    View.canon (kernelRun0_A c i arg1 harg1 arg2 harg2 arg3 harg3 arg4 harg4 arg5 harg5 arg6 harg6 arg7 harg7 arg8 harg8 arg9 harg9 arg10 harg10 hc0 hc1 x1 x2 x3 x4 x5 x6).2.2.1 = k0_pay1 (k0_pay2 (F := F)) (k0_pay5 x1 x2 x4 x5 x6) := by
  unfold kernelRun0_A
  dsimp only
  sl_unfold_words
  rw [View.canon_cons_unit_zero (S := S1x256) hz0, View.readCov_unit_zero (S := S1x256) _ hz0]
  simp only [View.readAt_eq_ld, harg1.read_unread, harg2.read_unread, harg3.read_unread, harg4.read_unread, harg5.read_unread, harg6.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-! ## A middle tile: the stores cover each buffer they go into, and read back as the payload terms -/

theorem cover0_B_7 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) (y : S2000x256.Idx) :
    ∃ pc ∈ (kernelRun0_B c i arg1 harg1 arg2 harg2 arg3 harg3 arg4 harg4 arg5 harg5 arg6 harg6 arg7 harg7 arg8 harg8 arg9 harg9 arg10 harg10 hc0 hc1 x1 x2 x3 x4 x5 x6 xs).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x1 x2 x3 x4 x5 x6 xs).1 S2000x256.size (by sl_kernel_rfl) y

theorem cover0_B_8 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) (y : S2000x256.Idx) :
    ∃ pc ∈ (kernelRun0_B c i arg1 harg1 arg2 harg2 arg3 harg3 arg4 harg4 arg5 harg5 arg6 harg6 arg7 harg7 arg8 harg8 arg9 harg9 arg10 harg10 hc0 hc1 x1 x2 x3 x4 x5 x6 xs).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x1 x2 x3 x4 x5 x6 xs).2.1 S2000x256.size (by sl_kernel_rfl) y

theorem cover0_B_S (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) (y : S1x256.Idx) :
    ∃ pc ∈ (kernelRun0_B c i arg1 harg1 arg2 harg2 arg3 harg3 arg4 harg4 arg5 harg5 arg6 harg6 arg7 harg7 arg8 harg8 arg9 harg9 arg10 harg10 hc0 hc1 x1 x2 x3 x4 x5 x6 xs).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x1 x2 x3 x4 x5 x6 xs).2.2.1 S1x256.size (by sl_kernel_rfl) y

/-- The one store into the first output's tile writes the activated product of the blocks read. -/
theorem piece0_B_7 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    View.canon (kernelRun0_B c i arg1 harg1 arg2 harg2 arg3 harg3 arg4 harg4 arg5 harg5 arg6 harg6 arg7 harg7 arg8 harg8 arg9 harg9 arg10 harg10 hc0 hc1 x1 x2 x3 x4 x5 x6 xs).1 = k0_pay3 x1 x2 x4 x5 x6 := by
  unfold kernelRun0_B
  dsimp only
  rw [View.canon_unit_zero hz0]
  simp only [View.readAt_eq_ld, harg1.read_unread, harg2.read_unread, harg3.read_unread, harg4.read_unread, harg5.read_unread, harg6.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-- The one store into the second output's tile writes that product rescaled row by row. -/
theorem piece0_B_8 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    View.canon (kernelRun0_B c i arg1 harg1 arg2 harg2 arg3 harg3 arg4 harg4 arg5 harg5 arg6 harg6 arg7 harg7 arg8 harg8 arg9 harg9 arg10 harg10 hc0 hc1 x1 x2 x3 x4 x5 x6 xs).2.1 = k0_pay4 x1 x2 x4 x5 x6 x3 := by
  unfold kernelRun0_B
  dsimp only
  rw [View.canon_unit_zero hz0]
  simp only [View.readAt_eq_ld, harg1.read_unread, harg2.read_unread, harg3.read_unread, harg4.read_unread, harg5.read_unread, harg6.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-- The one store into the scratch row writes what it held plus the tile's column sums. -/
theorem piece0_B_S (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    View.canon (kernelRun0_B c i arg1 harg1 arg2 harg2 arg3 harg3 arg4 harg4 arg5 harg5 arg6 harg6 arg7 harg7 arg8 harg8 arg9 harg9 arg10 harg10 hc0 hc1 x1 x2 x3 x4 x5 x6 xs).2.2.1 = k0_pay1 xs (k0_pay5 x1 x2 x4 x5 x6) := by
  unfold kernelRun0_B
  dsimp only
  sl_unfold_words
  rw [View.canon_unit_zero hz0]
  simp only [View.readAt_eq_ld, harg1.read_unread, harg2.read_unread, harg3.read_unread, harg4.read_unread, harg5.read_unread, harg6.read_unread, harg10.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-! ## The last tile: the stores cover each buffer they go into, and read back as the payload terms -/

theorem cover0_C_7 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) (y : S2000x256.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 x6 xs).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 x6 xs).1 S2000x256.size (by sl_kernel_rfl) y

theorem cover0_C_8 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) (y : S2000x256.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 x6 xs).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 x6 xs).2.1 S2000x256.size (by sl_kernel_rfl) y

theorem cover0_C_9 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) (y : S1x256.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 x6 xs).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 x6 xs).2.2.1 S1x256.size (by sl_kernel_rfl) y

theorem cover0_C_S (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) (y : S1x256.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 x6 xs).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 x6 xs).2.2.2.1 S1x256.size (by sl_kernel_rfl) y

/-- The one store into the first output's tile writes the activated product of the blocks read. -/
theorem piece0_C_7 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    View.canon (kernelRun0_C c i arg1 harg1 arg2 harg2 arg3 harg3 arg4 harg4 arg5 harg5 arg6 harg6 arg7 harg7 arg8 harg8 arg9 harg9 arg10 harg10 hc0 hc1 x1 x2 x3 x4 x5 x6 xs).1 = k0_pay3 x1 x2 x4 x5 x6 := by
  unfold kernelRun0_C
  dsimp only
  rw [View.canon_unit_zero hz0]
  simp only [View.readAt_eq_ld, harg1.read_unread, harg2.read_unread, harg3.read_unread, harg4.read_unread, harg5.read_unread, harg6.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-- The one store into the second output's tile writes that product rescaled row by row. -/
theorem piece0_C_8 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    View.canon (kernelRun0_C c i arg1 harg1 arg2 harg2 arg3 harg3 arg4 harg4 arg5 harg5 arg6 harg6 arg7 harg7 arg8 harg8 arg9 harg9 arg10 harg10 hc0 hc1 x1 x2 x3 x4 x5 x6 xs).2.1 = k0_pay4 x1 x2 x4 x5 x6 x3 := by
  unfold kernelRun0_C
  dsimp only
  rw [View.canon_unit_zero hz0]
  simp only [View.readAt_eq_ld, harg1.read_unread, harg2.read_unread, harg3.read_unread, harg4.read_unread, harg5.read_unread, harg6.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-- The one store into the scratch row writes what it held plus the tile's column sums; -/
theorem piece0_C_S (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    View.canon (kernelRun0_C c i arg1 harg1 arg2 harg2 arg3 harg3 arg4 harg4 arg5 harg5 arg6 harg6 arg7 harg7 arg8 harg8 arg9 harg9 arg10 harg10 hc0 hc1 x1 x2 x3 x4 x5 x6 xs).2.2.2.1 = k0_pay1 xs (k0_pay5 x1 x2 x4 x5 x6) := by
  unfold kernelRun0_C
  dsimp only
  sl_unfold_words
  rw [View.canon_unit_zero hz0]
  simp only [View.readAt_eq_ld, harg1.read_unread, harg2.read_unread, harg3.read_unread, harg4.read_unread, harg5.read_unread, harg6.read_unread, harg10.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-- and the store into the pooled-sum output writes the scratch row as just updated (read back). -/
theorem piece0_C_9 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    View.canon (kernelRun0_C c i arg1 harg1 arg2 harg2 arg3 harg3 arg4 harg4 arg5 harg5 arg6 harg6 arg7 harg7 arg8 harg8 arg9 harg9 arg10 harg10 hc0 hc1 x1 x2 x3 x4 x5 x6 xs).2.2.1 = k0_pay1 xs (k0_pay5 x1 x2 x4 x5 x6) := by
  unfold kernelRun0_C
  dsimp only
  sl_unfold_words
  rw [View.canon_unit_zero hz0, View.readCov_unit_zero (S := S1x256) _ hz0]
  simp only [View.readAt_eq_ld, harg1.read_unread, harg2.read_unread, harg3.read_unread, harg4.read_unread, harg5.read_unread, harg6.read_unread, harg10.read_unread,
    View.ld_unit_zero (S := S2000x256) hz0, View.ld_unit_zero (S := S2000x1) hz0, View.ld_unit_zero (S := S256x256) hz0,
    View.ld_unit_zero (S := S1x256) hz0, View.ld_unit_zero (S := S1x1) hz0]

variable (V : (c : Dev nD) → (b : Ref sig .tc) → Buf (Elt F) ((c : Thread nD τ).loc b))

/-- What the launch hands the region is the invariant before the first tile. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-! ## The body obligation at a tile -/

/-- Each window's current staging memref at tile `t`, spelt as the pipeline passes it, and its wholeness. -/
abbrev ms0_0 (t : Fin cfg0.N) : Memref sig .tc .vmem S2000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)

/-- The running sum after the first tile is the cleared row plus that tile's column sums. -/
theorem acc0_first (c : Dev nD) (t : Fin cfg0.N) (ht : t.val = 0) :
    acc0 V c t.val t.isLt = k0_pay1 (k0_pay2 (F := F)) (colsum0 V c t) := by
  obtain ⟨n, hn⟩ := t
  cases n with
  | zero => rfl
  | succ n => exact absurd ht (Nat.succ_ne_zero n)

/-- What the body is called with at tile `t`: the invariant, nothing owed, each window's current buffer at what it holds; -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 1600000 in
/-- The first tile: the invariant is the class's (the scratch row at anything); the body clears the row, stores the two
    output tiles, adds the tile's column sums to the cleared row, and leaves the pooled-sum output alone. -/
theorem sound_body0_A (c : Dev nD) (t : Fin cfg0.N) (h0 : t.val = 0) (h1 : ¬t.val = 24) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  unfold blkH0 blkS0
  rw [Dat.leavesExact_idle (dat0 V c) 8 t (idleAt0_8 t (fun h => h1 ((hcond0_1 t).mp h))) (noFlush0_8 t (fun h => h1 ((hcond0_1 t).mp h)))]
  rw [PhiS0_castSucc V c t, PhiS0_zero V c _ _ h0, PhiA0_eq, acc0_first V c t h0]
  unfold colsum0
  iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [HS]; · iexact HS
  iintro ⟨H0, H1, H2, H3, H4, H5, ⟨%e6, H6⟩, ⟨%e7, H7⟩, H8, ⟨%es, HS⟩⟩
  isplitl [HS Hr Hg]
  · isplitl [HS Hr]
    · isplitl [HS]
      · unfold owns; iexists _; isplitr
        swap; · iexact HS
        ipureintro
        exact (View.read_writes_eq_canon _ _ _ (cover0_A_S c _ _ _ _ _ _ _ _ _ _ _ _ _ _ _ _ _ _ _ _ _ _ _ _ _ _ _ _ _)).trans (piece0_A_S c _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    exact (View.read_writes_eq_canon _ _ _ (cover0_A_7 c _ _ _ _ _ _ _ _ _ _ _ _ _ _ _ _ _ _ _ _ _ _ _ _ _ _ _ _ _)).trans (piece0_A_7 c _ _ _ _ _ _ _ _ _ _ _ _ _ _ _ _ _ _ _ _ _ _ _ _ _ _ _ _ _)
  isplitl [H7]
  · unfold owns; iexists _; isplitr
    swap; · iexact H7
    ipureintro
    exact (View.read_writes_eq_canon _ _ _ (cover0_A_8 c _ _ _ _ _ _ _ _ _ _ _ _ _ _ _ _ _ _ _ _ _ _ _ _ _ _ _ _ _)).trans (piece0_A_8 c _ _ _ _ _ _ _ _ _ _ _ _ _ _ _ _ _ _ _ _ _ _ _ _ _ _ _ _ _)
  iexists _; iexact H8

set_option maxHeartbeats 1600000 in
/-- A middle tile: the invariant has the scratch row at the running sum of the tiles before; the body stores the two
    output tiles, adds the tile's column sums to the row, and leaves the pooled-sum output alone. -/
theorem sound_body0_B (c : Dev nD) (t : Fin cfg0.N) (h0 : ¬t.val = 0) (h1 : ¬t.val = 24) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  unfold blkH0 blkS0
  rw [Dat.leavesExact_idle (dat0 V c) 8 t (idleAt0_8 t (fun h => h1 ((hcond0_1 t).mp h))) (noFlush0_8 t (fun h => h1 ((hcond0_1 t).mp h)))]
  rw [PhiS0_castSucc V c t, PhiS0_pos V c _ _ h0, acc0_pos V c t h0]
  unfold colsum0
  iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [HS]; · iexact HS
  iintro ⟨H0, H1, H2, H3, H4, H5, ⟨%e6, H6⟩, ⟨%e7, H7⟩, H8, ⟨%es, HS⟩⟩
  isplitl [HS Hr Hg]
  · isplitl [HS Hr]
    · isplitl [HS]
      · unfold owns; iexists _; isplitr
        swap; · iexact HS
        ipureintro
        exact (View.read_writes_eq_canon _ _ _ (cover0_B_S c _ _ _ _ _ _ _ _ _ _ _ _ _ _ _ _ _ _ _ _ _ _ _ _ _ _ _ _ _ _)).trans (piece0_B_S c _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    exact (View.read_writes_eq_canon _ _ _ (cover0_B_7 c _ _ _ _ _ _ _ _ _ _ _ _ _ _ _ _ _ _ _ _ _ _ _ _ _ _ _ _ _ _)).trans (piece0_B_7 c _ _ _ _ _ _ _ _ _ _ _ _ _ _ _ _ _ _ _ _ _ _ _ _ _ _ _ _ _ _)
  isplitl [H7]
  · unfold owns; iexists _; isplitr
    swap; · iexact H7
    ipureintro
    exact (View.read_writes_eq_canon _ _ _ (cover0_B_8 c _ _ _ _ _ _ _ _ _ _ _ _ _ _ _ _ _ _ _ _ _ _ _ _ _ _ _ _ _ _)).trans (piece0_B_8 c _ _ _ _ _ _ _ _ _ _ _ _ _ _ _ _ _ _ _ _ _ _ _ _ _ _ _ _ _ _)
  iexists _; iexact H8

set_option maxHeartbeats 1600000 in
/-- The last tile: as a middle tile, and the body then copies the updated scratch row into the pooled-sum output. -/
theorem sound_body0_C (c : Dev nD) (t : Fin cfg0.N) (h0 : ¬t.val = 0) (h1 : t.val = 24) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  unfold blkH0 blkS0
  rw [show (dat0 V c).leavesExact 8 t = owns (c : Thread nD τ) (ms0_8 t) fullShare ((dat0 V c).after 8 t) from by
    unfold Dat.leavesExact; rw [liveAt0_8 t ((hcond0_1 t).mpr h1)], after0_8]
  rw [PhiS0_castSucc V c t, PhiS0_pos V c _ _ h0, acc0_pos V c t h0]
  unfold colsum0
  iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS]; · iexact HS
  iintro ⟨H0, H1, H2, H3, H4, H5, ⟨%e6, H6⟩, ⟨%e7, H7⟩, ⟨%e8, H8⟩, ⟨%es, HS⟩⟩
  isplitl [HS Hr Hg]
  · isplitl [HS Hr]
    · isplitl [HS]
      · unfold owns; iexists _; isplitr
        swap; · iexact HS
        ipureintro
        exact (View.read_writes_eq_canon _ _ _ (cover0_C_S c _ _ _ _ _ _ _ _ _ _ _ _ _ _ _ _ _ _ _ _ _ _ _ _ _ _ _ _ _ _)).trans (piece0_C_S c _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    exact (View.read_writes_eq_canon _ _ _ (cover0_C_7 c _ _ _ _ _ _ _ _ _ _ _ _ _ _ _ _ _ _ _ _ _ _ _ _ _ _ _ _ _ _)).trans (piece0_C_7 c _ _ _ _ _ _ _ _ _ _ _ _ _ _ _ _ _ _ _ _ _ _ _ _ _ _ _ _ _ _)
  isplitl [H7]
  · unfold owns; iexists _; isplitr
    swap; · iexact H7
    ipureintro
    exact (View.read_writes_eq_canon _ _ _ (cover0_C_8 c _ _ _ _ _ _ _ _ _ _ _ _ _ _ _ _ _ _ _ _ _ _ _ _ _ _ _ _ _ _)).trans (piece0_C_8 c _ _ _ _ _ _ _ _ _ _ _ _ _ _ _ _ _ _ _ _ _ _ _ _ _ _ _ _ _ _)
  unfold owns; iexists _; isplitr
  swap; · iexact H8
  ipureintro
  exact (View.read_writes_eq_canon _ _ _ (cover0_C_9 c _ _ _ _ _ _ _ _ _ _ _ _ _ _ _ _ _ _ _ _ _ _ _ _ _ _ _ _ _ _)).trans (piece0_C_9 c _ _ _ _ _ _ _ _ _ _ _ _ _ _ _ _ _ _ _ _ _ _ _ _ _ _ _ _ _ _)

/-- The body at any tile: the first, the last, or one between. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 25 := lt_of_lt_of_eq t.isLt (show cfg0.N = 25 from N_0)
  by_cases h0 : t.val = 0
  · exact sound_body0_A V c t h0 (by omega)
  · by_cases h1 : t.val = 24
    · exact sound_body0_C V c t h0 h1
    · exact sound_body0_B V c t h0 h1

theorem body_obligation0 (c : Dev nD) : BodyObligation (dat0 (F := F) V c) (defs₀ (F := F)) Variants.none () Set.univ := fun t => by
  rw [bigSep_W0, bigSep_W0]
  exact sound_body0 V c t

/-- After the last tile the invariant gives the class invariant back: what the scratch row holds is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨⟨HS, Hr⟩, Hg⟩
  isplitl [HS Hr]
  · isplitl [HS]
    · iexists _; iexact HS
    iexact Hr
  iexact Hg

end Cert.Kernel.Hand

end
-- ==== Proof.K.Run1A.lean ====
/-
  The kernel body of region 1 run whole at the first tile (the running sum is cleared first; the pooled-sum output is left alone): on whole memrefs, the inputs at their contents,
  the body terminates leaving the inputs as they were and each buffer it stores into with its stores written, last first.
  The lists of stores are found by the symbolic run itself.
-/
import proofs.«115299_j66941360276307_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S2000x256 .f32) (harg1 : arg1.IsWhole) (arg2 : Memref sig .tc .vmem S2000x1 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : cond1_0 i) (hc1 : ¬cond1_1 i)
    (x1 : Vec F S2000x256 .f32) (x2 : Vec F S2000x1 .f32) (x3 : Vec F S256x256 .f32) (x4 : Vec F S1x256 .f32) (x5 : Vec F S1x1 .f32) :
    Σ' (L6 : List (View.Piece (Elt F) S2000x256 .f32)), { LS : List (View.Piece (Elt F) S1x256 .f32) //
      ∀ (xi : Vec F S1x256 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__conv_post_kernel_plain i arg1 harg1 arg2 harg2 arg3 harg3 arg4 harg4 arg5 harg5 arg6 harg6 arg7 harg7 arg8 harg8) K } := by
  refine ⟨?_, ?_, fun xi E K => ?run⟩
  case run =>
    simp only [cc1__conv_post_kernel_plain_eq_skeleton]; unfold cc1__conv_post_kernel_plain_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds, %fs, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    iexists _; iexact HS

end Cert.Kernel.Hand

end
-- ==== Proof.K.Run1B.lean ====
/-
  The kernel body of region 1 run whole at a middle tile (the running sum is carried; the pooled-sum output is left alone): on whole memrefs, the inputs at their contents,
  the body terminates leaving the inputs as they were and each buffer it stores into with its stores written, last first.
  The lists of stores are found by the symbolic run itself.
-/
import proofs.«115299_j66941360276307_2_alg».proof.Proof.K.Run1A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S2000x256 .f32) (harg1 : arg1.IsWhole) (arg2 : Memref sig .tc .vmem S2000x1 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : ¬cond1_0 i) (hc1 : ¬cond1_1 i)
    (x1 : Vec F S2000x256 .f32) (x2 : Vec F S2000x1 .f32) (x3 : Vec F S256x256 .f32) (x4 : Vec F S1x256 .f32) (x5 : Vec F S1x1 .f32) (xs : Vec F S1x256 .f32) :
    Σ' (L6 : List (View.Piece (Elt F) S2000x256 .f32)), { LS : List (View.Piece (Elt F) S1x256 .f32) //
      ∀ (xi : Vec F S1x256 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi ∗ owns (c : Thread nD τ) arg8 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__conv_post_kernel_plain i arg1 harg1 arg2 harg2 arg3 harg3 arg4 harg4 arg5 harg5 arg6 harg6 arg7 harg7 arg8 harg8) K } := by
  refine ⟨?_, ?_, fun xi E K => ?run⟩
  case run =>
    simp only [cc1__conv_post_kernel_plain_eq_skeleton]; unfold cc1__conv_post_kernel_plain_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hfs
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    iexists _; iexact HS

end Cert.Kernel.Hand

end
-- ==== Proof.K.Run1C.lean ====
/-
  The kernel body of region 1 run whole at the last tile (the running sum is carried, then copied into the pooled-sum output): on whole memrefs, the inputs at their contents,
  the body terminates leaving the inputs as they were and each buffer it stores into with its stores written, last first.
  The lists of stores are found by the symbolic run itself.
-/
import proofs.«115299_j66941360276307_2_alg».proof.Proof.K.Run1B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S2000x256 .f32) (harg1 : arg1.IsWhole) (arg2 : Memref sig .tc .vmem S2000x1 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : ¬cond1_0 i) (hc1 : cond1_1 i)
    (x1 : Vec F S2000x256 .f32) (x2 : Vec F S2000x1 .f32) (x3 : Vec F S256x256 .f32) (x4 : Vec F S1x256 .f32) (x5 : Vec F S1x1 .f32) (xs : Vec F S1x256 .f32) :
    Σ' (L6 : List (View.Piece (Elt F) S2000x256 .f32)) (L7 : List (View.Piece (Elt F) S1x256 .f32)), { LS : List (View.Piece (Elt F) S1x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LS)) -∗ K ⟨⟩))
          ⊢ wp frame (wpE (defs₀ (F := F)) Variants.none c none) E (cc1__conv_post_kernel_plain i arg1 harg1 arg2 harg2 arg3 harg3 arg4 harg4 arg5 harg5 arg6 harg6 arg7 harg7 arg8 harg8) K } := by
  refine ⟨?_, ?_, ?_, fun E K => ?run⟩
  case run =>
    simp only [cc1__conv_post_kernel_plain_eq_skeleton]; unfold cc1__conv_post_kernel_plain_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg8.eq_unread hfs
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact HS

end Cert.Kernel.Hand

end
-- ==== Proof.K.Body1.lean ====
/-
  Region 1's body obligation: at every tile the kernel body, called on the windows' current staging buffers holding
  what the proof data say they hold and on the scratch row at the running sum of the tiles before, terminates and leaves
  each output tile at the activated product of the tile's rows, the scratch row at the running sum including this tile,
  and — at the last tile only — the pooled-sum output at that running sum.
-/
import proofs.«115299_j66941360276307_2_alg».proof.Proof.K.Run1C
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of a whole-tile access are zero. -/
theorem hz2 : (![0, 0] : Fin 2 → Nat) = fun _ => 0 := funext fun a => by fin_cases a <;> rfl

/-! ## What the stores of each case read back as

The body stores whole tiles only, so each buffer ends at the payload of its last store, and every load of an input reads
the whole tile back. -/

section pieces
variable (c : Dev nD) (i : grid1.Coords) (arg1 : Memref sig .tc .vmem S2000x256 .f32) (harg1 : arg1.IsWhole) (arg2 : Memref sig .tc .vmem S2000x1 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (x1 : Vec F S2000x256 .f32) (x2 : Vec F S2000x1 .f32) (x3 : Vec F S256x256 .f32) (x4 : Vec F S1x256 .f32) (x5 : Vec F S1x1 .f32) (xs : Vec F S1x256 .f32)

/-- First tile: the output tile ends at the activated product. -/
theorem run1_A_6 (hc0 : cond1_0 i) (hc1 : ¬cond1_1 i) :
    View.canon (kernelRun1_A c i arg1 harg1 arg2 harg2 arg3 harg3 arg4 harg4 arg5 harg5 arg6 harg6 arg7 harg7 arg8 harg8 hc0 hc1 x1 x2 x3 x4 x5).1 = k1_pay2 x1 x2 x3 x4 x5 := by
  unfold kernelRun1_A
  dsimp only
  rw [View.canon_unit_zero (S := S2000x256) hz2]
  simp only [View.readAt_eq_ld, harg1.read_unread, harg2.read_unread, harg3.read_unread, harg4.read_unread, harg5.read_unread, harg8.read_unread, View.ld_unit_zero (S := S2000x256) hz2, View.ld_unit_zero (S := S2000x1) hz2, View.ld_unit_zero (S := S256x256) hz2, View.ld_unit_zero (S := S1x256) hz2, View.ld_unit_zero (S := S1x1) hz2]

/-- First tile: the scratch row is cleared, read back, and ends at the cleared row plus the tile's column sums. -/
theorem run1_A_S (hc0 : cond1_0 i) (hc1 : ¬cond1_1 i) :
    View.canon (kernelRun1_A c i arg1 harg1 arg2 harg2 arg3 harg3 arg4 harg4 arg5 harg5 arg6 harg6 arg7 harg7 arg8 harg8 hc0 hc1 x1 x2 x3 x4 x5).2.1 = k1_pay3 x1 x2 x3 x4 x5 k1_pay1 := by
  unfold kernelRun1_A
  dsimp only
  sl_unfold_words
  rw [View.canon_cons_unit_zero (S := S1x256) hz2, View.readCov_unit_zero (S := S1x256) _ hz2]
  simp only [View.readAt_eq_ld, harg1.read_unread, harg2.read_unread, harg3.read_unread, harg4.read_unread, harg5.read_unread, harg8.read_unread, View.ld_unit_zero (S := S2000x256) hz2, View.ld_unit_zero (S := S2000x1) hz2, View.ld_unit_zero (S := S256x256) hz2, View.ld_unit_zero (S := S1x256) hz2, View.ld_unit_zero (S := S1x1) hz2]

/-- A middle tile: the output tile ends at the activated product, -/
theorem run1_B_6 (hc0 : ¬cond1_0 i) (hc1 : ¬cond1_1 i) :
    View.canon (kernelRun1_B c i arg1 harg1 arg2 harg2 arg3 harg3 arg4 harg4 arg5 harg5 arg6 harg6 arg7 harg7 arg8 harg8 hc0 hc1 x1 x2 x3 x4 x5 xs).1 = k1_pay2 x1 x2 x3 x4 x5 := by
  unfold kernelRun1_B
  dsimp only
  rw [View.canon_unit_zero (S := S2000x256) hz2]
  simp only [View.readAt_eq_ld, harg1.read_unread, harg2.read_unread, harg3.read_unread, harg4.read_unread, harg5.read_unread, harg8.read_unread, View.ld_unit_zero (S := S2000x256) hz2, View.ld_unit_zero (S := S2000x1) hz2, View.ld_unit_zero (S := S256x256) hz2, View.ld_unit_zero (S := S1x256) hz2, View.ld_unit_zero (S := S1x1) hz2]

/-- and the scratch row at what it held plus the tile's column sums. -/
theorem run1_B_S (hc0 : ¬cond1_0 i) (hc1 : ¬cond1_1 i) :
    View.canon (kernelRun1_B c i arg1 harg1 arg2 harg2 arg3 harg3 arg4 harg4 arg5 harg5 arg6 harg6 arg7 harg7 arg8 harg8 hc0 hc1 x1 x2 x3 x4 x5 xs).2.1 = k1_pay3 x1 x2 x3 x4 x5 xs := by
  unfold kernelRun1_B
  dsimp only
  rw [View.canon_unit_zero (S := S1x256) hz2]
  simp only [View.readAt_eq_ld, harg1.read_unread, harg2.read_unread, harg3.read_unread, harg4.read_unread, harg5.read_unread, harg8.read_unread, View.ld_unit_zero (S := S2000x256) hz2, View.ld_unit_zero (S := S2000x1) hz2, View.ld_unit_zero (S := S256x256) hz2, View.ld_unit_zero (S := S1x256) hz2, View.ld_unit_zero (S := S1x1) hz2]

/-- The last tile: the same for the output tile -/
theorem run1_C_6 (hc0 : ¬cond1_0 i) (hc1 : cond1_1 i) :
    View.canon (kernelRun1_C c i arg1 harg1 arg2 harg2 arg3 harg3 arg4 harg4 arg5 harg5 arg6 harg6 arg7 harg7 arg8 harg8 hc0 hc1 x1 x2 x3 x4 x5 xs).1 = k1_pay2 x1 x2 x3 x4 x5 := by
  unfold kernelRun1_C
  dsimp only
  rw [View.canon_unit_zero (S := S2000x256) hz2]
  simp only [View.readAt_eq_ld, harg1.read_unread, harg2.read_unread, harg3.read_unread, harg4.read_unread, harg5.read_unread, harg8.read_unread, View.ld_unit_zero (S := S2000x256) hz2, View.ld_unit_zero (S := S2000x1) hz2, View.ld_unit_zero (S := S256x256) hz2, View.ld_unit_zero (S := S1x256) hz2, View.ld_unit_zero (S := S1x1) hz2]

/-- and for the scratch row, -/
theorem run1_C_S (hc0 : ¬cond1_0 i) (hc1 : cond1_1 i) :
    View.canon (kernelRun1_C c i arg1 harg1 arg2 harg2 arg3 harg3 arg4 harg4 arg5 harg5 arg6 harg6 arg7 harg7 arg8 harg8 hc0 hc1 x1 x2 x3 x4 x5 xs).2.2.1 = k1_pay3 x1 x2 x3 x4 x5 xs := by
  unfold kernelRun1_C
  dsimp only
  sl_unfold_words
  rw [View.canon_unit_zero (S := S1x256) hz2]
  simp only [View.readAt_eq_ld, harg1.read_unread, harg2.read_unread, harg3.read_unread, harg4.read_unread, harg5.read_unread, harg8.read_unread, View.ld_unit_zero (S := S2000x256) hz2, View.ld_unit_zero (S := S2000x1) hz2, View.ld_unit_zero (S := S256x256) hz2, View.ld_unit_zero (S := S1x256) hz2, View.ld_unit_zero (S := S1x1) hz2]

/-- whose new contents, read back, are what the pooled-sum output ends at. -/
theorem run1_C_7 (hc0 : ¬cond1_0 i) (hc1 : cond1_1 i) :
    View.canon (kernelRun1_C c i arg1 harg1 arg2 harg2 arg3 harg3 arg4 harg4 arg5 harg5 arg6 harg6 arg7 harg7 arg8 harg8 hc0 hc1 x1 x2 x3 x4 x5 xs).2.1 = k1_pay3 x1 x2 x3 x4 x5 xs := by
  unfold kernelRun1_C
  dsimp only
  sl_unfold_words
  rw [View.canon_unit_zero (S := S1x256) hz2, View.readCov_unit_zero (S := S1x256) _ hz2]
  simp only [View.readAt_eq_ld, harg1.read_unread, harg2.read_unread, harg3.read_unread, harg4.read_unread, harg5.read_unread, harg8.read_unread, View.ld_unit_zero (S := S2000x256) hz2, View.ld_unit_zero (S := S2000x1) hz2, View.ld_unit_zero (S := S256x256) hz2, View.ld_unit_zero (S := S1x256) hz2, View.ld_unit_zero (S := S1x1) hz2]

/-! ## Each case's stores cover the buffers they go to -/

theorem cover1_A_6 (hc0 : cond1_0 i) (hc1 : ¬cond1_1 i) (y : S2000x256.Idx) :
    ∃ pc ∈ (kernelRun1_A c i arg1 harg1 arg2 harg2 arg3 harg3 arg4 harg4 arg5 harg5 arg6 harg6 arg7 harg7 arg8 harg8 hc0 hc1 x1 x2 x3 x4 x5).1, y ∈ pc.1.set :=
  View.cover_of_tiledL (kernelRun1_A c i arg1 harg1 arg2 harg2 arg3 harg3 arg4 harg4 arg5 harg5 arg6 harg6 arg7 harg7 arg8 harg8 hc0 hc1 x1 x2 x3 x4 x5).1 S2000x256.size (by sl_kernel_rfl) y
theorem cover1_A_S (hc0 : cond1_0 i) (hc1 : ¬cond1_1 i) (y : S1x256.Idx) :
    ∃ pc ∈ (kernelRun1_A c i arg1 harg1 arg2 harg2 arg3 harg3 arg4 harg4 arg5 harg5 arg6 harg6 arg7 harg7 arg8 harg8 hc0 hc1 x1 x2 x3 x4 x5).2.1, y ∈ pc.1.set :=
  View.cover_of_tiledL (kernelRun1_A c i arg1 harg1 arg2 harg2 arg3 harg3 arg4 harg4 arg5 harg5 arg6 harg6 arg7 harg7 arg8 harg8 hc0 hc1 x1 x2 x3 x4 x5).2.1 S1x256.size (by sl_kernel_rfl) y
theorem cover1_B_6 (hc0 : ¬cond1_0 i) (hc1 : ¬cond1_1 i) (y : S2000x256.Idx) :
    ∃ pc ∈ (kernelRun1_B c i arg1 harg1 arg2 harg2 arg3 harg3 arg4 harg4 arg5 harg5 arg6 harg6 arg7 harg7 arg8 harg8 hc0 hc1 x1 x2 x3 x4 x5 xs).1, y ∈ pc.1.set :=
  View.cover_of_tiledL (kernelRun1_B c i arg1 harg1 arg2 harg2 arg3 harg3 arg4 harg4 arg5 harg5 arg6 harg6 arg7 harg7 arg8 harg8 hc0 hc1 x1 x2 x3 x4 x5 xs).1 S2000x256.size (by sl_kernel_rfl) y
theorem cover1_B_S (hc0 : ¬cond1_0 i) (hc1 : ¬cond1_1 i) (y : S1x256.Idx) :
    ∃ pc ∈ (kernelRun1_B c i arg1 harg1 arg2 harg2 arg3 harg3 arg4 harg4 arg5 harg5 arg6 harg6 arg7 harg7 arg8 harg8 hc0 hc1 x1 x2 x3 x4 x5 xs).2.1, y ∈ pc.1.set :=
  View.cover_of_tiledL (kernelRun1_B c i arg1 harg1 arg2 harg2 arg3 harg3 arg4 harg4 arg5 harg5 arg6 harg6 arg7 harg7 arg8 harg8 hc0 hc1 x1 x2 x3 x4 x5 xs).2.1 S1x256.size (by sl_kernel_rfl) y
theorem cover1_C_6 (hc0 : ¬cond1_0 i) (hc1 : cond1_1 i) (y : S2000x256.Idx) :
    ∃ pc ∈ (kernelRun1_C c i arg1 harg1 arg2 harg2 arg3 harg3 arg4 harg4 arg5 harg5 arg6 harg6 arg7 harg7 arg8 harg8 hc0 hc1 x1 x2 x3 x4 x5 xs).1, y ∈ pc.1.set :=
  View.cover_of_tiledL (kernelRun1_C c i arg1 harg1 arg2 harg2 arg3 harg3 arg4 harg4 arg5 harg5 arg6 harg6 arg7 harg7 arg8 harg8 hc0 hc1 x1 x2 x3 x4 x5 xs).1 S2000x256.size (by sl_kernel_rfl) y
theorem cover1_C_7 (hc0 : ¬cond1_0 i) (hc1 : cond1_1 i) (y : S1x256.Idx) :
    ∃ pc ∈ (kernelRun1_C c i arg1 harg1 arg2 harg2 arg3 harg3 arg4 harg4 arg5 harg5 arg6 harg6 arg7 harg7 arg8 harg8 hc0 hc1 x1 x2 x3 x4 x5 xs).2.1, y ∈ pc.1.set :=
  View.cover_of_tiledL (kernelRun1_C c i arg1 harg1 arg2 harg2 arg3 harg3 arg4 harg4 arg5 harg5 arg6 harg6 arg7 harg7 arg8 harg8 hc0 hc1 x1 x2 x3 x4 x5 xs).2.1 S1x256.size (by sl_kernel_rfl) y
theorem cover1_C_S (hc0 : ¬cond1_0 i) (hc1 : cond1_1 i) (y : S1x256.Idx) :
    ∃ pc ∈ (kernelRun1_C c i arg1 harg1 arg2 harg2 arg3 harg3 arg4 harg4 arg5 harg5 arg6 harg6 arg7 harg7 arg8 harg8 hc0 hc1 x1 x2 x3 x4 x5 xs).2.2.1, y ∈ pc.1.set :=
  View.cover_of_tiledL (kernelRun1_C c i arg1 harg1 arg2 harg2 arg3 harg3 arg4 harg4 arg5 harg5 arg6 harg6 arg7 harg7 arg8 harg8 hc0 hc1 x1 x2 x3 x4 x5 xs).2.2.1 S1x256.size (by sl_kernel_rfl) y

end pieces

/-- What the launch hands the region is the invariant before the first tile. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

abbrev ms1_0 (t : Fin cfg1.N) : Memref sig .tc .vmem S2000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)

/-- At the first tile the running sum is the cleared row plus the tile's column sums. -/
theorem acc1_first (c : Dev nD) (t : Fin cfg1.N) (ht : t.val = 0) :
    acc1 V c t.val t.isLt = k1_pay3 (iblk1 V c 0 t) (iblk1 V c 1 t) (iblk1 V c 2 t) (iblk1 V c 3 t) (iblk1 V c 4 t) (k1_pay1 (F := F)) := by
  obtain ⟨n, hn⟩ := t
  cases n with
  | zero => rfl
  | succ n => exact absurd ht (Nat.succ_ne_zero n)

/-- What the body is called with at tile t: the invariant, what the core owes, and each window's current staging buffer
    at what the proof data say it holds. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any tile. The input buffers hold their blocks; the closed forms of the two conditions say which of the
    three cases the tile is in; the invariant lends the scratch row (at anything before the first tile, at the running
    sum of the tiles before afterwards) and takes it back at the running sum including this tile; the output tile ends
    at the activated product; the pooled-sum output is handed back untouched except at the last tile, where it ends at
    the final running sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val = 0
  · -- the first tile
    have hA0 : cond1_0 (grid1.coords t) := (hcond1_0 t).mpr h0
    have hA1 : ¬cond1_1 (grid1.coords t) := fun h => by have := (hcond1_1 t).mp h; omega
    rw [Dat.leavesExact_idle (dat1 V c) 6 t (idleAt1_6 t hA1) (noFlush1_6 t hA1)]
    rw [PhiS1_castSucc V c t, PhiS1_zero V c _ _ h0, PhiA1_eq]
    iintro ⟨⟨HR, Hg⟩, Ho, ⟨%d0, H0⟩, ⟨%d1, H1⟩, ⟨%d2, H2⟩, ⟨%d3, H3⟩, ⟨%d4, H4⟩, ⟨%d5, H5⟩, ⟨%d6, H6⟩⟩
    ihave HR' := (rest1_swap c _ (owns (c : Thread nD τ) scM1 fullShare (acc1 V c t.val t.isLt))) $$ HR
    icases HR' with ⟨HS, Hback⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hA0 hA1 (iblk1 V c 0 t) (iblk1 V c 1 t) (iblk1 V c 2 t) (iblk1 V c 3 t) (iblk1 V c 4 t)).2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    iintro ⟨H0, H1, H2, H3, H4, ⟨%e5, H5⟩, H6, ⟨%es, HS⟩⟩
    isplitl [HS Hg Hback]
    · isplitl [HS Hback]
      · iapply Hback
        unfold owns; iexists _; isplitr
        swap; · iexact HS
        ipureintro
        exact (View.read_writes_eq_canon _ _ _ (cover1_A_S c _ _ _ _ _ _ _ _ _ _ _ _ _ _ _ _ _ _ _ _ _ _ hA0 hA1)).trans
          ((run1_A_S c _ _ _ _ _ _ _ _ _ _ _ _ _ _ _ _ _ _ _ _ _ _ hA0 hA1).trans (acc1_first V c t h0).symm)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      exact (View.read_writes_eq_canon _ _ _ (cover1_A_6 c _ _ _ _ _ _ _ _ _ _ _ _ _ _ _ _ _ _ _ _ _ _ hA0 hA1)).trans
        (run1_A_6 c _ _ _ _ _ _ _ _ _ _ _ _ _ _ _ _ _ _ _ _ _ _ hA0 hA1)
    iexists _; iexact H6
  · have hB0 : ¬cond1_0 (grid1.coords t) := fun h => h0 ((hcond1_0 t).mp h)
    rw [PhiS1_castSucc V c t, PhiS1_pos V c _ _ h0, acc1_pos V c t h0]
    by_cases h1 : t.val = 24
    · -- the last tile
      have hC1 : cond1_1 (grid1.coords t) := (hcond1_1 t).mpr h1
      rw [show (dat1 V c).leavesExact 6 t = owns (c : Thread nD τ) (ms1_6 t) fullShare ((dat1 V c).after 6 t) from by
        unfold Dat.leavesExact; rw [liveAt1_6 t hC1], after1_6, acc1_pos V c t h0]
      iintro ⟨⟨HR, Hg⟩, Ho, ⟨%d0, H0⟩, ⟨%d1, H1⟩, ⟨%d2, H2⟩, ⟨%d3, H3⟩, ⟨%d4, H4⟩, ⟨%d5, H5⟩, ⟨%d6, H6⟩⟩
      ihave HR' := (rest1_swap c _ (owns (c : Thread nD τ) scM1 fullShare (k1_pay3 (iblk1 V c 0 t) (iblk1 V c 1 t) (iblk1 V c 2 t) (iblk1 V c 3 t) (iblk1 V c 4 t) (acc1 V c (t.val - 1) (Nat.lt_of_le_of_lt (Nat.sub_le _ _) t.isLt))))) $$ HR
      icases HR' with ⟨HS, Hback⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hB0 hC1 (iblk1 V c 0 t) (iblk1 V c 1 t) (iblk1 V c 2 t) (iblk1 V c 3 t) (iblk1 V c 4 t) (acc1 V c (t.val - 1) (Nat.lt_of_le_of_lt (Nat.sub_le _ _) t.isLt))).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, ⟨%e5, H5⟩, ⟨%e6, H6⟩, ⟨%es, HS⟩⟩
      isplitl [HS Hg Hback]
      · isplitl [HS Hback]
        · iapply Hback
          unfold owns; iexists _; isplitr
          swap; · iexact HS
          ipureintro
          exact (View.read_writes_eq_canon _ _ _ (cover1_C_S c _ _ _ _ _ _ _ _ _ _ _ _ _ _ _ _ _ _ _ _ _ _ _ hB0 hC1)).trans
            (run1_C_S c _ _ _ _ _ _ _ _ _ _ _ _ _ _ _ _ _ _ _ _ _ _ _ hB0 hC1)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro
        exact (View.read_writes_eq_canon _ _ _ (cover1_C_6 c _ _ _ _ _ _ _ _ _ _ _ _ _ _ _ _ _ _ _ _ _ _ _ hB0 hC1)).trans
          (run1_C_6 c _ _ _ _ _ _ _ _ _ _ _ _ _ _ _ _ _ _ _ _ _ _ _ hB0 hC1)
      unfold owns; iexists _; isplitr
      swap; · iexact H6
      ipureintro
      exact (View.read_writes_eq_canon _ _ _ (cover1_C_7 c _ _ _ _ _ _ _ _ _ _ _ _ _ _ _ _ _ _ _ _ _ _ _ hB0 hC1)).trans
        (run1_C_7 c _ _ _ _ _ _ _ _ _ _ _ _ _ _ _ _ _ _ _ _ _ _ _ hB0 hC1)
    · -- a middle tile
      have hB1 : ¬cond1_1 (grid1.coords t) := fun h => h1 ((hcond1_1 t).mp h)
      rw [Dat.leavesExact_idle (dat1 V c) 6 t (idleAt1_6 t hB1) (noFlush1_6 t hB1)]
      iintro ⟨⟨HR, Hg⟩, Ho, ⟨%d0, H0⟩, ⟨%d1, H1⟩, ⟨%d2, H2⟩, ⟨%d3, H3⟩, ⟨%d4, H4⟩, ⟨%d5, H5⟩, ⟨%d6, H6⟩⟩
      ihave HR' := (rest1_swap c _ (owns (c : Thread nD τ) scM1 fullShare (k1_pay3 (iblk1 V c 0 t) (iblk1 V c 1 t) (iblk1 V c 2 t) (iblk1 V c 3 t) (iblk1 V c 4 t) (acc1 V c (t.val - 1) (Nat.lt_of_le_of_lt (Nat.sub_le _ _) t.isLt))))) $$ HR
      icases HR' with ⟨HS, Hback⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hB0 hB1 (iblk1 V c 0 t) (iblk1 V c 1 t) (iblk1 V c 2 t) (iblk1 V c 3 t) (iblk1 V c 4 t) (acc1 V c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, ⟨%e5, H5⟩, H6, ⟨%es, HS⟩⟩
      isplitl [HS Hg Hback]
      · isplitl [HS Hback]
        · iapply Hback
          unfold owns; iexists _; isplitr
          swap; · iexact HS
          ipureintro
          exact (View.read_writes_eq_canon _ _ _ (cover1_B_S c _ _ _ _ _ _ _ _ _ _ _ _ _ _ _ _ _ _ _ _ _ _ _ hB0 hB1)).trans
            (run1_B_S c _ _ _ _ _ _ _ _ _ _ _ _ _ _ _ _ _ _ _ _ _ _ _ hB0 hB1)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro
        exact (View.read_writes_eq_canon _ _ _ (cover1_B_6 c _ _ _ _ _ _ _ _ _ _ _ _ _ _ _ _ _ _ _ _ _ _ _ hB0 hB1)).trans
          (run1_B_6 c _ _ _ _ _ _ _ _ _ _ _ _ _ _ _ _ _ _ _ _ _ _ _ hB0 hB1)
      iexists _; iexact H6

/-- The library's body obligation, at every tile. -/
theorem body_obligation1 (c : Dev nD) : BodyObligation (dat1 (F := F) V c) (defs₀ (F := F)) Variants.none () Set.univ := fun t => by
  rw [bigSep_W1, bigSep_W1]
  exact sound_body1 V c t

/-- After any tile the invariant gives the class invariant back: the scratch row's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, Hg⟩
  ihave HR' := (rest1_swap c _ iprop(∃ d, owns (c : Thread nD τ) scM1 fullShare d)) $$ HR
  icases HR' with ⟨HS, Hback⟩
  isplitl [HS Hback]
  · iapply Hback
    iexists _; iexact HS
  iexact Hg

/-- After the last tile the invariant gives the class invariant back: the scratch row's contents are forgotten. -/
theorem hout1 (c : Dev nD) : (dat1 V c).Φ (Fin.last cfg1.N) ⊢ Pipeline.ΦA spec1 c :=
  Phi_out1 V c _ (by rw [Fin.val_last]; have : cfg1.N = 25 := N_1; omega)

end Cert.Kernel.Hand

end
-- ==== Proof.K.Launch.lean ====
/-
  The two kernel regions as segments of the program, and the program's run.

  Between two segments a core holds every unscoped buffer whole at a known valuation: the launch memory, then each host
  stretch applied, then at each region's exit the region's arrays at what its write-backs leave. A region's record says
  how its arrays are taken out of those buffers at entry and put back at exit, how the scoped buffers and the generator
  register enter its invariant and come back, and carries its body obligation. The run then reads, off the last
  valuation, the two results and the eight arguments.
-/
import proofs.«115299_j66941360276307_2_alg».proof.Proof.K.Vals
import proofs.«115299_j66941360276307_2_alg».proof.Proof.K.Body0
import proofs.«115299_j66941360276307_2_alg».proof.Proof.K.Body1
import proofs.«115299_j66941360276307_2_alg».proof.Proof.Gen.Kernel.Regions
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents (a literal match on the pipeline). -/
def pdats : (p : Fin 2) → (c : Dev nD) → Dat τ (Elt F) Unit ℕ (UR sig nD τ) ℕ (Pipeline.pin (pcfgs (F := F)) Gen.adm p) c
  | ⟨0, _⟩ => fun c => dat0 (VA m) c
  | ⟨1, _⟩ => fun c => dat1 (VB m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## Each region's arrays at its exit valuation -/

/-- Region 0's exit valuation holds each of its arrays at what the pipeline leaves there (the inputs as entered), -/
theorem hF0 (c : Dev nD) (w : Fin cfg0.W) : (pdats m 0 c).arrAt w cfg0.N = Gen.V2 m (outs2 m) c (Pipeline.arrRef spec0 w) := by
  show (dat0 (VA m) c).arrAt w cfg0.N = _
  fin_cases w
  · exact (((dat0 (VA m) c).arrAt_in 0 rfl _).trans (A_eq0 (VA m) c 0)).trans (Gen.V2_of m (outs2 m) c _ (by decide)).symm
  · exact (((dat0 (VA m) c).arrAt_in 1 rfl _).trans (A_eq0 (VA m) c 1)).trans (Gen.V2_of m (outs2 m) c _ (by decide)).symm
  · exact (((dat0 (VA m) c).arrAt_in 2 rfl _).trans (A_eq0 (VA m) c 2)).trans (Gen.V2_of m (outs2 m) c _ (by decide)).symm
  · exact (((dat0 (VA m) c).arrAt_in 3 rfl _).trans (A_eq0 (VA m) c 3)).trans (Gen.V2_of m (outs2 m) c _ (by decide)).symm
  · exact (((dat0 (VA m) c).arrAt_in 4 rfl _).trans (A_eq0 (VA m) c 4)).trans (Gen.V2_of m (outs2 m) c _ (by decide)).symm
  · exact (((dat0 (VA m) c).arrAt_in 5 rfl _).trans (A_eq0 (VA m) c 5)).trans (Gen.V2_of m (outs2 m) c _ (by decide)).symm
  · exact (V2_v39_0 m c).symm
  · exact (V2_v39_1 m c).symm
  · exact (V2_v39_2 m c).symm
/-- and every other buffer at what it held at entry. -/
theorem hrest0 (c : Dev nD) : ∀ b, b ∉ Finset.univ.image (Pipeline.arrRef spec0) → Gen.V2 m (outs2 m) c b = VA m c b :=
  fun b hb => Gen.V2_of m (outs2 m) c b (by
    intro hmem
    simp only [List.mem_cons, List.mem_nil_iff, or_false] at hmem
    rcases hmem with rfl | rfl | rfl
    · exact hb (Finset.mem_image.mpr ⟨6, Finset.mem_univ _, rfl⟩)
    · exact hb (Finset.mem_image.mpr ⟨7, Finset.mem_univ _, rfl⟩)
    · exact hb (Finset.mem_image.mpr ⟨8, Finset.mem_univ _, rfl⟩))

theorem hF1 (c : Dev nD) (w : Fin cfg1.W) : (pdats m 1 c).arrAt w cfg1.N = Gen.V4 m (outsK m) c (Pipeline.arrRef spec1 w) := by
  show (dat1 (VB m) c).arrAt w cfg1.N = _
  fin_cases w
  · exact (((dat1 (VB m) c).arrAt_in 0 rfl _).trans (A_eq1 (VB m) c 0)).trans ((Gen.V4_of m (outsK m) c _ (by decide)).trans (congrFun (V3_outsK m c) _)).symm
  · exact (((dat1 (VB m) c).arrAt_in 1 rfl _).trans (A_eq1 (VB m) c 1)).trans ((Gen.V4_of m (outsK m) c _ (by decide)).trans (congrFun (V3_outsK m c) _)).symm
  · exact (((dat1 (VB m) c).arrAt_in 2 rfl _).trans (A_eq1 (VB m) c 2)).trans ((Gen.V4_of m (outsK m) c _ (by decide)).trans (congrFun (V3_outsK m c) _)).symm
  · exact (((dat1 (VB m) c).arrAt_in 3 rfl _).trans (A_eq1 (VB m) c 3)).trans ((Gen.V4_of m (outsK m) c _ (by decide)).trans (congrFun (V3_outsK m c) _)).symm
  · exact (((dat1 (VB m) c).arrAt_in 4 rfl _).trans (A_eq1 (VB m) c 4)).trans ((Gen.V4_of m (outsK m) c _ (by decide)).trans (congrFun (V3_outsK m c) _)).symm
  · exact (V4_v53_0 m c).symm
  · exact (V4_v53_1 m c).symm
theorem hrest1 (c : Dev nD) : ∀ b, b ∉ Finset.univ.image (Pipeline.arrRef spec1) → Gen.V4 m (outsK m) c b = VB m c b :=
  fun b hb => (Gen.V4_of m (outsK m) c b (by
    intro hmem
    simp only [List.mem_cons, List.mem_nil_iff, or_false] at hmem
    rcases hmem with rfl | rfl
    · exact hb (Finset.mem_image.mpr ⟨5, Finset.mem_univ _, rfl⟩)
    · exact hb (Finset.mem_image.mpr ⟨6, Finset.mem_univ _, rfl⟩))).trans (congrFun (V3_outsK m c) _)

/-! ## The regions as segments -/

-- unifying a library lemma stated over the pinned configuration needs plain definitions unfolded in a metavariable's type
set_option backward.isDefEq.respectTransparency.types false in
/-- Region 0 over the thread state: entered from every unscoped buffer at the valuation before it, left at the
    valuation after it. Its arrays are split out of the unscoped buffers at entry and put back at exit; the generator
    register and the scoped buffers enter the invariant and come back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs2 m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (VA m) c)
    unfold Pipeline.ΦA
    iintro ⟨Hp, -, Hr⟩
    isplitl [Hr]; · iexact Hr
    iexact Hp
  hout c := by
    rw [Pipeline.ownSems0_none]
    refine Idealize.SL.BI.BIBase.Entails.trans (hout0 (VA m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VA m c) (fun b => Gen.V2 m (outs2 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration needs plain definitions unfolded in a metavariable's type
set_option backward.isDefEq.respectTransparency.types false in
/-- Region 1 over the thread state: entered from every unscoped buffer at the valuation before it, left at the
    valuation after it. Its arrays are split out of the unscoped buffers at entry and put back at exit; the generator
    register and the scoped buffers enter the invariant and come back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (Gen.V3 m (outs2 m) c) ∗ R c)
  post c := iprop(StableHlo.held (c : Thread nD τ) (Pipeline.ucRefs τ sig) (Gen.V4 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (VB m) c)
    unfold Pipeline.ΦA
    iintro ⟨Hp, -, Hr⟩
    isplitl [Hr]; · iexact Hr
    iexact Hp
  hout c := by
    rw [Pipeline.ownSems0_none]
    refine Idealize.SL.BI.BIBase.Entails.trans (hout1 (VB m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VB m c) (fun b => Gen.V4 m (outsK m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The program's five segments on a core: host stretch, region 0, host stretch, region 1, host stretch. -/
abbrev segsK (c : Dev nD) : List (Pipeline.Seg (pcfgs (F := F)) Gen.adm (pdats m) () defs₀ 𝒱₀ L lv) :=
  Gen.segs m (outsK m) 𝒱₀ L lv (fun _ => R) () (pdats m) (reg0 m) (reg1 m) c

-- the launch theorem's implicit arguments are found by unifying its conclusion with this one
set_option backward.isDefEq.respectTransparency.types false in
set_option maxHeartbeats 1600000 in
/-- From any memory with zero counters every weakly fair execution of the program terminates, nothing faulting, and the
    final memory holds every unscoped buffer at the last valuation: the launch memory with each host stretch applied and
    each region's arrays at what its write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V5 m (outsK m) c b) := by
  refine Pipeline.θ_run_regions_kit_dev (pcfgs (F := F)) Gen.adm (pdats m) () cellOf_inj emb₁ defs₀ 𝒱₀ L lv m ρ main
    (segsK m)
    (fun c Q => by
      rewrite [main_chain c, Pipeline.Seg.run_eq_chain,
        show (segsK m c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segsK, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V5 m (outsK m) c) ∗ ∃ r, prngReg c r))
    (hch := fun c => ⟨.rfl, .rfl,
      Entails.of_eq (congrArg (fun W => iprop(StableHlo.held (c : Thread nD τ) (Pipeline.ucRefs τ sig) W ∗ R c)) (V2_outsK m c).symm),
      Entails.of_eq (congrArg (fun W => iprop(StableHlo.held (c : Thread nD τ) (Pipeline.ucRefs τ sig) W ∗ R c)) (V3_outsK m c)),
      .rfl,
      (show (iprop(StableHlo.held (c : Thread nD τ) (Pipeline.ucRefs τ sig) (Gen.V5 m (outsK m) c) ∗ R c) : sProp 𝕄)
          ⊢ iprop(iprop(StableHlo.held (c : Thread nD τ) (Pipeline.ucRefs τ sig) (Gen.V5 m (outsK m) c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outsK m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outsK m) c) s')
      isplitl [Hh] <;> iassumption)
    (hQ := fun s h => h)

/-- THE FRAME: every weakly fair execution terminates, nothing faulting, with the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (Gen.V5_main_arg0 m (outsK m) c),
     (h c _ (mem_uc main_arg1 (by decide))).trans (Gen.V5_main_arg1 m (outsK m) c),
     (h c _ (mem_uc main_arg2 (by decide))).trans (Gen.V5_main_arg2 m (outsK m) c),
     (h c _ (mem_uc main_arg3 (by decide))).trans (Gen.V5_main_arg3 m (outsK m) c),
     (h c _ (mem_uc main_arg4 (by decide))).trans (Gen.V5_main_arg4 m (outsK m) c),
     (h c _ (mem_uc main_arg5 (by decide))).trans (Gen.V5_main_arg5 m (outsK m) c),
     (h c _ (mem_uc main_arg6 (by decide))).trans (Gen.V5_main_arg6 m (outsK m) c),
     (h c _ (mem_uc main_arg7 (by decide))).trans (Gen.V5_main_arg7 m (outsK m) c)⟩) (run_all m ρ)

/-! ## The two results, read off the last valuation -/

/-- The first result is region 1's first output array as its write-backs leave it. -/
theorem V5_v53_0 (c : Dev nD) : Gen.V5 m (outsK m) c main_v53_0 = (dat1 (VB m) c).arrAt 5 cfg1.N :=
  (Gen.V5_of m (outsK m) c main_v53_0 (by decide)).trans (V4_v53_0 m c)

/-- The pooled sum of layer 1 survives the second host stretch and the second region untouched. -/
theorem V4_v39_2 (c : Dev nD) : Gen.V4 m (outsK m) c main_v39_2 = (dat0 (VA m) c).arrAt 8 cfg0.N :=
  (Gen.V4_of m (outsK m) c main_v39_2 (by decide)).trans <| (Gen.V3_of m (outsK m) c main_v39_2 (by decide)).trans <|
    (congrFun (V2_outsK m c) _).trans (V2_v39_2 m c)

/-- The second result is the two pooled sums side by side. -/
theorem V5_v54 (c : Dev nD) : Gen.V5 m (outsK m) c main_v54
    = concatenate S1x512 1 [⟨S1x256, (dat0 (VA m) c).arrAt 8 cfg0.N⟩, ⟨S1x256, (dat1 (VB m) c).arrAt 6 cfg1.N⟩] concatenates_S1x256_S1x256_S1x512_d1 := by
  rw [← V4_v39_2 m c, ← V4_v53_1 m c]
  dsimp only [Gen.V5, hostOps2]
  after_results

/-- The run with both results named. -/
theorem run_vals : θ_run defs (onTc (τ := τ) (main (F := F))) ⟨m, fun _ => 0, ρ⟩ (fun r => ∀ c : Dev nD,
      r.2.mem ((c.tc : Thread nD τ).loc main_v53_0) = (dat1 (VB m) c).arrAt 5 cfg1.N
      ∧ r.2.mem ((c.tc : Thread nD τ).loc main_v54) = concatenate S1x512 1 [⟨S1x256, (dat0 (VA m) c).arrAt 8 cfg0.N⟩, ⟨S1x256, (dat1 (VB m) c).arrAt 6 cfg1.N⟩] concatenates_S1x256_S1x256_S1x512_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v53_0 (by decide))).trans (V5_v53_0 m c),
     (h c _ (mem_uc main_v54 (by decide))).trans (V5_v54 m c),
     (h c _ (mem_uc main_arg0 (by decide))).trans (Gen.V5_main_arg0 m (outsK m) c),
     (h c _ (mem_uc main_arg1 (by decide))).trans (Gen.V5_main_arg1 m (outsK m) c),
     (h c _ (mem_uc main_arg2 (by decide))).trans (Gen.V5_main_arg2 m (outsK m) c),
     (h c _ (mem_uc main_arg3 (by decide))).trans (Gen.V5_main_arg3 m (outsK m) c),
     (h c _ (mem_uc main_arg4 (by decide))).trans (Gen.V5_main_arg4 m (outsK m) c),
     (h c _ (mem_uc main_arg5 (by decide))).trans (Gen.V5_main_arg5 m (outsK m) c),
     (h c _ (mem_uc main_arg6 (by decide))).trans (Gen.V5_main_arg6 m (outsK m) c),
     (h c _ (mem_uc main_arg7 (by decide))).trans (Gen.V5_main_arg7 m (outsK m) c)⟩) (run_all m ρ)

end Cert.Kernel.Hand

end
-- ==== Proof.KI.Data.lean ====
/-
  The proof data of the two kernel regions, stated at a parameter: the buffer contents each region is entered from.

  Each region walks the 25 row tiles of a 50000 × 256 activation. At tile t it reads the tile's rows of the
  aggregated messages and of the degree normalisations, the whole weight matrix, the bias row and the slope, and leaves
  in its output tiles the activated product (and, in the first region, that product rescaled for the next layer).
  Beside the tiles it keeps a 1 × 256 running column sum in a scratch row: cleared at the first tile, increased by
  the tile's column sums at every tile, copied into the pooled-sum output at the last tile. What the scratch row holds
  after tile t is therefore a recursion on t (`acc0`, `acc1`), and the region's invariant between two tiles says so.
-/
import proofs.«115299_j66941360276307_2_alg».proof.Proof.Gen.KernelIdeal.Launch
import proofs.«115299_j66941360276307_2_alg».proof.Proof.Gen.KernelIdeal.Skeleton
import proofs.«115299_j66941360276307_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 -/

/-- Window w's block at tile t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The activated product of tile t: what the region stores into the tile of its first output. -/
def blkH0 (c : Dev nD) (t : Fin cfg0.N) : Vec F S2000x256 .f32 :=
  k0_pay3 (iblk0 V c 0 t) (iblk0 V c 1 t) (iblk0 V c 3 t) (iblk0 V c 4 t) (iblk0 V c 5 t)

/-- The same rescaled row by row for the next layer: what it stores into the tile of its second output. -/
def blkS0 (c : Dev nD) (t : Fin cfg0.N) : Vec F S2000x256 .bf16 :=
  k0_pay4 (iblk0 V c 0 t) (iblk0 V c 1 t) (iblk0 V c 3 t) (iblk0 V c 4 t) (iblk0 V c 5 t) (iblk0 V c 2 t)

/-- The column sums of tile t's activated product. -/
def colsum0 (c : Dev nD) (t : Fin cfg0.N) : FVec F S256 .f32 :=
  k0_pay5 (iblk0 V c 0 t) (iblk0 V c 1 t) (iblk0 V c 3 t) (iblk0 V c 4 t) (iblk0 V c 5 t)

/-- The running column sum after tile n: the cleared row plus tile 0's sums, then each later tile's sums added. -/
def acc0 (c : Dev nD) : (n : ℕ) → n < cfg0.N → Vec F S1x256 .f32
  | 0, h => k0_pay1 (k0_pay2 (F := F)) (colsum0 V c ⟨0, h⟩)
  | n + 1, h => k0_pay1 (acc0 c n (Nat.lt_of_succ_lt h)) (colsum0 V c ⟨n + 1, h⟩)

theorem acc0_zero (c : Dev nD) (h : 0 < cfg0.N) : acc0 V c 0 h = k0_pay1 (k0_pay2 (F := F)) (colsum0 V c ⟨0, h⟩) := rfl
theorem acc0_succ (c : Dev nD) (n : ℕ) (h : n + 1 < cfg0.N) :
    acc0 V c (n + 1) h = k0_pay1 (acc0 V c n (Nat.lt_of_succ_lt h)) (colsum0 V c ⟨n + 1, h⟩) := rfl
theorem acc0_pos (c : Dev nD) (t : Fin cfg0.N) (ht : t.val ≠ 0) :
    acc0 V c t.val t.isLt = k0_pay1 (acc0 V c (t.val - 1) (Nat.lt_of_le_of_lt (Nat.sub_le _ _) t.isLt)) (colsum0 V c t) := by
  obtain ⟨n, hn⟩ := t
  cases n with
  | zero => exact absurd rfl ht
  | succ n => rfl

/-- The running-sum scratch row as a whole memref. -/
abbrev scM0 : Memref sig .tc .vmem S1x256 .f32 := Memref.whole cc0_scratch0

/-- The scoped buffers of the core that are neither a staging buffer of this region nor its scratch row,
    each whole at some contents: the region never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_scratch0), ((c : Thread nD τ).loc cc1_scratch0) ↦{fullShare} f))

/-- The class invariant with the scratch row split off. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-- The region invariant before tile n: at entry the class invariant (the scratch row at anything); afterwards the
    scratch row at the running sum the tile before left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 c) ∗ (∃ r, prngReg c r)) := by
  cases n with
  | zero => exact absurd rfl hz
  | succ n => rfl

/-- The proof data of region 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => blkH0 V c t
    | ⟨7, _⟩ => blkS0 V c t
    | ⟨8, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = blkH0 V c t := by dsimp only [dat0]
theorem after0_7 (c : Dev nD) (t : Fin cfg0.N) : (dat0 V c).after 7 t = blkS0 V c t := by dsimp only [dat0]
theorem after0_8 (c : Dev nD) (t : Fin cfg0.N) : (dat0 V c).after 8 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## Region 0's two conditions over the grid -/

/-- The body clears the running sum exactly at the first tile, -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- and copies it out exactly at the last. -/
abbrev cond0_1 (i : grid0.Coords) : Prop := k0_cond2 i = 1#1
theorem hcond0_1 : ∀ t : Fin cfg0.N, cond0_1 (grid0.coords t) ↔ t.val = 24 :=
  (by decide +kernel : ∀ t : Fin grid0.N, cond0_1 (grid0.coords t) ↔ t.val = 24)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬cond0_1 (grid0.coords t) → cfg0.idle 8 (grid0.coords t) = true := by decide +kernel
theorem noFlush0_8 : ∀ t : Fin cfg0.N, ¬cond0_1 (grid0.coords t) → (cfg0.win 8).flush t = false := by decide +kernel
theorem liveAt0_8 : ∀ t : Fin cfg0.N, cond0_1 (grid0.coords t) → cfg0.idle 8 (grid0.coords t) = false := by decide +kernel

/-! # Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The activated product of tile t: what the region stores into the tile of its first output. -/
def blkH1 (c : Dev nD) (t : Fin cfg1.N) : Vec F S2000x256 .f32 :=
  k1_pay2 (iblk1 V c 0 t) (iblk1 V c 1 t) (iblk1 V c 2 t) (iblk1 V c 3 t) (iblk1 V c 4 t)

/-- The running column sum after tile n. -/
def acc1 (c : Dev nD) : (n : ℕ) → n < cfg1.N → Vec F S1x256 .f32
  | 0, h => k1_pay3 (iblk1 V c 0 ⟨0, h⟩) (iblk1 V c 1 ⟨0, h⟩) (iblk1 V c 2 ⟨0, h⟩) (iblk1 V c 3 ⟨0, h⟩) (iblk1 V c 4 ⟨0, h⟩) (k1_pay1 (F := F))
  | n + 1, h => k1_pay3 (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (acc1 c n (Nat.lt_of_succ_lt h))

theorem acc1_zero (c : Dev nD) (h : 0 < cfg1.N) : acc1 V c 0 h = k1_pay3 (iblk1 V c 0 ⟨0, h⟩) (iblk1 V c 1 ⟨0, h⟩) (iblk1 V c 2 ⟨0, h⟩) (iblk1 V c 3 ⟨0, h⟩) (iblk1 V c 4 ⟨0, h⟩) (k1_pay1 (F := F)) := rfl
theorem acc1_pos (c : Dev nD) (t : Fin cfg1.N) (ht : t.val ≠ 0) :
    acc1 V c t.val t.isLt = k1_pay3 (iblk1 V c 0 t) (iblk1 V c 1 t) (iblk1 V c 2 t) (iblk1 V c 3 t) (iblk1 V c 4 t) (acc1 V c (t.val - 1) (Nat.lt_of_le_of_lt (Nat.sub_le _ _) t.isLt)) := by
  obtain ⟨n, hn⟩ := t
  cases n with
  | zero => exact absurd rfl ht
  | succ n => rfl

abbrev scM1 : Memref sig .tc .vmem S1x256 .f32 := Memref.whole cc1_scratch0

/-- The scoped buffers of the core that are no staging buffer of this region, each whole at some contents, with the
    scratch row (the last of them) at `X`. -/
def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_scratch0), ((c : Thread nD τ).loc cc0_scratch0) ↦{fullShare} f) ∗ X)

/-- The scratch row taken out of the chain, and anything put back in its place. -/
theorem rest1_swap (c : Dev nD) (X Y : sProp 𝕄) : rest1 c X ⊢ iprop(X ∗ (Y -∗ rest1 c Y)) := by
  unfold rest1
  iintro ⟨R1, R2, R3, R4, R5, R6, R7, R8, R9, R10, R11, R12, R13, R14, R15, HX⟩
  isplitl [HX]; · iexact HX
  iintro HY
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  isplitl [R15]; · iexact R15
  iexact HY

/-- The class invariant with the scratch row (the last scoped buffer of the enumeration) named. -/
theorem PhiA1_eq (c : Dev nD) :
    (Pipeline.ΦA spec1 c : sProp 𝕄)
      = iprop(rest1 c iprop(∃ d, owns (c : Thread nD τ) scM1 fullShare d) ∗ (∃ r, prngReg c r)) := by
  unfold Pipeline.ΦA rest1; rw [scopedRest1_eq]; simp only [scM1, owns_whole]; try rfl

def PhiS1 (c : Dev nD) : (n : ℕ) → n ≤ cfg1.N → sProp 𝕄
  | 0, _ => Pipeline.ΦA spec1 c
  | n + 1, hn => iprop(rest1 c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 c (owns (c : Thread nD τ) scM1 fullShare (acc1 V c n hn)) ∗ (∃ r, prngReg c r)) := rfl
theorem PhiS1_pos (c : Dev nD) (n : ℕ) (h : n ≤ cfg1.N) (hz : n ≠ 0) :
    PhiS1 V c n h = iprop(rest1 c (owns (c : Thread nD τ) scM1 fullShare (acc1 V c (n - 1) (by omega))) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => blkH1 V c t
    | ⟨6, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = blkH1 V c t := by dsimp only [dat1]
theorem after1_6 (c : Dev nD) (t : Fin cfg1.N) : (dat1 V c).after 6 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
abbrev cond1_1 (i : grid1.Coords) : Prop := k1_cond2 i = 1#1
theorem hcond1_1 : ∀ t : Fin cfg1.N, cond1_1 (grid1.coords t) ↔ t.val = 24 :=
  (by decide +kernel : ∀ t : Fin grid1.N, cond1_1 (grid1.coords t) ↔ t.val = 24)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

end Cert.KernelIdeal.Hand

end
-- ==== Proof.KI.Vals.lean ====
/-
  The buffer contents at the boundaries between the program's segments: the launch memory, then each host stretch
  applied, then at each region's exit the region's arrays at what its write-backs leave and every other buffer as it was.
-/
import proofs.«115299_j66941360276307_2_alg».proof.Proof.KI.Data
import proofs.«115299_j66941360276307_2_alg».proof.Proof.Gen.KernelIdeal.Regions
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The valuations at the region boundaries -/

/-- Region 0 is entered from the launch memory after the first host stretch. -/
abbrev VA (c : Dev nD) (b : Ref sig .tc) : Buf (Elt F) ((c : Thread nD τ).loc b) := Gen.V1 m c b

/-- At region 0's exit: its arrays at what the pipeline leaves, every other buffer as entered. -/
def W2 (c : Dev nD) : Valuation τ sig (Elt F) :=
  Pipeline.withArrays spec0 c (Gen.V1 m c) fun w => (dat0 (VA m) c).arrAt w cfg0.N
theorem W2_arr (c : Dev nD) (w : Fin cfg0.W) :
    W2 m c (Proc.devRef .tc (Pipeline.arrRef spec0 w)) = (dat0 (VA m) c).arrAt w cfg0.N := by
  unfold W2; exact Pipeline.withArrays_arr spec0 launch0.win.arr_inj c _ _ w

/-- What region 0 leaves, as the family the generated valuations are written over. -/
def outs2 : Gen.Outs (F := F) := fun _ r c => W2 m c r

/-- Region 1 is entered from there after the second host stretch. -/
abbrev VB (c : Dev nD) (b : Ref sig .tc) : Buf (Elt F) ((c : Thread nD τ).loc b) := Gen.V3 m (outs2 m) c b

/-- At region 1's exit. -/
def W4 (c : Dev nD) : Valuation τ sig (Elt F) :=
  Pipeline.withArrays spec1 c (Gen.V3 m (outs2 m) c) fun w => (dat1 (VB m) c).arrAt w cfg1.N
theorem W4_arr (c : Dev nD) (w : Fin cfg1.W) :
    W4 m c (Proc.devRef .tc (Pipeline.arrRef spec1 w)) = (dat1 (VB m) c).arrAt w cfg1.N := by
  unfold W4; exact Pipeline.withArrays_arr spec1 launch1.win.arr_inj c _ _ w

/-- What both regions leave: region 0's arrays read after item 1, region 1's after item 3. -/
def outsK : Gen.Outs (F := F) := fun J r c => if J = 4 then W4 m c r else W2 m c r
theorem outsK_2 (r : Ref sig .tc) (c : Dev nD) : outsK m 2 r c = W2 m c r := if_neg (by decide)
theorem outsK_4 (r : Ref sig .tc) (c : Dev nD) : outsK m 4 r c = W4 m c r := if_pos rfl

theorem V2_outsK (c : Dev nD) : Gen.V2 m (outsK m) c = Gen.V2 m (outs2 m) c := by
  simp only [Gen.V2, outsK_2, outs2]
theorem V3_outsK (c : Dev nD) : Gen.V3 m (outsK m) c = Gen.V3 m (outs2 m) c :=
  congrArg (StableHlo.after hostOps1) (V2_outsK m c)

/-! ## What the exit valuations hold at each array of a region -/

theorem V2_v39_0 (c : Dev nD) : Gen.V2 m (outs2 m) c main_v39_0 = (dat0 (VA m) c).arrAt 6 cfg0.N := by
  simp only [Gen.V2]
  rw [Function.update_of_ne (StableHlo.devRef_ne_of_ne (by decide)), Function.update_of_ne (StableHlo.devRef_ne_of_ne (by decide)), Function.update_self]
  exact W2_arr m c 6
theorem V2_v39_1 (c : Dev nD) : Gen.V2 m (outs2 m) c main_v39_1 = (dat0 (VA m) c).arrAt 7 cfg0.N := by
  simp only [Gen.V2]
  rw [Function.update_of_ne (StableHlo.devRef_ne_of_ne (by decide)), Function.update_self]
  exact W2_arr m c 7
theorem V2_v39_2 (c : Dev nD) : Gen.V2 m (outs2 m) c main_v39_2 = (dat0 (VA m) c).arrAt 8 cfg0.N := by
  simp only [Gen.V2]
  rw [Function.update_self]
  exact W2_arr m c 8

theorem V4_v53_0 (c : Dev nD) : Gen.V4 m (outsK m) c main_v53_0 = (dat1 (VB m) c).arrAt 5 cfg1.N := by
  simp only [Gen.V4]
  rw [Function.update_of_ne (StableHlo.devRef_ne_of_ne (by decide)), Function.update_self, outsK_4]
  exact W4_arr m c 5
theorem V4_v53_1 (c : Dev nD) : Gen.V4 m (outsK m) c main_v53_1 = (dat1 (VB m) c).arrAt 6 cfg1.N := by
  simp only [Gen.V4]
  rw [Function.update_self, outsK_4]
  exact W4_arr m c 6

end Cert.KernelIdeal.Hand

end
-- ==== Proof.KI.Run0A.lean ====
/-
  The kernel body of region 0 run whole at the first tile (the running sum is cleared first; the pooled-sum output is left alone): on whole memrefs, the inputs at their contents,
  the body terminates leaving the inputs as they were and each buffer it stores into with its stores written, last first.
  The lists of stores are found by the symbolic run itself.
-/
import proofs.«115299_j66941360276307_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) :
    Σ' (L7 : List (View.Piece (Elt F) S2000x256 .f32)) (L8 : List (View.Piece (Elt F) S2000x256 .bf16)), { LS : List (View.Piece (Elt F) S1x256 .f32) //
      ∀ (xi : Vec F S1x256 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare xi ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc0__conv_post_kernel_scaled i arg1 harg1 arg2 harg2 arg3 harg3 arg4 harg4 arg5 harg5 arg6 harg6 arg7 harg7 arg8 harg8 arg9 harg9 arg10 harg10) K } := by
  refine ⟨?_, ?_, ?_, fun xi E K => ?run⟩
  case run =>
    simp only [cc0__conv_post_kernel_scaled_eq_skeleton]; unfold cc0__conv_post_kernel_scaled_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%ds, %fs, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]
    · iexists _; isplitr; · ipureintro; exact harg9.read_unread _
      iexact H9
    iexists _; iexact HS

end Cert.KernelIdeal.Hand

end
-- ==== Proof.KI.Run0B.lean ====
/-
  The kernel body of region 0 run whole at a middle tile (the running sum is carried; the pooled-sum output is left alone): on whole memrefs, the inputs at their contents,
  the body terminates leaving the inputs as they were and each buffer it stores into with its stores written, last first.
  The lists of stores are found by the symbolic run itself.
-/
import proofs.«115299_j66941360276307_2_alg».proof.Proof.KI.Run0A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    Σ' (L7 : List (View.Piece (Elt F) S2000x256 .f32)) (L8 : List (View.Piece (Elt F) S2000x256 .bf16)), { LS : List (View.Piece (Elt F) S1x256 .f32) //
      ∀ (xi : Vec F S1x256 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare xi ∗ owns (c : Thread nD τ) arg10 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ owns (c : Thread nD τ) arg9 fullShare xi ∗ (∃ f, arg10.view.loc (c : Thread nD τ) ↦[arg10.view.set]{fullShare} arg10.view.writes (Elt F) f LS)) -∗ K ⟨⟩))
          ⊢ wp frame (wpE (defs₀ (F := F)) Variants.none c none) E (cc0__conv_post_kernel_scaled i arg1 harg1 arg2 harg2 arg3 harg3 arg4 harg4 arg5 harg5 arg6 harg6 arg7 harg7 arg8 harg8 arg9 harg9 arg10 harg10) K } := by
  refine ⟨?_, ?_, ?_, fun xi E K => ?run⟩
  case run =>
    simp only [cc0__conv_post_kernel_scaled_eq_skeleton]; unfold cc0__conv_post_kernel_scaled_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hfs
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]
    · iexists _; isplitr; · ipureintro; exact harg9.read_unread _
      iexact H9
    iexists _; iexact HS

end Cert.KernelIdeal.Hand

end
-- ==== Proof.KI.Run0C.lean ====
/-
  The kernel body of region 0 run whole at the last tile (the running sum is carried, then copied into the pooled-sum output): on whole memrefs, the inputs at their contents,
  the body terminates leaving the inputs as they were and each buffer it stores into with its stores written, last first.
  The lists of stores are found by the symbolic run itself.
-/
import proofs.«115299_j66941360276307_2_alg».proof.Proof.KI.Run0B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    Σ' (L7 : List (View.Piece (Elt F) S2000x256 .f32)) (L8 : List (View.Piece (Elt F) S2000x256 .bf16)) (L9 : List (View.Piece (Elt F) S1x256 .f32)), { LS : List (View.Piece (Elt F) S1x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS)) -∗ K ⟨⟩))
          ⊢ wp frame (wpE (defs₀ (F := F)) Variants.none c none) E (cc0__conv_post_kernel_scaled i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0__conv_post_kernel_scaled_eq_skeleton]; unfold cc0__conv_post_kernel_scaled_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg10.eq_unread hfs
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    iexists _; iexact HS

end Cert.KernelIdeal.Hand

end
-- ==== Proof.KI.Body0.lean ====
/-
  Region 0's body obligation: at every tile the kernel body, called on the windows' current staging buffers holding
  what the proof data say they hold and on the scratch row at the running sum of the tiles before, terminates and leaves
  each output tile at the activated product of the tile's rows, the scratch row at the running sum including this tile,
  and — at the last tile only — the pooled-sum output at that running sum.

  The body's run leaves each buffer it stores into as a list of stores; each list covers its buffer, and read back it is
  the payload term the proof data name: one whole-tile store per output, and for the scratch row either the row it held
  plus the tile's column sums, or (at the first tile) the cleared row plus those sums.
-/
import proofs.«115299_j66941360276307_2_alg».proof.Proof.KI.Run0C
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the stores leave, case by case

The three cases of the body's two conditions — first tile, middle tile, last tile — store into the same buffers, the last
tile into the pooled-sum output too. -/

/-- Zero offsets, however they are spelt. -/
theorem hz0 : (![0, 0] : Fin 2 → Nat) = fun _ => 0 := funext fun a => by fin_cases a <;> rfl

/-! ## The first tile: the stores cover each buffer they go into, and read back as the payload terms -/

theorem cover0_A_7 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (y : S2000x256.Idx) :
    ∃ pc ∈ (kernelRun0_A c i arg1 harg1 arg2 harg2 arg3 harg3 arg4 harg4 arg5 harg5 arg6 harg6 arg7 harg7 arg8 harg8 arg9 harg9 arg10 harg10 hc0 hc1 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x1 x2 x3 x4 x5 x6).1 S2000x256.size (by sl_kernel_rfl) y

theorem cover0_A_8 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (y : S2000x256.Idx) :
    ∃ pc ∈ (kernelRun0_A c i arg1 harg1 arg2 harg2 arg3 harg3 arg4 harg4 arg5 harg5 arg6 harg6 arg7 harg7 arg8 harg8 arg9 harg9 arg10 harg10 hc0 hc1 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x1 x2 x3 x4 x5 x6).2.1 S2000x256.size (by sl_kernel_rfl) y

theorem cover0_A_S (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (y : S1x256.Idx) :
    ∃ pc ∈ (kernelRun0_A c i arg1 harg1 arg2 harg2 arg3 harg3 arg4 harg4 arg5 harg5 arg6 harg6 arg7 harg7 arg8 harg8 arg9 harg9 arg10 harg10 hc0 hc1 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x1 x2 x3 x4 x5 x6).2.2.1 S1x256.size (by sl_kernel_rfl) y

/-- The one store into the first output's tile writes the activated product of the blocks read. -/
theorem piece0_A_7 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) :
    View.canon (kernelRun0_A c i arg1 harg1 arg2 harg2 arg3 harg3 arg4 harg4 arg5 harg5 arg6 harg6 arg7 harg7 arg8 harg8 arg9 harg9 arg10 harg10 hc0 hc1 x1 x2 x3 x4 x5 x6).1 = k0_pay3 x1 x2 x4 x5 x6 := by
  unfold kernelRun0_A
  dsimp only
  rw [View.canon_unit_zero hz0]
  simp only [View.readAt_eq_ld, harg1.read_unread, harg2.read_unread, harg3.read_unread, harg4.read_unread, harg5.read_unread, harg6.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-- The one store into the second output's tile writes that product rescaled row by row. -/
theorem piece0_A_8 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) :
    View.canon (kernelRun0_A c i arg1 harg1 arg2 harg2 arg3 harg3 arg4 harg4 arg5 harg5 arg6 harg6 arg7 harg7 arg8 harg8 arg9 harg9 arg10 harg10 hc0 hc1 x1 x2 x3 x4 x5 x6).2.1 = k0_pay4 x1 x2 x4 x5 x6 x3 := by
  unfold kernelRun0_A
  dsimp only
  rw [View.canon_unit_zero hz0]
  simp only [View.readAt_eq_ld, harg1.read_unread, harg2.read_unread, harg3.read_unread, harg4.read_unread, harg5.read_unread, harg6.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-- The scratch row is stored into twice: cleared, then the cleared row (read back) plus the tile's column sums. -/
theorem piece0_A_S (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) :
    View.canon (kernelRun0_A c i arg1 harg1 arg2 harg2 arg3 harg3 arg4 harg4 arg5 harg5 arg6 harg6 arg7 harg7 arg8 harg8 arg9 harg9 arg10 harg10 hc0 hc1 x1 x2 x3 x4 x5 x6).2.2.1 = k0_pay1 (k0_pay2 (F := F)) (k0_pay5 x1 x2 x4 x5 x6) := by
  unfold kernelRun0_A
  dsimp only
  sl_unfold_words
  rw [View.canon_cons_unit_zero (S := S1x256) hz0, View.readCov_unit_zero (S := S1x256) _ hz0]
  simp only [View.readAt_eq_ld, harg1.read_unread, harg2.read_unread, harg3.read_unread, harg4.read_unread, harg5.read_unread, harg6.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-! ## A middle tile: the stores cover each buffer they go into, and read back as the payload terms -/

theorem cover0_B_7 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) (y : S2000x256.Idx) :
    ∃ pc ∈ (kernelRun0_B c i arg1 harg1 arg2 harg2 arg3 harg3 arg4 harg4 arg5 harg5 arg6 harg6 arg7 harg7 arg8 harg8 arg9 harg9 arg10 harg10 hc0 hc1 x1 x2 x3 x4 x5 x6 xs).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x1 x2 x3 x4 x5 x6 xs).1 S2000x256.size (by sl_kernel_rfl) y

theorem cover0_B_8 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) (y : S2000x256.Idx) :
    ∃ pc ∈ (kernelRun0_B c i arg1 harg1 arg2 harg2 arg3 harg3 arg4 harg4 arg5 harg5 arg6 harg6 arg7 harg7 arg8 harg8 arg9 harg9 arg10 harg10 hc0 hc1 x1 x2 x3 x4 x5 x6 xs).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x1 x2 x3 x4 x5 x6 xs).2.1 S2000x256.size (by sl_kernel_rfl) y

theorem cover0_B_S (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) (y : S1x256.Idx) :
    ∃ pc ∈ (kernelRun0_B c i arg1 harg1 arg2 harg2 arg3 harg3 arg4 harg4 arg5 harg5 arg6 harg6 arg7 harg7 arg8 harg8 arg9 harg9 arg10 harg10 hc0 hc1 x1 x2 x3 x4 x5 x6 xs).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x1 x2 x3 x4 x5 x6 xs).2.2.1 S1x256.size (by sl_kernel_rfl) y

/-- The one store into the first output's tile writes the activated product of the blocks read. -/
theorem piece0_B_7 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    View.canon (kernelRun0_B c i arg1 harg1 arg2 harg2 arg3 harg3 arg4 harg4 arg5 harg5 arg6 harg6 arg7 harg7 arg8 harg8 arg9 harg9 arg10 harg10 hc0 hc1 x1 x2 x3 x4 x5 x6 xs).1 = k0_pay3 x1 x2 x4 x5 x6 := by
  unfold kernelRun0_B
  dsimp only
  rw [View.canon_unit_zero hz0]
  simp only [View.readAt_eq_ld, harg1.read_unread, harg2.read_unread, harg3.read_unread, harg4.read_unread, harg5.read_unread, harg6.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-- The one store into the second output's tile writes that product rescaled row by row. -/
theorem piece0_B_8 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    View.canon (kernelRun0_B c i arg1 harg1 arg2 harg2 arg3 harg3 arg4 harg4 arg5 harg5 arg6 harg6 arg7 harg7 arg8 harg8 arg9 harg9 arg10 harg10 hc0 hc1 x1 x2 x3 x4 x5 x6 xs).2.1 = k0_pay4 x1 x2 x4 x5 x6 x3 := by
  unfold kernelRun0_B
  dsimp only
  rw [View.canon_unit_zero hz0]
  simp only [View.readAt_eq_ld, harg1.read_unread, harg2.read_unread, harg3.read_unread, harg4.read_unread, harg5.read_unread, harg6.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-- The one store into the scratch row writes what it held plus the tile's column sums. -/
theorem piece0_B_S (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    View.canon (kernelRun0_B c i arg1 harg1 arg2 harg2 arg3 harg3 arg4 harg4 arg5 harg5 arg6 harg6 arg7 harg7 arg8 harg8 arg9 harg9 arg10 harg10 hc0 hc1 x1 x2 x3 x4 x5 x6 xs).2.2.1 = k0_pay1 xs (k0_pay5 x1 x2 x4 x5 x6) := by
  unfold kernelRun0_B
  dsimp only
  sl_unfold_words
  rw [View.canon_unit_zero hz0]
  simp only [View.readAt_eq_ld, harg1.read_unread, harg2.read_unread, harg3.read_unread, harg4.read_unread, harg5.read_unread, harg6.read_unread, harg10.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-! ## The last tile: the stores cover each buffer they go into, and read back as the payload terms -/

theorem cover0_C_7 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) (y : S2000x256.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 x6 xs).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 x6 xs).1 S2000x256.size (by sl_kernel_rfl) y

theorem cover0_C_8 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) (y : S2000x256.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 x6 xs).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 x6 xs).2.1 S2000x256.size (by sl_kernel_rfl) y

theorem cover0_C_9 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) (y : S1x256.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 x6 xs).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 x6 xs).2.2.1 S1x256.size (by sl_kernel_rfl) y

theorem cover0_C_S (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) (y : S1x256.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 x6 xs).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 x6 xs).2.2.2.1 S1x256.size (by sl_kernel_rfl) y

/-- The one store into the first output's tile writes the activated product of the blocks read. -/
theorem piece0_C_7 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    View.canon (kernelRun0_C c i arg1 harg1 arg2 harg2 arg3 harg3 arg4 harg4 arg5 harg5 arg6 harg6 arg7 harg7 arg8 harg8 arg9 harg9 arg10 harg10 hc0 hc1 x1 x2 x3 x4 x5 x6 xs).1 = k0_pay3 x1 x2 x4 x5 x6 := by
  unfold kernelRun0_C
  dsimp only
  rw [View.canon_unit_zero hz0]
  simp only [View.readAt_eq_ld, harg1.read_unread, harg2.read_unread, harg3.read_unread, harg4.read_unread, harg5.read_unread, harg6.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-- The one store into the second output's tile writes that product rescaled row by row. -/
theorem piece0_C_8 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    View.canon (kernelRun0_C c i arg1 harg1 arg2 harg2 arg3 harg3 arg4 harg4 arg5 harg5 arg6 harg6 arg7 harg7 arg8 harg8 arg9 harg9 arg10 harg10 hc0 hc1 x1 x2 x3 x4 x5 x6 xs).2.1 = k0_pay4 x1 x2 x4 x5 x6 x3 := by
  unfold kernelRun0_C
  dsimp only
  rw [View.canon_unit_zero hz0]
  simp only [View.readAt_eq_ld, harg1.read_unread, harg2.read_unread, harg3.read_unread, harg4.read_unread, harg5.read_unread, harg6.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-- The one store into the scratch row writes what it held plus the tile's column sums; -/
theorem piece0_C_S (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    View.canon (kernelRun0_C c i arg1 harg1 arg2 harg2 arg3 harg3 arg4 harg4 arg5 harg5 arg6 harg6 arg7 harg7 arg8 harg8 arg9 harg9 arg10 harg10 hc0 hc1 x1 x2 x3 x4 x5 x6 xs).2.2.2.1 = k0_pay1 xs (k0_pay5 x1 x2 x4 x5 x6) := by
  unfold kernelRun0_C
  dsimp only
  sl_unfold_words
  rw [View.canon_unit_zero hz0]
  simp only [View.readAt_eq_ld, harg1.read_unread, harg2.read_unread, harg3.read_unread, harg4.read_unread, harg5.read_unread, harg6.read_unread, harg10.read_unread,
    View.ld_unit_zero (S := S2000x256) hz0, View.ld_unit_zero (S := S2000x1) hz0, View.ld_unit_zero (S := S256x256) hz0,
    View.ld_unit_zero (S := S1x256) hz0, View.ld_unit_zero (S := S1x1) hz0]

/-- and the store into the pooled-sum output writes the scratch row as just updated (read back). -/
theorem piece0_C_9 (c : Dev nD) (i : grid0.Coords) (arg1 : Memref sig .tc .vmem S2000x256 .f32) (harg1 : arg1.IsWhole) (arg2 : Memref sig .tc .vmem S2000x1 .f32) (harg2 : arg2.IsWhole) (arg3 : Memref sig .tc .vmem S2000x1 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x1 .f32) (harg6 : arg6.IsWhole) (arg7 : Memref sig .tc .vmem S2000x256 .f32) (harg7 : arg7.IsWhole) (arg8 : Memref sig .tc .vmem S2000x256 .bf16) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x1 : Vec F S2000x256 .f32) (x2 : Vec F S2000x1 .f32) (x3 : Vec F S2000x1 .f32) (x4 : Vec F S256x256 .f32) (x5 : Vec F S1x256 .f32) (x6 : Vec F S1x1 .f32) (xs : Vec F S1x256 .f32) :
    View.canon (kernelRun0_C c i arg1 harg1 arg2 harg2 arg3 harg3 arg4 harg4 arg5 harg5 arg6 harg6 arg7 harg7 arg8 harg8 arg9 harg9 arg10 harg10 hc0 hc1 x1 x2 x3 x4 x5 x6 xs).2.2.1 = k0_pay1 xs (k0_pay5 x1 x2 x4 x5 x6) := by
  unfold kernelRun0_C
  dsimp only
  sl_unfold_words
  rw [View.canon_unit_zero hz0, View.readCov_unit_zero (S := S1x256) _ hz0]
  simp only [View.readAt_eq_ld, harg1.read_unread, harg2.read_unread, harg3.read_unread, harg4.read_unread, harg5.read_unread, harg6.read_unread, harg10.read_unread,
    View.ld_unit_zero (S := S2000x256) hz0, View.ld_unit_zero (S := S2000x1) hz0, View.ld_unit_zero (S := S256x256) hz0,
    View.ld_unit_zero (S := S1x256) hz0, View.ld_unit_zero (S := S1x1) hz0]

variable (V : (c : Dev nD) → (b : Ref sig .tc) → Buf (Elt F) ((c : Thread nD τ).loc b))

/-- What the launch hands the region is the invariant before the first tile. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-! ## The body obligation at a tile -/

/-- Each window's current staging memref at tile `t`, spelt as the pipeline passes it, and its wholeness. -/
abbrev ms0_0 (t : Fin cfg0.N) : Memref sig .tc .vmem S2000x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2000x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2000x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)

/-- The running sum after the first tile is the cleared row plus that tile's column sums. -/
theorem acc0_first (c : Dev nD) (t : Fin cfg0.N) (ht : t.val = 0) :
    acc0 V c t.val t.isLt = k0_pay1 (k0_pay2 (F := F)) (colsum0 V c t) := by
  obtain ⟨n, hn⟩ := t
  cases n with
  | zero => rfl
  | succ n => exact absurd ht (Nat.succ_ne_zero n)

/-- What the body is called with at tile `t`: the invariant, nothing owed, each window's current buffer at what it holds; -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 1600000 in
/-- The first tile: the invariant is the class's (the scratch row at anything); the body clears the row, stores the two
    output tiles, adds the tile's column sums to the cleared row, and leaves the pooled-sum output alone. -/
theorem sound_body0_A (c : Dev nD) (t : Fin cfg0.N) (h0 : t.val = 0) (h1 : ¬t.val = 24) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  unfold blkH0 blkS0
  rw [Dat.leavesExact_idle (dat0 V c) 8 t (idleAt0_8 t (fun h => h1 ((hcond0_1 t).mp h))) (noFlush0_8 t (fun h => h1 ((hcond0_1 t).mp h)))]
  rw [PhiS0_castSucc V c t, PhiS0_zero V c _ _ h0, PhiA0_eq, acc0_first V c t h0]
  unfold colsum0
  iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [HS]; · iexact HS
  iintro ⟨H0, H1, H2, H3, H4, H5, ⟨%e6, H6⟩, ⟨%e7, H7⟩, H8, ⟨%es, HS⟩⟩
  isplitl [HS Hr Hg]
  · isplitl [HS Hr]
    · isplitl [HS]
      · unfold owns; iexists _; isplitr
        swap; · iexact HS
        ipureintro
        exact (View.read_writes_eq_canon _ _ _ (cover0_A_S c _ _ _ _ _ _ _ _ _ _ _ _ _ _ _ _ _ _ _ _ _ _ _ _ _ _ _ _ _)).trans (piece0_A_S c _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    exact (View.read_writes_eq_canon _ _ _ (cover0_A_7 c _ _ _ _ _ _ _ _ _ _ _ _ _ _ _ _ _ _ _ _ _ _ _ _ _ _ _ _ _)).trans (piece0_A_7 c _ _ _ _ _ _ _ _ _ _ _ _ _ _ _ _ _ _ _ _ _ _ _ _ _ _ _ _ _)
  isplitl [H7]
  · unfold owns; iexists _; isplitr
    swap; · iexact H7
    ipureintro
    exact (View.read_writes_eq_canon _ _ _ (cover0_A_8 c _ _ _ _ _ _ _ _ _ _ _ _ _ _ _ _ _ _ _ _ _ _ _ _ _ _ _ _ _)).trans (piece0_A_8 c _ _ _ _ _ _ _ _ _ _ _ _ _ _ _ _ _ _ _ _ _ _ _ _ _ _ _ _ _)
  iexists _; iexact H8

set_option maxHeartbeats 1600000 in
/-- A middle tile: the invariant has the scratch row at the running sum of the tiles before; the body stores the two
    output tiles, adds the tile's column sums to the row, and leaves the pooled-sum output alone. -/
theorem sound_body0_B (c : Dev nD) (t : Fin cfg0.N) (h0 : ¬t.val = 0) (h1 : ¬t.val = 24) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  unfold blkH0 blkS0
  rw [Dat.leavesExact_idle (dat0 V c) 8 t (idleAt0_8 t (fun h => h1 ((hcond0_1 t).mp h))) (noFlush0_8 t (fun h => h1 ((hcond0_1 t).mp h)))]
  rw [PhiS0_castSucc V c t, PhiS0_pos V c _ _ h0, acc0_pos V c t h0]
  unfold colsum0
  iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [HS]; · iexact HS
  iintro ⟨H0, H1, H2, H3, H4, H5, ⟨%e6, H6⟩, ⟨%e7, H7⟩, H8, ⟨%es, HS⟩⟩
  isplitl [HS Hr Hg]
  · isplitl [HS Hr]
    · isplitl [HS]
      · unfold owns; iexists _; isplitr
        swap; · iexact HS
        ipureintro
        exact (View.read_writes_eq_canon _ _ _ (cover0_B_S c _ _ _ _ _ _ _ _ _ _ _ _ _ _ _ _ _ _ _ _ _ _ _ _ _ _ _ _ _ _)).trans (piece0_B_S c _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    exact (View.read_writes_eq_canon _ _ _ (cover0_B_7 c _ _ _ _ _ _ _ _ _ _ _ _ _ _ _ _ _ _ _ _ _ _ _ _ _ _ _ _ _ _)).trans (piece0_B_7 c _ _ _ _ _ _ _ _ _ _ _ _ _ _ _ _ _ _ _ _ _ _ _ _ _ _ _ _ _ _)
  isplitl [H7]
  · unfold owns; iexists _; isplitr
    swap; · iexact H7
    ipureintro
    exact (View.read_writes_eq_canon _ _ _ (cover0_B_8 c _ _ _ _ _ _ _ _ _ _ _ _ _ _ _ _ _ _ _ _ _ _ _ _ _ _ _ _ _ _)).trans (piece0_B_8 c _ _ _ _ _ _ _ _ _ _ _ _ _ _ _ _ _ _ _ _ _ _ _ _ _ _ _ _ _ _)
  iexists _; iexact H8

set_option maxHeartbeats 1600000 in
/-- The last tile: as a middle tile, and the body then copies the updated scratch row into the pooled-sum output. -/
theorem sound_body0_C (c : Dev nD) (t : Fin cfg0.N) (h0 : ¬t.val = 0) (h1 : t.val = 24) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  unfold blkH0 blkS0
  rw [show (dat0 V c).leavesExact 8 t = owns (c : Thread nD τ) (ms0_8 t) fullShare ((dat0 V c).after 8 t) from by
    unfold Dat.leavesExact; rw [liveAt0_8 t ((hcond0_1 t).mpr h1)], after0_8]
  rw [PhiS0_castSucc V c t, PhiS0_pos V c _ _ h0, acc0_pos V c t h0]
  unfold colsum0
  iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS]; · iexact HS
  iintro ⟨H0, H1, H2, H3, H4, H5, ⟨%e6, H6⟩, ⟨%e7, H7⟩, ⟨%e8, H8⟩, ⟨%es, HS⟩⟩
  isplitl [HS Hr Hg]
  · isplitl [HS Hr]
    · isplitl [HS]
      · unfold owns; iexists _; isplitr
        swap; · iexact HS
        ipureintro
        exact (View.read_writes_eq_canon _ _ _ (cover0_C_S c _ _ _ _ _ _ _ _ _ _ _ _ _ _ _ _ _ _ _ _ _ _ _ _ _ _ _ _ _ _)).trans (piece0_C_S c _ _ _ _ _ _ _ _ _ _ _ _ _ _ _ _ _ _ _ _ _ _ _ _ _ _ _ _ _ _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    exact (View.read_writes_eq_canon _ _ _ (cover0_C_7 c _ _ _ _ _ _ _ _ _ _ _ _ _ _ _ _ _ _ _ _ _ _ _ _ _ _ _ _ _ _)).trans (piece0_C_7 c _ _ _ _ _ _ _ _ _ _ _ _ _ _ _ _ _ _ _ _ _ _ _ _ _ _ _ _ _ _)
  isplitl [H7]
  · unfold owns; iexists _; isplitr
    swap; · iexact H7
    ipureintro
    exact (View.read_writes_eq_canon _ _ _ (cover0_C_8 c _ _ _ _ _ _ _ _ _ _ _ _ _ _ _ _ _ _ _ _ _ _ _ _ _ _ _ _ _ _)).trans (piece0_C_8 c _ _ _ _ _ _ _ _ _ _ _ _ _ _ _ _ _ _ _ _ _ _ _ _ _ _ _ _ _ _)
  unfold owns; iexists _; isplitr
  swap; · iexact H8
  ipureintro
  exact (View.read_writes_eq_canon _ _ _ (cover0_C_9 c _ _ _ _ _ _ _ _ _ _ _ _ _ _ _ _ _ _ _ _ _ _ _ _ _ _ _ _ _ _)).trans (piece0_C_9 c _ _ _ _ _ _ _ _ _ _ _ _ _ _ _ _ _ _ _ _ _ _ _ _ _ _ _ _ _ _)

/-- The body at any tile: the first, the last, or one between. -/
theorem sound_body0 (c : Dev nD) (t : Fin cfg0.N) :
    bodyPre0 V c t ⊢ wp frame (wpE (defs₀ (F := F)) Variants.none c none) Set.univ (bodyAt0 t) (fun _ => bodyPost0 V c t) := by
  have hN : t.val < 25 := lt_of_lt_of_eq t.isLt (show cfg0.N = 25 from N_0)
  by_cases h0 : t.val = 0
  · exact sound_body0_A V c t h0 (by omega)
  · by_cases h1 : t.val = 24
    · exact sound_body0_C V c t h0 h1
    · exact sound_body0_B V c t h0 h1

theorem body_obligation0 (c : Dev nD) : BodyObligation (dat0 (F := F) V c) (defs₀ (F := F)) Variants.none () Set.univ := fun t => by
  rw [bigSep_W0, bigSep_W0]
  exact sound_body0 V c t

/-- After the last tile the invariant gives the class invariant back: what the scratch row holds is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 25 := N_0; omega), PhiA0_eq]
  iintro ⟨⟨HS, Hr⟩, Hg⟩
  isplitl [HS Hr]
  · isplitl [HS]
    · iexists _; iexact HS
    iexact Hr
  iexact Hg

end Cert.KernelIdeal.Hand

end
-- ==== Proof.KI.Run1A.lean ====
/-
  The kernel body of region 1 run whole at the first tile (the running sum is cleared first; the pooled-sum output is left alone): on whole memrefs, the inputs at their contents,
  the body terminates leaving the inputs as they were and each buffer it stores into with its stores written, last first.
  The lists of stores are found by the symbolic run itself.
-/
import proofs.«115299_j66941360276307_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg1 : Memref sig .tc .vmem S2000x256 .f32) (harg1 : arg1.IsWhole) (arg2 : Memref sig .tc .vmem S2000x1 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : cond1_0 i) (hc1 : ¬cond1_1 i)
    (x1 : Vec F S2000x256 .f32) (x2 : Vec F S2000x1 .f32) (x3 : Vec F S256x256 .f32) (x4 : Vec F S1x256 .f32) (x5 : Vec F S1x1 .f32) :
    Σ' (L6 : List (View.Piece (Elt F) S2000x256 .f32)), { LS : List (View.Piece (Elt F) S1x256 .f32) //
      ∀ (xi : Vec F S1x256 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__conv_post_kernel_plain i arg1 harg1 arg2 harg2 arg3 harg3 arg4 harg4 arg5 harg5 arg6 harg6 arg7 harg7 arg8 harg8) K } := by
  refine ⟨?_, ?_, fun xi E K => ?run⟩
  case run =>
    simp only [cc1__conv_post_kernel_plain_eq_skeleton]; unfold cc1__conv_post_kernel_plain_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds, %fs, -, HS⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    iexists _; iexact HS

end Cert.KernelIdeal.Hand

end
-- ==== Proof.KI.Run1B.lean ====
/-
  The kernel body of region 1 run whole at a middle tile (the running sum is carried; the pooled-sum output is left alone): on whole memrefs, the inputs at their contents,
  the body terminates leaving the inputs as they were and each buffer it stores into with its stores written, last first.
  The lists of stores are found by the symbolic run itself.
-/
import proofs.«115299_j66941360276307_2_alg».proof.Proof.KI.Run1A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg1 : Memref sig .tc .vmem S2000x256 .f32) (harg1 : arg1.IsWhole) (arg2 : Memref sig .tc .vmem S2000x1 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : ¬cond1_0 i) (hc1 : ¬cond1_1 i)
    (x1 : Vec F S2000x256 .f32) (x2 : Vec F S2000x1 .f32) (x3 : Vec F S256x256 .f32) (x4 : Vec F S1x256 .f32) (x5 : Vec F S1x1 .f32) (xs : Vec F S1x256 .f32) :
    Σ' (L6 : List (View.Piece (Elt F) S2000x256 .f32)), { LS : List (View.Piece (Elt F) S1x256 .f32) //
      ∀ (xi : Vec F S1x256 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ owns (c : Thread nD τ) arg7 fullShare xi ∗ owns (c : Thread nD τ) arg8 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc1__conv_post_kernel_plain i arg1 harg1 arg2 harg2 arg3 harg3 arg4 harg4 arg5 harg5 arg6 harg6 arg7 harg7 arg8 harg8) K } := by
  refine ⟨?_, ?_, fun xi E K => ?run⟩
  case run =>
    simp only [cc1__conv_post_kernel_plain_eq_skeleton]; unfold cc1__conv_post_kernel_plain_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hfs
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]
    · iexists _; isplitr; · ipureintro; exact harg7.read_unread _
      iexact H7
    iexists _; iexact HS

end Cert.KernelIdeal.Hand

end
-- ==== Proof.KI.Run1C.lean ====
/-
  The kernel body of region 1 run whole at the last tile (the running sum is carried, then copied into the pooled-sum output): on whole memrefs, the inputs at their contents,
  the body terminates leaving the inputs as they were and each buffer it stores into with its stores written, last first.
  The lists of stores are found by the symbolic run itself.
-/
import proofs.«115299_j66941360276307_2_alg».proof.Proof.KI.Run1B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg1 : Memref sig .tc .vmem S2000x256 .f32) (harg1 : arg1.IsWhole) (arg2 : Memref sig .tc .vmem S2000x1 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (hc0 : ¬cond1_0 i) (hc1 : cond1_1 i)
    (x1 : Vec F S2000x256 .f32) (x2 : Vec F S2000x1 .f32) (x3 : Vec F S256x256 .f32) (x4 : Vec F S1x256 .f32) (x5 : Vec F S1x1 .f32) (xs : Vec F S1x256 .f32) :
    Σ' (L6 : List (View.Piece (Elt F) S2000x256 .f32)) (L7 : List (View.Piece (Elt F) S1x256 .f32)), { LS : List (View.Piece (Elt F) S1x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ owns (c : Thread nD τ) arg8 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f LS)) -∗ K ⟨⟩))
          ⊢ wp frame (wpE (defs₀ (F := F)) Variants.none c none) E (cc1__conv_post_kernel_plain i arg1 harg1 arg2 harg2 arg3 harg3 arg4 harg4 arg5 harg5 arg6 harg6 arg7 harg7 arg8 harg8) K } := by
  refine ⟨?_, ?_, ?_, fun E K => ?run⟩
  case run =>
    simp only [cc1__conv_post_kernel_plain_eq_skeleton]; unfold cc1__conv_post_kernel_plain_skel
    simp only [k1_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
    obtain rfl := harg1.eq_unread hf1; obtain rfl := harg2.eq_unread hf2; obtain rfl := harg3.eq_unread hf3; obtain rfl := harg4.eq_unread hf4; obtain rfl := harg5.eq_unread hf5; obtain rfl := harg8.eq_unread hfs
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    iexists _; iexact HS

end Cert.KernelIdeal.Hand

end
-- ==== Proof.KI.Body1.lean ====
/-
  Region 1's body obligation: at every tile the kernel body, called on the windows' current staging buffers holding
  what the proof data say they hold and on the scratch row at the running sum of the tiles before, terminates and leaves
  each output tile at the activated product of the tile's rows, the scratch row at the running sum including this tile,
  and — at the last tile only — the pooled-sum output at that running sum.
-/
import proofs.«115299_j66941360276307_2_alg».proof.Proof.KI.Run1C
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both offsets of a whole-tile access are zero. -/
theorem hz2 : (![0, 0] : Fin 2 → Nat) = fun _ => 0 := funext fun a => by fin_cases a <;> rfl

/-! ## What the stores of each case read back as

The body stores whole tiles only, so each buffer ends at the payload of its last store, and every load of an input reads
the whole tile back. -/

section pieces
variable (c : Dev nD) (i : grid1.Coords) (arg1 : Memref sig .tc .vmem S2000x256 .f32) (harg1 : arg1.IsWhole) (arg2 : Memref sig .tc .vmem S2000x1 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S1x1 .f32) (harg5 : arg5.IsWhole) (arg6 : Memref sig .tc .vmem S2000x256 .f32) (harg6 : arg6.IsWhole) (arg7 : Memref sig .tc .vmem S1x256 .f32) (harg7 : arg7.IsWhole) (arg8 : Memref sig .tc .vmem S1x256 .f32) (harg8 : arg8.IsWhole) (x1 : Vec F S2000x256 .f32) (x2 : Vec F S2000x1 .f32) (x3 : Vec F S256x256 .f32) (x4 : Vec F S1x256 .f32) (x5 : Vec F S1x1 .f32) (xs : Vec F S1x256 .f32)

/-- First tile: the output tile ends at the activated product. -/
theorem run1_A_6 (hc0 : cond1_0 i) (hc1 : ¬cond1_1 i) :
    View.canon (kernelRun1_A c i arg1 harg1 arg2 harg2 arg3 harg3 arg4 harg4 arg5 harg5 arg6 harg6 arg7 harg7 arg8 harg8 hc0 hc1 x1 x2 x3 x4 x5).1 = k1_pay2 x1 x2 x3 x4 x5 := by
  unfold kernelRun1_A
  dsimp only
  rw [View.canon_unit_zero (S := S2000x256) hz2]
  simp only [View.readAt_eq_ld, harg1.read_unread, harg2.read_unread, harg3.read_unread, harg4.read_unread, harg5.read_unread, harg8.read_unread, View.ld_unit_zero (S := S2000x256) hz2, View.ld_unit_zero (S := S2000x1) hz2, View.ld_unit_zero (S := S256x256) hz2, View.ld_unit_zero (S := S1x256) hz2, View.ld_unit_zero (S := S1x1) hz2]

/-- First tile: the scratch row is cleared, read back, and ends at the cleared row plus the tile's column sums. -/
theorem run1_A_S (hc0 : cond1_0 i) (hc1 : ¬cond1_1 i) :
    View.canon (kernelRun1_A c i arg1 harg1 arg2 harg2 arg3 harg3 arg4 harg4 arg5 harg5 arg6 harg6 arg7 harg7 arg8 harg8 hc0 hc1 x1 x2 x3 x4 x5).2.1 = k1_pay3 x1 x2 x3 x4 x5 k1_pay1 := by
  unfold kernelRun1_A
  dsimp only
  sl_unfold_words
  rw [View.canon_cons_unit_zero (S := S1x256) hz2, View.readCov_unit_zero (S := S1x256) _ hz2]
  simp only [View.readAt_eq_ld, harg1.read_unread, harg2.read_unread, harg3.read_unread, harg4.read_unread, harg5.read_unread, harg8.read_unread, View.ld_unit_zero (S := S2000x256) hz2, View.ld_unit_zero (S := S2000x1) hz2, View.ld_unit_zero (S := S256x256) hz2, View.ld_unit_zero (S := S1x256) hz2, View.ld_unit_zero (S := S1x1) hz2]

/-- A middle tile: the output tile ends at the activated product, -/
theorem run1_B_6 (hc0 : ¬cond1_0 i) (hc1 : ¬cond1_1 i) :
    View.canon (kernelRun1_B c i arg1 harg1 arg2 harg2 arg3 harg3 arg4 harg4 arg5 harg5 arg6 harg6 arg7 harg7 arg8 harg8 hc0 hc1 x1 x2 x3 x4 x5 xs).1 = k1_pay2 x1 x2 x3 x4 x5 := by
  unfold kernelRun1_B
  dsimp only
  rw [View.canon_unit_zero (S := S2000x256) hz2]
  simp only [View.readAt_eq_ld, harg1.read_unread, harg2.read_unread, harg3.read_unread, harg4.read_unread, harg5.read_unread, harg8.read_unread, View.ld_unit_zero (S := S2000x256) hz2, View.ld_unit_zero (S := S2000x1) hz2, View.ld_unit_zero (S := S256x256) hz2, View.ld_unit_zero (S := S1x256) hz2, View.ld_unit_zero (S := S1x1) hz2]

/-- and the scratch row at what it held plus the tile's column sums. -/
theorem run1_B_S (hc0 : ¬cond1_0 i) (hc1 : ¬cond1_1 i) :
    View.canon (kernelRun1_B c i arg1 harg1 arg2 harg2 arg3 harg3 arg4 harg4 arg5 harg5 arg6 harg6 arg7 harg7 arg8 harg8 hc0 hc1 x1 x2 x3 x4 x5 xs).2.1 = k1_pay3 x1 x2 x3 x4 x5 xs := by
  unfold kernelRun1_B
  dsimp only
  rw [View.canon_unit_zero (S := S1x256) hz2]
  simp only [View.readAt_eq_ld, harg1.read_unread, harg2.read_unread, harg3.read_unread, harg4.read_unread, harg5.read_unread, harg8.read_unread, View.ld_unit_zero (S := S2000x256) hz2, View.ld_unit_zero (S := S2000x1) hz2, View.ld_unit_zero (S := S256x256) hz2, View.ld_unit_zero (S := S1x256) hz2, View.ld_unit_zero (S := S1x1) hz2]

/-- The last tile: the same for the output tile -/
theorem run1_C_6 (hc0 : ¬cond1_0 i) (hc1 : cond1_1 i) :
    View.canon (kernelRun1_C c i arg1 harg1 arg2 harg2 arg3 harg3 arg4 harg4 arg5 harg5 arg6 harg6 arg7 harg7 arg8 harg8 hc0 hc1 x1 x2 x3 x4 x5 xs).1 = k1_pay2 x1 x2 x3 x4 x5 := by
  unfold kernelRun1_C
  dsimp only
  rw [View.canon_unit_zero (S := S2000x256) hz2]
  simp only [View.readAt_eq_ld, harg1.read_unread, harg2.read_unread, harg3.read_unread, harg4.read_unread, harg5.read_unread, harg8.read_unread, View.ld_unit_zero (S := S2000x256) hz2, View.ld_unit_zero (S := S2000x1) hz2, View.ld_unit_zero (S := S256x256) hz2, View.ld_unit_zero (S := S1x256) hz2, View.ld_unit_zero (S := S1x1) hz2]

/-- and for the scratch row, -/
theorem run1_C_S (hc0 : ¬cond1_0 i) (hc1 : cond1_1 i) :
    View.canon (kernelRun1_C c i arg1 harg1 arg2 harg2 arg3 harg3 arg4 harg4 arg5 harg5 arg6 harg6 arg7 harg7 arg8 harg8 hc0 hc1 x1 x2 x3 x4 x5 xs).2.2.1 = k1_pay3 x1 x2 x3 x4 x5 xs := by
  unfold kernelRun1_C
  dsimp only
  sl_unfold_words
  rw [View.canon_unit_zero (S := S1x256) hz2]
  simp only [View.readAt_eq_ld, harg1.read_unread, harg2.read_unread, harg3.read_unread, harg4.read_unread, harg5.read_unread, harg8.read_unread, View.ld_unit_zero (S := S2000x256) hz2, View.ld_unit_zero (S := S2000x1) hz2, View.ld_unit_zero (S := S256x256) hz2, View.ld_unit_zero (S := S1x256) hz2, View.ld_unit_zero (S := S1x1) hz2]

/-- whose new contents, read back, are what the pooled-sum output ends at. -/
theorem run1_C_7 (hc0 : ¬cond1_0 i) (hc1 : cond1_1 i) :
    View.canon (kernelRun1_C c i arg1 harg1 arg2 harg2 arg3 harg3 arg4 harg4 arg5 harg5 arg6 harg6 arg7 harg7 arg8 harg8 hc0 hc1 x1 x2 x3 x4 x5 xs).2.1 = k1_pay3 x1 x2 x3 x4 x5 xs := by
  unfold kernelRun1_C
  dsimp only
  sl_unfold_words
  rw [View.canon_unit_zero (S := S1x256) hz2, View.readCov_unit_zero (S := S1x256) _ hz2]
  simp only [View.readAt_eq_ld, harg1.read_unread, harg2.read_unread, harg3.read_unread, harg4.read_unread, harg5.read_unread, harg8.read_unread, View.ld_unit_zero (S := S2000x256) hz2, View.ld_unit_zero (S := S2000x1) hz2, View.ld_unit_zero (S := S256x256) hz2, View.ld_unit_zero (S := S1x256) hz2, View.ld_unit_zero (S := S1x1) hz2]

/-! ## Each case's stores cover the buffers they go to -/

theorem cover1_A_6 (hc0 : cond1_0 i) (hc1 : ¬cond1_1 i) (y : S2000x256.Idx) :
    ∃ pc ∈ (kernelRun1_A c i arg1 harg1 arg2 harg2 arg3 harg3 arg4 harg4 arg5 harg5 arg6 harg6 arg7 harg7 arg8 harg8 hc0 hc1 x1 x2 x3 x4 x5).1, y ∈ pc.1.set :=
  View.cover_of_tiledL (kernelRun1_A c i arg1 harg1 arg2 harg2 arg3 harg3 arg4 harg4 arg5 harg5 arg6 harg6 arg7 harg7 arg8 harg8 hc0 hc1 x1 x2 x3 x4 x5).1 S2000x256.size (by sl_kernel_rfl) y
theorem cover1_A_S (hc0 : cond1_0 i) (hc1 : ¬cond1_1 i) (y : S1x256.Idx) :
    ∃ pc ∈ (kernelRun1_A c i arg1 harg1 arg2 harg2 arg3 harg3 arg4 harg4 arg5 harg5 arg6 harg6 arg7 harg7 arg8 harg8 hc0 hc1 x1 x2 x3 x4 x5).2.1, y ∈ pc.1.set :=
  View.cover_of_tiledL (kernelRun1_A c i arg1 harg1 arg2 harg2 arg3 harg3 arg4 harg4 arg5 harg5 arg6 harg6 arg7 harg7 arg8 harg8 hc0 hc1 x1 x2 x3 x4 x5).2.1 S1x256.size (by sl_kernel_rfl) y
theorem cover1_B_6 (hc0 : ¬cond1_0 i) (hc1 : ¬cond1_1 i) (y : S2000x256.Idx) :
    ∃ pc ∈ (kernelRun1_B c i arg1 harg1 arg2 harg2 arg3 harg3 arg4 harg4 arg5 harg5 arg6 harg6 arg7 harg7 arg8 harg8 hc0 hc1 x1 x2 x3 x4 x5 xs).1, y ∈ pc.1.set :=
  View.cover_of_tiledL (kernelRun1_B c i arg1 harg1 arg2 harg2 arg3 harg3 arg4 harg4 arg5 harg5 arg6 harg6 arg7 harg7 arg8 harg8 hc0 hc1 x1 x2 x3 x4 x5 xs).1 S2000x256.size (by sl_kernel_rfl) y
theorem cover1_B_S (hc0 : ¬cond1_0 i) (hc1 : ¬cond1_1 i) (y : S1x256.Idx) :
    ∃ pc ∈ (kernelRun1_B c i arg1 harg1 arg2 harg2 arg3 harg3 arg4 harg4 arg5 harg5 arg6 harg6 arg7 harg7 arg8 harg8 hc0 hc1 x1 x2 x3 x4 x5 xs).2.1, y ∈ pc.1.set :=
  View.cover_of_tiledL (kernelRun1_B c i arg1 harg1 arg2 harg2 arg3 harg3 arg4 harg4 arg5 harg5 arg6 harg6 arg7 harg7 arg8 harg8 hc0 hc1 x1 x2 x3 x4 x5 xs).2.1 S1x256.size (by sl_kernel_rfl) y
theorem cover1_C_6 (hc0 : ¬cond1_0 i) (hc1 : cond1_1 i) (y : S2000x256.Idx) :
    ∃ pc ∈ (kernelRun1_C c i arg1 harg1 arg2 harg2 arg3 harg3 arg4 harg4 arg5 harg5 arg6 harg6 arg7 harg7 arg8 harg8 hc0 hc1 x1 x2 x3 x4 x5 xs).1, y ∈ pc.1.set :=
  View.cover_of_tiledL (kernelRun1_C c i arg1 harg1 arg2 harg2 arg3 harg3 arg4 harg4 arg5 harg5 arg6 harg6 arg7 harg7 arg8 harg8 hc0 hc1 x1 x2 x3 x4 x5 xs).1 S2000x256.size (by sl_kernel_rfl) y
theorem cover1_C_7 (hc0 : ¬cond1_0 i) (hc1 : cond1_1 i) (y : S1x256.Idx) :
    ∃ pc ∈ (kernelRun1_C c i arg1 harg1 arg2 harg2 arg3 harg3 arg4 harg4 arg5 harg5 arg6 harg6 arg7 harg7 arg8 harg8 hc0 hc1 x1 x2 x3 x4 x5 xs).2.1, y ∈ pc.1.set :=
  View.cover_of_tiledL (kernelRun1_C c i arg1 harg1 arg2 harg2 arg3 harg3 arg4 harg4 arg5 harg5 arg6 harg6 arg7 harg7 arg8 harg8 hc0 hc1 x1 x2 x3 x4 x5 xs).2.1 S1x256.size (by sl_kernel_rfl) y
theorem cover1_C_S (hc0 : ¬cond1_0 i) (hc1 : cond1_1 i) (y : S1x256.Idx) :
    ∃ pc ∈ (kernelRun1_C c i arg1 harg1 arg2 harg2 arg3 harg3 arg4 harg4 arg5 harg5 arg6 harg6 arg7 harg7 arg8 harg8 hc0 hc1 x1 x2 x3 x4 x5 xs).2.2.1, y ∈ pc.1.set :=
  View.cover_of_tiledL (kernelRun1_C c i arg1 harg1 arg2 harg2 arg3 harg3 arg4 harg4 arg5 harg5 arg6 harg6 arg7 harg7 arg8 harg8 hc0 hc1 x1 x2 x3 x4 x5 xs).2.2.1 S1x256.size (by sl_kernel_rfl) y

end pieces

/-- What the launch hands the region is the invariant before the first tile. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

abbrev ms1_0 (t : Fin cfg1.N) : Memref sig .tc .vmem S2000x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)

/-- At the first tile the running sum is the cleared row plus the tile's column sums. -/
theorem acc1_first (c : Dev nD) (t : Fin cfg1.N) (ht : t.val = 0) :
    acc1 V c t.val t.isLt = k1_pay3 (iblk1 V c 0 t) (iblk1 V c 1 t) (iblk1 V c 2 t) (iblk1 V c 3 t) (iblk1 V c 4 t) (k1_pay1 (F := F)) := by
  obtain ⟨n, hn⟩ := t
  cases n with
  | zero => rfl
  | succ n => exact absurd ht (Nat.succ_ne_zero n)

/-- What the body is called with at tile t: the invariant, what the core owes, and each window's current staging buffer
    at what the proof data say it holds. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any tile. The input buffers hold their blocks; the closed forms of the two conditions say which of the
    three cases the tile is in; the invariant lends the scratch row (at anything before the first tile, at the running
    sum of the tiles before afterwards) and takes it back at the running sum including this tile; the output tile ends
    at the activated product; the pooled-sum output is handed back untouched except at the last tile, where it ends at
    the final running sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val = 0
  · -- the first tile
    have hA0 : cond1_0 (grid1.coords t) := (hcond1_0 t).mpr h0
    have hA1 : ¬cond1_1 (grid1.coords t) := fun h => by have := (hcond1_1 t).mp h; omega
    rw [Dat.leavesExact_idle (dat1 V c) 6 t (idleAt1_6 t hA1) (noFlush1_6 t hA1)]
    rw [PhiS1_castSucc V c t, PhiS1_zero V c _ _ h0, PhiA1_eq]
    iintro ⟨⟨HR, Hg⟩, Ho, ⟨%d0, H0⟩, ⟨%d1, H1⟩, ⟨%d2, H2⟩, ⟨%d3, H3⟩, ⟨%d4, H4⟩, ⟨%d5, H5⟩, ⟨%d6, H6⟩⟩
    ihave HR' := (rest1_swap c _ (owns (c : Thread nD τ) scM1 fullShare (acc1 V c t.val t.isLt))) $$ HR
    icases HR' with ⟨HS, Hback⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hA0 hA1 (iblk1 V c 0 t) (iblk1 V c 1 t) (iblk1 V c 2 t) (iblk1 V c 3 t) (iblk1 V c 4 t)).2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS]; · iexact HS
    iintro ⟨H0, H1, H2, H3, H4, ⟨%e5, H5⟩, H6, ⟨%es, HS⟩⟩
    isplitl [HS Hg Hback]
    · isplitl [HS Hback]
      · iapply Hback
        unfold owns; iexists _; isplitr
        swap; · iexact HS
        ipureintro
        exact (View.read_writes_eq_canon _ _ _ (cover1_A_S c _ _ _ _ _ _ _ _ _ _ _ _ _ _ _ _ _ _ _ _ _ _ hA0 hA1)).trans
          ((run1_A_S c _ _ _ _ _ _ _ _ _ _ _ _ _ _ _ _ _ _ _ _ _ _ hA0 hA1).trans (acc1_first V c t h0).symm)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro
      exact (View.read_writes_eq_canon _ _ _ (cover1_A_6 c _ _ _ _ _ _ _ _ _ _ _ _ _ _ _ _ _ _ _ _ _ _ hA0 hA1)).trans
        (run1_A_6 c _ _ _ _ _ _ _ _ _ _ _ _ _ _ _ _ _ _ _ _ _ _ hA0 hA1)
    iexists _; iexact H6
  · have hB0 : ¬cond1_0 (grid1.coords t) := fun h => h0 ((hcond1_0 t).mp h)
    rw [PhiS1_castSucc V c t, PhiS1_pos V c _ _ h0, acc1_pos V c t h0]
    by_cases h1 : t.val = 24
    · -- the last tile
      have hC1 : cond1_1 (grid1.coords t) := (hcond1_1 t).mpr h1
      rw [show (dat1 V c).leavesExact 6 t = owns (c : Thread nD τ) (ms1_6 t) fullShare ((dat1 V c).after 6 t) from by
        unfold Dat.leavesExact; rw [liveAt1_6 t hC1], after1_6, acc1_pos V c t h0]
      iintro ⟨⟨HR, Hg⟩, Ho, ⟨%d0, H0⟩, ⟨%d1, H1⟩, ⟨%d2, H2⟩, ⟨%d3, H3⟩, ⟨%d4, H4⟩, ⟨%d5, H5⟩, ⟨%d6, H6⟩⟩
      ihave HR' := (rest1_swap c _ (owns (c : Thread nD τ) scM1 fullShare (k1_pay3 (iblk1 V c 0 t) (iblk1 V c 1 t) (iblk1 V c 2 t) (iblk1 V c 3 t) (iblk1 V c 4 t) (acc1 V c (t.val - 1) (Nat.lt_of_le_of_lt (Nat.sub_le _ _) t.isLt))))) $$ HR
      icases HR' with ⟨HS, Hback⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hB0 hC1 (iblk1 V c 0 t) (iblk1 V c 1 t) (iblk1 V c 2 t) (iblk1 V c 3 t) (iblk1 V c 4 t) (acc1 V c (t.val - 1) (Nat.lt_of_le_of_lt (Nat.sub_le _ _) t.isLt))).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, ⟨%e5, H5⟩, ⟨%e6, H6⟩, ⟨%es, HS⟩⟩
      isplitl [HS Hg Hback]
      · isplitl [HS Hback]
        · iapply Hback
          unfold owns; iexists _; isplitr
          swap; · iexact HS
          ipureintro
          exact (View.read_writes_eq_canon _ _ _ (cover1_C_S c _ _ _ _ _ _ _ _ _ _ _ _ _ _ _ _ _ _ _ _ _ _ _ hB0 hC1)).trans
            (run1_C_S c _ _ _ _ _ _ _ _ _ _ _ _ _ _ _ _ _ _ _ _ _ _ _ hB0 hC1)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro
        exact (View.read_writes_eq_canon _ _ _ (cover1_C_6 c _ _ _ _ _ _ _ _ _ _ _ _ _ _ _ _ _ _ _ _ _ _ _ hB0 hC1)).trans
          (run1_C_6 c _ _ _ _ _ _ _ _ _ _ _ _ _ _ _ _ _ _ _ _ _ _ _ hB0 hC1)
      unfold owns; iexists _; isplitr
      swap; · iexact H6
      ipureintro
      exact (View.read_writes_eq_canon _ _ _ (cover1_C_7 c _ _ _ _ _ _ _ _ _ _ _ _ _ _ _ _ _ _ _ _ _ _ _ hB0 hC1)).trans
        (run1_C_7 c _ _ _ _ _ _ _ _ _ _ _ _ _ _ _ _ _ _ _ _ _ _ _ hB0 hC1)
    · -- a middle tile
      have hB1 : ¬cond1_1 (grid1.coords t) := fun h => h1 ((hcond1_1 t).mp h)
      rw [Dat.leavesExact_idle (dat1 V c) 6 t (idleAt1_6 t hB1) (noFlush1_6 t hB1)]
      iintro ⟨⟨HR, Hg⟩, Ho, ⟨%d0, H0⟩, ⟨%d1, H1⟩, ⟨%d2, H2⟩, ⟨%d3, H3⟩, ⟨%d4, H4⟩, ⟨%d5, H5⟩, ⟨%d6, H6⟩⟩
      ihave HR' := (rest1_swap c _ (owns (c : Thread nD τ) scM1 fullShare (k1_pay3 (iblk1 V c 0 t) (iblk1 V c 1 t) (iblk1 V c 2 t) (iblk1 V c 3 t) (iblk1 V c 4 t) (acc1 V c (t.val - 1) (Nat.lt_of_le_of_lt (Nat.sub_le _ _) t.isLt))))) $$ HR
      icases HR' with ⟨HS, Hback⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) hB0 hB1 (iblk1 V c 0 t) (iblk1 V c 1 t) (iblk1 V c 2 t) (iblk1 V c 3 t) (iblk1 V c 4 t) (acc1 V c (t.val - 1) (Nat.lt_of_le_of_lt (Nat.sub_le _ _) t.isLt))).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]; · iexact HS
      iintro ⟨H0, H1, H2, H3, H4, ⟨%e5, H5⟩, H6, ⟨%es, HS⟩⟩
      isplitl [HS Hg Hback]
      · isplitl [HS Hback]
        · iapply Hback
          unfold owns; iexists _; isplitr
          swap; · iexact HS
          ipureintro
          exact (View.read_writes_eq_canon _ _ _ (cover1_B_S c _ _ _ _ _ _ _ _ _ _ _ _ _ _ _ _ _ _ _ _ _ _ _ hB0 hB1)).trans
            (run1_B_S c _ _ _ _ _ _ _ _ _ _ _ _ _ _ _ _ _ _ _ _ _ _ _ hB0 hB1)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro
        exact (View.read_writes_eq_canon _ _ _ (cover1_B_6 c _ _ _ _ _ _ _ _ _ _ _ _ _ _ _ _ _ _ _ _ _ _ _ hB0 hB1)).trans
          (run1_B_6 c _ _ _ _ _ _ _ _ _ _ _ _ _ _ _ _ _ _ _ _ _ _ _ hB0 hB1)
      iexists _; iexact H6

/-- The library's body obligation, at every tile. -/
theorem body_obligation1 (c : Dev nD) : BodyObligation (dat1 (F := F) V c) (defs₀ (F := F)) Variants.none () Set.univ := fun t => by
  rw [bigSep_W1, bigSep_W1]
  exact sound_body1 V c t

/-- After any tile the invariant gives the class invariant back: the scratch row's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HR, Hg⟩
  ihave HR' := (rest1_swap c _ iprop(∃ d, owns (c : Thread nD τ) scM1 fullShare d)) $$ HR
  icases HR' with ⟨HS, Hback⟩
  isplitl [HS Hback]
  · iapply Hback
    iexists _; iexact HS
  iexact Hg

/-- After the last tile the invariant gives the class invariant back: the scratch row's contents are forgotten. -/
theorem hout1 (c : Dev nD) : (dat1 V c).Φ (Fin.last cfg1.N) ⊢ Pipeline.ΦA spec1 c :=
  Phi_out1 V c _ (by rw [Fin.val_last]; have : cfg1.N = 25 := N_1; omega)

end Cert.KernelIdeal.Hand

end
-- ==== Proof.KI.Launch.lean ====
/-
  The two kernel regions as segments of the program, and the program's run.

  Between two segments a core holds every unscoped buffer whole at a known valuation: the launch memory, then each host
  stretch applied, then at each region's exit the region's arrays at what its write-backs leave. A region's record says
  how its arrays are taken out of those buffers at entry and put back at exit, how the scoped buffers and the generator
  register enter its invariant and come back, and carries its body obligation. The run then reads, off the last
  valuation, the two results and the eight arguments.
-/
import proofs.«115299_j66941360276307_2_alg».proof.Proof.KI.Vals
import proofs.«115299_j66941360276307_2_alg».proof.Proof.KI.Body0
import proofs.«115299_j66941360276307_2_alg».proof.Proof.KI.Body1
import proofs.«115299_j66941360276307_2_alg».proof.Proof.Gen.KernelIdeal.Regions
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- Every pipeline's proof data, each at its region's entry contents (a literal match on the pipeline). -/
def pdats : (p : Fin 2) → (c : Dev nD) → Dat τ (Elt F) Unit ℕ (UR sig nD τ) ℕ (Pipeline.pin (pcfgs (F := F)) Gen.adm p) c
  | ⟨0, _⟩ => fun c => dat0 (VA m) c
  | ⟨1, _⟩ => fun c => dat1 (VB m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-! ## Each region's arrays at its exit valuation -/

/-- Region 0's exit valuation holds each of its arrays at what the pipeline leaves there (the inputs as entered), -/
theorem hF0 (c : Dev nD) (w : Fin cfg0.W) : (pdats m 0 c).arrAt w cfg0.N = Gen.V2 m (outs2 m) c (Pipeline.arrRef spec0 w) := by
  show (dat0 (VA m) c).arrAt w cfg0.N = _
  fin_cases w
  · exact (((dat0 (VA m) c).arrAt_in 0 rfl _).trans (A_eq0 (VA m) c 0)).trans (Gen.V2_of m (outs2 m) c _ (by decide)).symm
  · exact (((dat0 (VA m) c).arrAt_in 1 rfl _).trans (A_eq0 (VA m) c 1)).trans (Gen.V2_of m (outs2 m) c _ (by decide)).symm
  · exact (((dat0 (VA m) c).arrAt_in 2 rfl _).trans (A_eq0 (VA m) c 2)).trans (Gen.V2_of m (outs2 m) c _ (by decide)).symm
  · exact (((dat0 (VA m) c).arrAt_in 3 rfl _).trans (A_eq0 (VA m) c 3)).trans (Gen.V2_of m (outs2 m) c _ (by decide)).symm
  · exact (((dat0 (VA m) c).arrAt_in 4 rfl _).trans (A_eq0 (VA m) c 4)).trans (Gen.V2_of m (outs2 m) c _ (by decide)).symm
  · exact (((dat0 (VA m) c).arrAt_in 5 rfl _).trans (A_eq0 (VA m) c 5)).trans (Gen.V2_of m (outs2 m) c _ (by decide)).symm
  · exact (V2_v39_0 m c).symm
  · exact (V2_v39_1 m c).symm
  · exact (V2_v39_2 m c).symm
/-- and every other buffer at what it held at entry. -/
theorem hrest0 (c : Dev nD) : ∀ b, b ∉ Finset.univ.image (Pipeline.arrRef spec0) → Gen.V2 m (outs2 m) c b = VA m c b :=
  fun b hb => Gen.V2_of m (outs2 m) c b (by
    intro hmem
    simp only [List.mem_cons, List.mem_nil_iff, or_false] at hmem
    rcases hmem with rfl | rfl | rfl
    · exact hb (Finset.mem_image.mpr ⟨6, Finset.mem_univ _, rfl⟩)
    · exact hb (Finset.mem_image.mpr ⟨7, Finset.mem_univ _, rfl⟩)
    · exact hb (Finset.mem_image.mpr ⟨8, Finset.mem_univ _, rfl⟩))

theorem hF1 (c : Dev nD) (w : Fin cfg1.W) : (pdats m 1 c).arrAt w cfg1.N = Gen.V4 m (outsK m) c (Pipeline.arrRef spec1 w) := by
  show (dat1 (VB m) c).arrAt w cfg1.N = _
  fin_cases w
  · exact (((dat1 (VB m) c).arrAt_in 0 rfl _).trans (A_eq1 (VB m) c 0)).trans ((Gen.V4_of m (outsK m) c _ (by decide)).trans (congrFun (V3_outsK m c) _)).symm
  · exact (((dat1 (VB m) c).arrAt_in 1 rfl _).trans (A_eq1 (VB m) c 1)).trans ((Gen.V4_of m (outsK m) c _ (by decide)).trans (congrFun (V3_outsK m c) _)).symm
  · exact (((dat1 (VB m) c).arrAt_in 2 rfl _).trans (A_eq1 (VB m) c 2)).trans ((Gen.V4_of m (outsK m) c _ (by decide)).trans (congrFun (V3_outsK m c) _)).symm
  · exact (((dat1 (VB m) c).arrAt_in 3 rfl _).trans (A_eq1 (VB m) c 3)).trans ((Gen.V4_of m (outsK m) c _ (by decide)).trans (congrFun (V3_outsK m c) _)).symm
  · exact (((dat1 (VB m) c).arrAt_in 4 rfl _).trans (A_eq1 (VB m) c 4)).trans ((Gen.V4_of m (outsK m) c _ (by decide)).trans (congrFun (V3_outsK m c) _)).symm
  · exact (V4_v53_0 m c).symm
  · exact (V4_v53_1 m c).symm
theorem hrest1 (c : Dev nD) : ∀ b, b ∉ Finset.univ.image (Pipeline.arrRef spec1) → Gen.V4 m (outsK m) c b = VB m c b :=
  fun b hb => (Gen.V4_of m (outsK m) c b (by
    intro hmem
    simp only [List.mem_cons, List.mem_nil_iff, or_false] at hmem
    rcases hmem with rfl | rfl
    · exact hb (Finset.mem_image.mpr ⟨5, Finset.mem_univ _, rfl⟩)
    · exact hb (Finset.mem_image.mpr ⟨6, Finset.mem_univ _, rfl⟩))).trans (congrFun (V3_outsK m c) _)

/-! ## The regions as segments -/

-- unifying a library lemma stated over the pinned configuration needs plain definitions unfolded in a metavariable's type
set_option backward.isDefEq.respectTransparency.types false in
/-- Region 0 over the thread state: entered from every unscoped buffer at the valuation before it, left at the
    valuation after it. Its arrays are split out of the unscoped buffers at entry and put back at exit; the generator
    register and the scoped buffers enter the invariant and come back; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs2 m) c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin0 (VA m) c)
    unfold Pipeline.ΦA
    iintro ⟨Hp, -, Hr⟩
    isplitl [Hr]; · iexact Hr
    iexact Hp
  hout c := by
    rw [Pipeline.ownSems0_none]
    refine Idealize.SL.BI.BIBase.Entails.trans (hout0 (VA m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VA m c) (fun b => Gen.V2 m (outs2 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration needs plain definitions unfolded in a metavariable's type
set_option backward.isDefEq.respectTransparency.types false in
/-- Region 1 over the thread state: entered from every unscoped buffer at the valuation before it, left at the
    valuation after it. Its arrays are split out of the unscoped buffers at entry and put back at exit; the generator
    register and the scoped buffers enter the invariant and come back; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (Gen.V3 m (outs2 m) c) ∗ R c)
  post c := iprop(StableHlo.held (c : Thread nD τ) (Pipeline.ucRefs τ sig) (Gen.V4 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin1 (VB m) c)
    unfold Pipeline.ΦA
    iintro ⟨Hp, -, Hr⟩
    isplitl [Hr]; · iexact Hr
    iexact Hp
  hout c := by
    rw [Pipeline.ownSems0_none]
    refine Idealize.SL.BI.BIBase.Entails.trans (hout1 (VB m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VB m c) (fun b => Gen.V4 m (outsK m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The program's five segments on a core: host stretch, region 0, host stretch, region 1, host stretch. -/
abbrev segsK (c : Dev nD) : List (Pipeline.Seg (pcfgs (F := F)) Gen.adm (pdats m) () defs₀ 𝒱₀ L lv) :=
  Gen.segs m (outsK m) 𝒱₀ L lv (fun _ => R) () (pdats m) (reg0 m) (reg1 m) c

-- the launch theorem's implicit arguments are found by unifying its conclusion with this one
set_option backward.isDefEq.respectTransparency.types false in
set_option maxHeartbeats 1600000 in
/-- From any memory with zero counters every weakly fair execution of the program terminates, nothing faulting, and the
    final memory holds every unscoped buffer at the last valuation: the launch memory with each host stretch applied and
    each region's arrays at what its write-backs leave. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V5 m (outsK m) c b) := by
  refine Pipeline.θ_run_regions_kit_dev (pcfgs (F := F)) Gen.adm (pdats m) () cellOf_inj emb₁ defs₀ 𝒱₀ L lv m ρ main
    (segsK m)
    (fun c Q => by
      rewrite [main_chain c, Pipeline.Seg.run_eq_chain,
        show (segsK m c).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segsK, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => iprop(StableHlo.held (c : Thread nD τ) (Pipeline.ucRefs τ sig) (Gen.V5 m (outsK m) c) ∗ ∃ r, prngReg c r))
    (hch := fun c => ⟨.rfl, .rfl,
      Entails.of_eq (congrArg (fun W => iprop(StableHlo.held (c : Thread nD τ) (Pipeline.ucRefs τ sig) W ∗ R c)) (V2_outsK m c).symm),
      Entails.of_eq (congrArg (fun W => iprop(StableHlo.held (c : Thread nD τ) (Pipeline.ucRefs τ sig) W ∗ R c)) (V3_outsK m c)),
      .rfl,
      (show (iprop(StableHlo.held (c : Thread nD τ) (Pipeline.ucRefs τ sig) (Gen.V5 m (outsK m) c) ∗ R c) : sProp 𝕄)
          ⊢ iprop(iprop(StableHlo.held (c : Thread nD τ) (Pipeline.ucRefs τ sig) (Gen.V5 m (outsK m) c) ∗ ∃ r, prngReg c r)
              ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V5 m (outsK m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V5 m (outsK m) c) s')
      isplitl [Hh] <;> iassumption)
    (hQ := fun s h => h)

/-- THE FRAME: every weakly fair execution terminates, nothing faulting, with the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (Gen.V5_main_arg0 m (outsK m) c),
     (h c _ (mem_uc main_arg1 (by decide))).trans (Gen.V5_main_arg1 m (outsK m) c),
     (h c _ (mem_uc main_arg2 (by decide))).trans (Gen.V5_main_arg2 m (outsK m) c),
     (h c _ (mem_uc main_arg3 (by decide))).trans (Gen.V5_main_arg3 m (outsK m) c),
     (h c _ (mem_uc main_arg4 (by decide))).trans (Gen.V5_main_arg4 m (outsK m) c),
     (h c _ (mem_uc main_arg5 (by decide))).trans (Gen.V5_main_arg5 m (outsK m) c),
     (h c _ (mem_uc main_arg6 (by decide))).trans (Gen.V5_main_arg6 m (outsK m) c),
     (h c _ (mem_uc main_arg7 (by decide))).trans (Gen.V5_main_arg7 m (outsK m) c)⟩) (run_all m ρ)

/-! ## The two results, read off the last valuation -/

/-- The first result is region 1's first output array as its write-backs leave it. -/
theorem V5_v53_0 (c : Dev nD) : Gen.V5 m (outsK m) c main_v53_0 = (dat1 (VB m) c).arrAt 5 cfg1.N :=
  (Gen.V5_of m (outsK m) c main_v53_0 (by decide)).trans (V4_v53_0 m c)

/-- The pooled sum of layer 1 survives the second host stretch and the second region untouched. -/
theorem V4_v39_2 (c : Dev nD) : Gen.V4 m (outsK m) c main_v39_2 = (dat0 (VA m) c).arrAt 8 cfg0.N :=
  (Gen.V4_of m (outsK m) c main_v39_2 (by decide)).trans <| (Gen.V3_of m (outsK m) c main_v39_2 (by decide)).trans <|
    (congrFun (V2_outsK m c) _).trans (V2_v39_2 m c)

/-- The second result is the two pooled sums side by side. -/
theorem V5_v54 (c : Dev nD) : Gen.V5 m (outsK m) c main_v54
    = concatenate S1x512 1 [⟨S1x256, (dat0 (VA m) c).arrAt 8 cfg0.N⟩, ⟨S1x256, (dat1 (VB m) c).arrAt 6 cfg1.N⟩] concatenates_S1x256_S1x256_S1x512_d1 := by
  rw [← V4_v39_2 m c, ← V4_v53_1 m c]
  dsimp only [Gen.V5, hostOps2]
  after_results

/-- The run with both results named. -/
theorem run_vals : θ_run defs (onTc (τ := τ) (main (F := F))) ⟨m, fun _ => 0, ρ⟩ (fun r => ∀ c : Dev nD,
      r.2.mem ((c.tc : Thread nD τ).loc main_v53_0) = (dat1 (VB m) c).arrAt 5 cfg1.N
      ∧ r.2.mem ((c.tc : Thread nD τ).loc main_v54) = concatenate S1x512 1 [⟨S1x256, (dat0 (VA m) c).arrAt 8 cfg0.N⟩, ⟨S1x256, (dat1 (VB m) c).arrAt 6 cfg1.N⟩] concatenates_S1x256_S1x256_S1x512_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v53_0 (by decide))).trans (V5_v53_0 m c),
     (h c _ (mem_uc main_v54 (by decide))).trans (V5_v54 m c),
     (h c _ (mem_uc main_arg0 (by decide))).trans (Gen.V5_main_arg0 m (outsK m) c),
     (h c _ (mem_uc main_arg1 (by decide))).trans (Gen.V5_main_arg1 m (outsK m) c),
     (h c _ (mem_uc main_arg2 (by decide))).trans (Gen.V5_main_arg2 m (outsK m) c),
     (h c _ (mem_uc main_arg3 (by decide))).trans (Gen.V5_main_arg3 m (outsK m) c),
     (h c _ (mem_uc main_arg4 (by decide))).trans (Gen.V5_main_arg4 m (outsK m) c),
     (h c _ (mem_uc main_arg5 (by decide))).trans (Gen.V5_main_arg5 m (outsK m) c),
     (h c _ (mem_uc main_arg6 (by decide))).trans (Gen.V5_main_arg6 m (outsK m) c),
     (h c _ (mem_uc main_arg7 (by decide))).trans (Gen.V5_main_arg7 m (outsK m) c)⟩) (run_all m ρ)

end Cert.KernelIdeal.Hand

end
-- ==== Proof.KI.Arrays.lean ====
/-
  From tiles to arrays. Each tiled output array ends holding, at row R and column j, what tile R / 2000 wrote at its
  row R % 2000 and column j: the 25 tiles are disjoint runs of 2000 rows that together cover all 50000 rows, and each
  is written back once, after its own tile. Each pooled-sum array is written back once, after the last tile, and then
  holds the running column sum of all 25 tiles.
-/
import proofs.«115299_j66941360276307_2_alg».proof.Proof.KI.Data
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## Rows and tiles -/

theorem N0_eq : cfg0.N = 25 := N_0
theorem N1_eq : cfg1.N = 25 := N_1

/-- The tile a row lies in, -/
def tile0 (i : S50000x256.Idx) : Fin cfg0.N := ⟨(i 0).val / 2000, by rw [N0_eq]; have := idx2_lt0 i; omega⟩
def tile1 (i : S50000x256.Idx) : Fin cfg1.N := ⟨(i 0).val / 2000, by rw [N1_eq]; have := idx2_lt0 i; omega⟩
/-- and its position inside the tile. -/
def inTile (i : S50000x256.Idx) : S2000x256.Idx :=
  ix2 (⟨(i 0).val % 2000, Nat.mod_lt _ (by norm_num)⟩ : Fin 2000) (⟨(i 1).val, idx2_lt1 i⟩ : Fin 256)

/-- The printed index maps of the tiled windows, decided over the grid: tile t's block starts at row block t, column block 0;
    the pooled-sum windows stay at block (0, 0). -/
theorem idx0 : ∀ t : Fin cfg0.N, win0_6.index t (0 : Fin 2) = t.val ∧ win0_6.index t (1 : Fin 2) = 0
    ∧ win0_7.index t (0 : Fin 2) = t.val ∧ win0_7.index t (1 : Fin 2) = 0
    ∧ win0_8.index t (0 : Fin 2) = 0 ∧ win0_8.index t (1 : Fin 2) = 0 :=
  (by decide +kernel : ∀ t : Fin grid0.N, _)
theorem idx1 : ∀ t : Fin cfg1.N, win1_5.index t (0 : Fin 2) = t.val ∧ win1_5.index t (1 : Fin 2) = 0
    ∧ win1_6.index t (0 : Fin 2) = 0 ∧ win1_6.index t (1 : Fin 2) = 0 :=
  (by decide +kernel : ∀ t : Fin grid1.N, _)

/-! ## Region 0 -/

/-- The first output array: at each row, what the row's tile wrote there. -/
def arrH0 (c : Dev nD) : S50000x256.Idx → Elt F .f32 := fun i => blkH0 V c (tile0 i) (inTile i)
/-- The second (rescaled, narrower float format) output array. -/
def arrS0 (c : Dev nD) : S50000x256.Idx → Elt F .bf16 := fun i => blkS0 V c (tile0 i) (inTile i)

theorem blkH0_congr (c : Dev nD) {t t' : Fin cfg0.N} {j j' : S2000x256.Idx} (ht : t' = t) (hj : j' = j) :
    blkH0 V c t' j' = blkH0 V c t j := by subst ht; subst hj; rfl
theorem blkS0_congr (c : Dev nD) {t t' : Fin cfg0.N} {j j' : S2000x256.Idx} (ht : t' = t) (hj : j' = j) :
    blkS0 V c t' j' = blkS0 V c t j := by subst ht; subst hj; rfl

/-- Row t·2000 + r (r below 2000) lies in tile t at position r. -/
theorem tile0_of (t : Fin cfg0.N) (j : S2000x256.Idx) (i : S50000x256.Idx)
    (h0 : (i 0).val = t.val * 2000 + (j 0).val) (h1 : (i 1).val = (j 1).val) : tile0 i = t ∧ inTile i = j := by
  have hj0 : (j 0).val < 2000 := idx2_lt0 j
  refine ⟨Fin.ext ?_, ?_⟩
  · show (i 0).val / 2000 = t.val
    omega
  · funext a
    match a with
    | ⟨0, _⟩ => exact Fin.ext (by show (i 0).val % 2000 = (j 0).val; omega)
    | ⟨1, _⟩ => exact Fin.ext (by show (i 1).val = (j 1).val; exact h1)

/-- What tile t writes back of the first output is block t of the array. -/
theorem flushed0_6 (c : Dev nD) (t : Fin cfg0.N) :
    (dat0 V c).flushed 6 t = ((cfg0.win 6).blk t).view.read (Elt F) (arrH0 V c) := by
  show (cfg0.win 6).cut (grid0.coords t) ((dat0 V c).after 6 t) = _
  rw [after0_6]
  obtain ⟨e0, e1, -, -, -, -⟩ := idx0 t
  funext j
  show blkH0 V c t j = arrH0 V c (((cfg0.win 6).blk t).view.emb j)
  unfold arrH0
  obtain ⟨ht, hj⟩ := tile0_of t j (((cfg0.win 6).blk t).view.emb j)
    (by show win0_6.index t (0 : Fin 2) * 2000 + 1 * (j 0).val = _; omega)
    (by show win0_6.index t (1 : Fin 2) * 256 + 1 * (j 1).val = _; omega)
  exact (blkH0_congr V c ht hj).symm

theorem flushed0_7 (c : Dev nD) (t : Fin cfg0.N) :
    (dat0 V c).flushed 7 t = ((cfg0.win 7).blk t).view.read (Elt F) (arrS0 V c) := by
  show (cfg0.win 7).cut (grid0.coords t) ((dat0 V c).after 7 t) = _
  rw [after0_7]
  obtain ⟨-, -, e0, e1, -, -⟩ := idx0 t
  funext j
  show blkS0 V c t j = arrS0 V c (((cfg0.win 7).blk t).view.emb j)
  unfold arrS0
  obtain ⟨ht, hj⟩ := tile0_of t j (((cfg0.win 7).blk t).view.emb j)
    (by show win0_7.index t (0 : Fin 2) * 2000 + 1 * (j 0).val = _; omega)
    (by show win0_7.index t (1 : Fin 2) * 256 + 1 * (j 1).val = _; omega)
  exact (blkS0_congr V c ht hj).symm

/-- An index of a tiled output array is in tile t's block iff each coordinate is in the block's range. -/
theorem mem_blk0_6 (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v39_0).slice (win0_6.rect t)).set ↔ _
  rw [View.set_slice_whole, Rect.mem_set_unit]
  exact Iff.rfl
theorem mem_blk0_7 (t : Fin cfg0.N) (i : S50000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v39_1).slice (win0_7.rect t)).set ↔ _
  rw [View.set_slice_whole, Rect.mem_set_unit]
  exact Iff.rfl

/-- Every row is in the block of its own tile. -/
theorem cover0_6 (i : S50000x256.Idx) : ∃ t : Fin cfg0.N, (cfg0.win 6).flush t = true ∧ i ∈ ((cfg0.win 6).blk t).view.set := by
  refine ⟨tile0 i, flush0_6 _, ?_⟩
  rw [mem_blk0_6]
  obtain ⟨e0, e1, -, -, -, -⟩ := idx0 (tile0 i)
  have hv : (tile0 i).val = (i 0).val / 2000 := rfl
  have hi0 : (i 0).val < 50000 := idx2_lt0 i
  have hi1 : (i 1).val < 256 := idx2_lt1 i
  intro a
  match a with
  | ⟨0, _⟩ => show win0_6.index (tile0 i) (0 : Fin 2) * 2000 ≤ (i 0).val ∧ (i 0).val < win0_6.index (tile0 i) (0 : Fin 2) * 2000 + 2000; omega
  | ⟨1, _⟩ => show win0_6.index (tile0 i) (1 : Fin 2) * 256 ≤ (i 1).val ∧ (i 1).val < win0_6.index (tile0 i) (1 : Fin 2) * 256 + 256; omega
theorem cover0_7 (i : S50000x256.Idx) : ∃ t : Fin cfg0.N, (cfg0.win 7).flush t = true ∧ i ∈ ((cfg0.win 7).blk t).view.set := by
  refine ⟨tile0 i, flush0_7 _, ?_⟩
  rw [mem_blk0_7]
  obtain ⟨-, -, e0, e1, -, -⟩ := idx0 (tile0 i)
  have hv : (tile0 i).val = (i 0).val / 2000 := rfl
  have hi0 : (i 0).val < 50000 := idx2_lt0 i
  have hi1 : (i 1).val < 256 := idx2_lt1 i
  intro a
  match a with
  | ⟨0, _⟩ => show win0_7.index (tile0 i) (0 : Fin 2) * 2000 ≤ (i 0).val ∧ (i 0).val < win0_7.index (tile0 i) (0 : Fin 2) * 2000 + 2000; omega
  | ⟨1, _⟩ => show win0_7.index (tile0 i) (1 : Fin 2) * 256 ≤ (i 1).val ∧ (i 1).val < win0_7.index (tile0 i) (1 : Fin 2) * 256 + 256; omega

/-- THE FIRST OUTPUT ARRAY of region 0 after the region. -/
theorem final0_6 (c : Dev nD) : (dat0 V c).arrAt 6 cfg0.N = arrH0 V c :=
  (dat0 V c).arrAt_eq_of_cover 6 (arrH0 V c) (fun t _ => flushed0_6 V c t) cover0_6
/-- THE SECOND OUTPUT ARRAY of region 0 after the region. -/
theorem final0_7 (c : Dev nD) : (dat0 V c).arrAt 7 cfg0.N = arrS0 V c :=
  (dat0 V c).arrAt_eq_of_cover 7 (arrS0 V c) (fun t _ => flushed0_7 V c t) cover0_7

/-- The last tile. -/
def last0 : Fin cfg0.N := ⟨24, by rw [N0_eq]; norm_num⟩
def last1 : Fin cfg1.N := ⟨24, by rw [N1_eq]; norm_num⟩

theorem mem_blk0_8 (t : Fin cfg0.N) (i : S1x256.Idx) :
    i ∈ ((cfg0.win 8).blk t).view.set ↔ ∀ a : Fin 2, win0_8.index t a * S1x256.size a ≤ (i a).val ∧ (i a).val < win0_8.index t a * S1x256.size a + S1x256.size a := by
  show i ∈ ((View.whole main_v39_2).slice (win0_8.rect t)).set ↔ _
  rw [View.set_slice_whole, Rect.mem_set_unit]
  exact Iff.rfl

/-- THE POOLED SUM of region 0 after the region: the running sum after the last tile. -/
theorem final0_8 (c : Dev nD) : (dat0 V c).arrAt 8 cfg0.N = acc0 V c 24 (last0).isLt := by
  refine (dat0 V c).arrAt_eq_of_cover 8 (acc0 V c 24 (last0).isLt) (fun t hf => ?_) (fun i => ?_)
  · have ht : t = last0 := Fin.ext (by
      have h := (flush0_8 t).mp hf
      have hN : t.val < 25 := lt_of_lt_of_eq t.isLt N0_eq
      show t.val = 24; omega)
    subst ht
    show (cfg0.win 8).cut (grid0.coords last0) ((dat0 V c).after 8 last0) = _
    rw [after0_8]
    obtain ⟨-, -, -, -, e0, e1⟩ := idx0 last0
    funext j
    show acc0 V c 24 _ j = acc0 V c 24 _ (((cfg0.win 8).blk last0).view.emb j)
    congr 1
    funext a
    match a with
    | ⟨0, _⟩ => exact Fin.ext (by show (j 0).val = win0_8.index last0 (0 : Fin 2) * 1 + 1 * (j 0).val; omega)
    | ⟨1, _⟩ => exact Fin.ext (by show (j 1).val = win0_8.index last0 (1 : Fin 2) * 256 + 1 * (j 1).val; omega)
  · refine ⟨last0, (flush0_8 last0).mpr (by show 24 % 25 = 24; norm_num), ?_⟩
    rw [mem_blk0_8]
    obtain ⟨-, -, -, -, e0, e1⟩ := idx0 last0
    have hi0 : (i 0).val < 1 := idx2_lt0 i
    have hi1 : (i 1).val < 256 := idx2_lt1 i
    intro a
    match a with
    | ⟨0, _⟩ => show win0_8.index last0 (0 : Fin 2) * 1 ≤ (i 0).val ∧ (i 0).val < win0_8.index last0 (0 : Fin 2) * 1 + 1; omega
    | ⟨1, _⟩ => show win0_8.index last0 (1 : Fin 2) * 256 ≤ (i 1).val ∧ (i 1).val < win0_8.index last0 (1 : Fin 2) * 256 + 256; omega

/-! ## Region 1 -/

def arrH1 (c : Dev nD) : S50000x256.Idx → Elt F .f32 := fun i => blkH1 V c (tile1 i) (inTile i)

theorem blkH1_congr (c : Dev nD) {t t' : Fin cfg1.N} {j j' : S2000x256.Idx} (ht : t' = t) (hj : j' = j) :
    blkH1 V c t' j' = blkH1 V c t j := by subst ht; subst hj; rfl

theorem tile1_of (t : Fin cfg1.N) (j : S2000x256.Idx) (i : S50000x256.Idx)
    (h0 : (i 0).val = t.val * 2000 + (j 0).val) (h1 : (i 1).val = (j 1).val) : tile1 i = t ∧ inTile i = j := by
  have hj0 : (j 0).val < 2000 := idx2_lt0 j
  refine ⟨Fin.ext ?_, ?_⟩
  · show (i 0).val / 2000 = t.val
    omega
  · funext a
    match a with
    | ⟨0, _⟩ => exact Fin.ext (by show (i 0).val % 2000 = (j 0).val; omega)
    | ⟨1, _⟩ => exact Fin.ext (by show (i 1).val = (j 1).val; exact h1)

theorem flushed1_5 (c : Dev nD) (t : Fin cfg1.N) :
    (dat1 V c).flushed 5 t = ((cfg1.win 5).blk t).view.read (Elt F) (arrH1 V c) := by
  show (cfg1.win 5).cut (grid1.coords t) ((dat1 V c).after 5 t) = _
  rw [after1_5]
  obtain ⟨e0, e1, -, -⟩ := idx1 t
  funext j
  show blkH1 V c t j = arrH1 V c (((cfg1.win 5).blk t).view.emb j)
  unfold arrH1
  obtain ⟨ht, hj⟩ := tile1_of t j (((cfg1.win 5).blk t).view.emb j)
    (by show win1_5.index t (0 : Fin 2) * 2000 + 1 * (j 0).val = _; omega)
    (by show win1_5.index t (1 : Fin 2) * 256 + 1 * (j 1).val = _; omega)
  exact (blkH1_congr V c ht hj).symm

theorem mem_blk1_5 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v53_0).slice (win1_5.rect t)).set ↔ _
  rw [View.set_slice_whole, Rect.mem_set_unit]
  exact Iff.rfl

theorem cover1_5 (i : S50000x256.Idx) : ∃ t : Fin cfg1.N, (cfg1.win 5).flush t = true ∧ i ∈ ((cfg1.win 5).blk t).view.set := by
  refine ⟨tile1 i, flush1_5 _, ?_⟩
  rw [mem_blk1_5]
  obtain ⟨e0, e1, -, -⟩ := idx1 (tile1 i)
  have hv : (tile1 i).val = (i 0).val / 2000 := rfl
  have hi0 : (i 0).val < 50000 := idx2_lt0 i
  have hi1 : (i 1).val < 256 := idx2_lt1 i
  intro a
  match a with
  | ⟨0, _⟩ => show win1_5.index (tile1 i) (0 : Fin 2) * 2000 ≤ (i 0).val ∧ (i 0).val < win1_5.index (tile1 i) (0 : Fin 2) * 2000 + 2000; omega
  | ⟨1, _⟩ => show win1_5.index (tile1 i) (1 : Fin 2) * 256 ≤ (i 1).val ∧ (i 1).val < win1_5.index (tile1 i) (1 : Fin 2) * 256 + 256; omega

/-- THE OUTPUT ARRAY of region 1 after the region. -/
theorem final1_5 (c : Dev nD) : (dat1 V c).arrAt 5 cfg1.N = arrH1 V c :=
  (dat1 V c).arrAt_eq_of_cover 5 (arrH1 V c) (fun t _ => flushed1_5 V c t) cover1_5

theorem mem_blk1_6 (t : Fin cfg1.N) (i : S1x256.Idx) :
    i ∈ ((cfg1.win 6).blk t).view.set ↔ ∀ a : Fin 2, win1_6.index t a * S1x256.size a ≤ (i a).val ∧ (i a).val < win1_6.index t a * S1x256.size a + S1x256.size a := by
  show i ∈ ((View.whole main_v53_1).slice (win1_6.rect t)).set ↔ _
  rw [View.set_slice_whole, Rect.mem_set_unit]
  exact Iff.rfl

/-- THE POOLED SUM of region 1 after the region. -/
theorem final1_6 (c : Dev nD) : (dat1 V c).arrAt 6 cfg1.N = acc1 V c 24 (last1).isLt := by
  refine (dat1 V c).arrAt_eq_of_cover 6 (acc1 V c 24 (last1).isLt) (fun t hf => ?_) (fun i => ?_)
  · have ht : t = last1 := Fin.ext (by
      have h := (flush1_6 t).mp hf
      have hN : t.val < 25 := lt_of_lt_of_eq t.isLt N1_eq
      show t.val = 24; omega)
    subst ht
    show (cfg1.win 6).cut (grid1.coords last1) ((dat1 V c).after 6 last1) = _
    rw [after1_6]
    obtain ⟨-, -, e0, e1⟩ := idx1 last1
    funext j
    show acc1 V c 24 _ j = acc1 V c 24 _ (((cfg1.win 6).blk last1).view.emb j)
    congr 1
    funext a
    match a with
    | ⟨0, _⟩ => exact Fin.ext (by show (j 0).val = win1_6.index last1 (0 : Fin 2) * 1 + 1 * (j 0).val; omega)
    | ⟨1, _⟩ => exact Fin.ext (by show (j 1).val = win1_6.index last1 (1 : Fin 2) * 256 + 1 * (j 1).val; omega)
  · refine ⟨last1, (flush1_6 last1).mpr (by show 24 % 25 = 24; norm_num), ?_⟩
    rw [mem_blk1_6]
    obtain ⟨-, -, e0, e1⟩ := idx1 last1
    have hi0 : (i 0).val < 1 := idx2_lt0 i
    have hi1 : (i 1).val < 256 := idx2_lt1 i
    intro a
    match a with
    | ⟨0, _⟩ => show win1_6.index last1 (0 : Fin 2) * 1 ≤ (i 0).val ∧ (i 0).val < win1_6.index last1 (0 : Fin 2) * 1 + 1; omega
    | ⟨1, _⟩ => show win1_6.index last1 (1 : Fin 2) * 256 ≤ (i 1).val ∧ (i 1).val < win1_6.index last1 (1 : Fin 2) * 256 + 256; omega

end Cert.KernelIdeal.Hand

end
-- ==== Proof.KI.Blocks.lean ====
/-
  Each input window's block at tile t, read at an index: the row-tiled windows hold rows t·2000 … t·2000 + 1999 of
  their arrays, the weights, the bias row and the slope windows hold their whole arrays at every tile.
-/
import proofs.«115299_j66941360276307_2_alg».proof.Proof.KI.Arrays

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- Row r of tile t, as a row of the whole array. -/
def row0 (t : Fin cfg0.N) (r : Fin 2000) : Fin 50000 := ⟨t.val * 2000 + r.val, by have := lt_of_lt_of_eq t.isLt N0_eq; have := r.isLt; omega⟩
def row1 (t : Fin cfg1.N) (r : Fin 2000) : Fin 50000 := ⟨t.val * 2000 + r.val, by have := lt_of_lt_of_eq t.isLt N1_eq; have := r.isLt; omega⟩

/-- A row is row (R % 2000) of tile (R / 2000). -/
theorem row0_tile (i : S50000x256.Idx) : row0 (tile0 i) ⟨(i 0).val % 2000, Nat.mod_lt _ (by norm_num)⟩ = ⟨(i 0).val, idx2_lt0 i⟩ :=
  Fin.ext (by show (i 0).val / 2000 * 2000 + (i 0).val % 2000 = (i 0).val; omega)
theorem row1_tile (i : S50000x256.Idx) : row1 (tile1 i) ⟨(i 0).val % 2000, Nat.mod_lt _ (by norm_num)⟩ = ⟨(i 0).val, idx2_lt0 i⟩ :=
  Fin.ext (by show (i 0).val / 2000 * 2000 + (i 0).val % 2000 = (i 0).val; omega)

/-! ## The printed index maps of the input windows, decided over the grid -/

theorem idxIn0_0 : ∀ t : Fin cfg0.N, win0_0.index t (0 : Fin 2) = t.val ∧ win0_0.index t (1 : Fin 2) = 0 :=
  (by decide +kernel : ∀ t : Fin grid0.N, _)
theorem idxIn0_1 : ∀ t : Fin cfg0.N, win0_1.index t (0 : Fin 2) = t.val ∧ win0_1.index t (1 : Fin 2) = 0 :=
  (by decide +kernel : ∀ t : Fin grid0.N, _)
theorem idxIn0_2 : ∀ t : Fin cfg0.N, win0_2.index t (0 : Fin 2) = t.val ∧ win0_2.index t (1 : Fin 2) = 0 :=
  (by decide +kernel : ∀ t : Fin grid0.N, _)
theorem idxIn0_3 : ∀ t : Fin cfg0.N, win0_3.index t (0 : Fin 2) = 0 ∧ win0_3.index t (1 : Fin 2) = 0 :=
  (by decide +kernel : ∀ t : Fin grid0.N, _)
theorem idxIn0_4 : ∀ t : Fin cfg0.N, win0_4.index t (0 : Fin 2) = 0 ∧ win0_4.index t (1 : Fin 2) = 0 :=
  (by decide +kernel : ∀ t : Fin grid0.N, _)
theorem idxIn0_5 : ∀ t : Fin cfg0.N, win0_5.index t (0 : Fin 2) = 0 ∧ win0_5.index t (1 : Fin 2) = 0 :=
  (by decide +kernel : ∀ t : Fin grid0.N, _)
theorem idxIn1_0 : ∀ t : Fin cfg1.N, win1_0.index t (0 : Fin 2) = t.val ∧ win1_0.index t (1 : Fin 2) = 0 :=
  (by decide +kernel : ∀ t : Fin grid1.N, _)
theorem idxIn1_1 : ∀ t : Fin cfg1.N, win1_1.index t (0 : Fin 2) = t.val ∧ win1_1.index t (1 : Fin 2) = 0 :=
  (by decide +kernel : ∀ t : Fin grid1.N, _)
theorem idxIn1_2 : ∀ t : Fin cfg1.N, win1_2.index t (0 : Fin 2) = 0 ∧ win1_2.index t (1 : Fin 2) = 0 :=
  (by decide +kernel : ∀ t : Fin grid1.N, _)
theorem idxIn1_3 : ∀ t : Fin cfg1.N, win1_3.index t (0 : Fin 2) = 0 ∧ win1_3.index t (1 : Fin 2) = 0 :=
  (by decide +kernel : ∀ t : Fin grid1.N, _)
theorem idxIn1_4 : ∀ t : Fin cfg1.N, win1_4.index t (0 : Fin 2) = 0 ∧ win1_4.index t (1 : Fin 2) = 0 :=
  (by decide +kernel : ∀ t : Fin grid1.N, _)

/-! ## Region 0 -/

/-- Window 0 of region 0 at tile t holds rows t·2000 … t·2000 + 1999 of its array. -/
theorem iblk0_0_apply (c : Dev nD) (t : Fin cfg0.N) (r : Fin 2000) (k : Fin 256) :
    (iblk0 V c 0 t : S2000x256.Idx → Elt F .f32) (ix2 r k) = V c main_v36 (ix2 (row0 t r) k) := by
  obtain ⟨e0, e1⟩ := idxIn0_0 t
  show V c main_v36 (((cfg0.win 0).blk t).view.emb (ix2 r k)) = V c main_v36 (ix2 (row0 t r) k)
  congr 1
  funext a
  match a with
  | ⟨0, _⟩ => exact Fin.ext (by show win0_0.index t (0 : Fin 2) * 2000 + 1 * r.val = t.val * 2000 + r.val; omega)
  | ⟨1, _⟩ => exact Fin.ext (by show win0_0.index t (1 : Fin 2) * 256 + 1 * k.val = k.val; omega)

/-- Window 1 of region 0 at tile t holds rows t·2000 … t·2000 + 1999 of its array. -/
theorem iblk0_1_apply (c : Dev nD) (t : Fin cfg0.N) (r : Fin 2000) (k : Fin 1) :
    (iblk0 V c 1 t : S2000x1.Idx → Elt F .f32) (ix2 r k) = V c main_v24 (ix2 (row0 t r) k) := by
  obtain ⟨e0, e1⟩ := idxIn0_1 t
  show V c main_v24 (((cfg0.win 1).blk t).view.emb (ix2 r k)) = V c main_v24 (ix2 (row0 t r) k)
  congr 1
  funext a
  match a with
  | ⟨0, _⟩ => exact Fin.ext (by show win0_1.index t (0 : Fin 2) * 2000 + 1 * r.val = t.val * 2000 + r.val; omega)
  | ⟨1, _⟩ => exact Fin.ext (by show win0_1.index t (1 : Fin 2) * 1 + 1 * k.val = k.val; omega)

/-- Window 2 of region 0 at tile t holds rows t·2000 … t·2000 + 1999 of its array. -/
theorem iblk0_2_apply (c : Dev nD) (t : Fin cfg0.N) (r : Fin 2000) (k : Fin 1) :
    (iblk0 V c 2 t : S2000x1.Idx → Elt F .f32) (ix2 r k) = V c main_v20 (ix2 (row0 t r) k) := by
  obtain ⟨e0, e1⟩ := idxIn0_2 t
  show V c main_v20 (((cfg0.win 2).blk t).view.emb (ix2 r k)) = V c main_v20 (ix2 (row0 t r) k)
  congr 1
  funext a
  match a with
  | ⟨0, _⟩ => exact Fin.ext (by show win0_2.index t (0 : Fin 2) * 2000 + 1 * r.val = t.val * 2000 + r.val; omega)
  | ⟨1, _⟩ => exact Fin.ext (by show win0_2.index t (1 : Fin 2) * 1 + 1 * k.val = k.val; omega)

/-- Window 3 of region 0 stays at block (0, 0), which is its whole array. -/
theorem iblk0_3_eq (c : Dev nD) (t : Fin cfg0.N) : (iblk0 V c 3 t : S256x256.Idx → Elt F .f32) = V c main_arg3 := by
  obtain ⟨e0, e1⟩ := idxIn0_3 t
  funext j
  show V c main_arg3 (((cfg0.win 3).blk t).view.emb j) = V c main_arg3 j
  congr 1
  funext a
  match a with
  | ⟨0, _⟩ => exact Fin.ext (by show win0_3.index t (0 : Fin 2) * 256 + 1 * (j 0).val = (j 0).val; omega)
  | ⟨1, _⟩ => exact Fin.ext (by show win0_3.index t (1 : Fin 2) * 256 + 1 * (j 1).val = (j 1).val; omega)

/-- Window 4 of region 0 stays at block (0, 0), which is its whole array. -/
theorem iblk0_4_eq (c : Dev nD) (t : Fin cfg0.N) : (iblk0 V c 4 t : S1x256.Idx → Elt F .f32) = V c main_v37 := by
  obtain ⟨e0, e1⟩ := idxIn0_4 t
  funext j
  show V c main_v37 (((cfg0.win 4).blk t).view.emb j) = V c main_v37 j
  congr 1
  funext a
  match a with
  | ⟨0, _⟩ => exact Fin.ext (by show win0_4.index t (0 : Fin 2) * 1 + 1 * (j 0).val = (j 0).val; omega)
  | ⟨1, _⟩ => exact Fin.ext (by show win0_4.index t (1 : Fin 2) * 256 + 1 * (j 1).val = (j 1).val; omega)

/-- Window 5 of region 0 stays at block (0, 0), which is its whole array. -/
theorem iblk0_5_eq (c : Dev nD) (t : Fin cfg0.N) : (iblk0 V c 5 t : S1x1.Idx → Elt F .f32) = V c main_v38 := by
  obtain ⟨e0, e1⟩ := idxIn0_5 t
  funext j
  show V c main_v38 (((cfg0.win 5).blk t).view.emb j) = V c main_v38 j
  congr 1
  funext a
  match a with
  | ⟨0, _⟩ => exact Fin.ext (by show win0_5.index t (0 : Fin 2) * 1 + 1 * (j 0).val = (j 0).val; omega)
  | ⟨1, _⟩ => exact Fin.ext (by show win0_5.index t (1 : Fin 2) * 1 + 1 * (j 1).val = (j 1).val; omega)

/-! ## Region 1 -/

/-- Window 0 of region 1 at tile t holds rows t·2000 … t·2000 + 1999 of its array. -/
theorem iblk1_0_apply (c : Dev nD) (t : Fin cfg1.N) (r : Fin 2000) (k : Fin 256) :
    (iblk1 V c 0 t : S2000x256.Idx → Elt F .f32) (ix2 r k) = V c main_v50 (ix2 (row1 t r) k) := by
  obtain ⟨e0, e1⟩ := idxIn1_0 t
  show V c main_v50 (((cfg1.win 0).blk t).view.emb (ix2 r k)) = V c main_v50 (ix2 (row1 t r) k)
  congr 1
  funext a
  match a with
  | ⟨0, _⟩ => exact Fin.ext (by show win1_0.index t (0 : Fin 2) * 2000 + 1 * r.val = t.val * 2000 + r.val; omega)
  | ⟨1, _⟩ => exact Fin.ext (by show win1_0.index t (1 : Fin 2) * 256 + 1 * k.val = k.val; omega)

/-- Window 1 of region 1 at tile t holds rows t·2000 … t·2000 + 1999 of its array. -/
theorem iblk1_1_apply (c : Dev nD) (t : Fin cfg1.N) (r : Fin 2000) (k : Fin 1) :
    (iblk1 V c 1 t : S2000x1.Idx → Elt F .f32) (ix2 r k) = V c main_v24 (ix2 (row1 t r) k) := by
  obtain ⟨e0, e1⟩ := idxIn1_1 t
  show V c main_v24 (((cfg1.win 1).blk t).view.emb (ix2 r k)) = V c main_v24 (ix2 (row1 t r) k)
  congr 1
  funext a
  match a with
  | ⟨0, _⟩ => exact Fin.ext (by show win1_1.index t (0 : Fin 2) * 2000 + 1 * r.val = t.val * 2000 + r.val; omega)
  | ⟨1, _⟩ => exact Fin.ext (by show win1_1.index t (1 : Fin 2) * 1 + 1 * k.val = k.val; omega)

/-- Window 2 of region 1 stays at block (0, 0), which is its whole array. -/
theorem iblk1_2_eq (c : Dev nD) (t : Fin cfg1.N) : (iblk1 V c 2 t : S256x256.Idx → Elt F .f32) = V c main_arg5 := by
  obtain ⟨e0, e1⟩ := idxIn1_2 t
  funext j
  show V c main_arg5 (((cfg1.win 2).blk t).view.emb j) = V c main_arg5 j
  congr 1
  funext a
  match a with
  | ⟨0, _⟩ => exact Fin.ext (by show win1_2.index t (0 : Fin 2) * 256 + 1 * (j 0).val = (j 0).val; omega)
  | ⟨1, _⟩ => exact Fin.ext (by show win1_2.index t (1 : Fin 2) * 256 + 1 * (j 1).val = (j 1).val; omega)

/-- Window 3 of region 1 stays at block (0, 0), which is its whole array. -/
theorem iblk1_3_eq (c : Dev nD) (t : Fin cfg1.N) : (iblk1 V c 3 t : S1x256.Idx → Elt F .f32) = V c main_v51 := by
  obtain ⟨e0, e1⟩ := idxIn1_3 t
  funext j
  show V c main_v51 (((cfg1.win 3).blk t).view.emb j) = V c main_v51 j
  congr 1
  funext a
  match a with
  | ⟨0, _⟩ => exact Fin.ext (by show win1_3.index t (0 : Fin 2) * 1 + 1 * (j 0).val = (j 0).val; omega)
  | ⟨1, _⟩ => exact Fin.ext (by show win1_3.index t (1 : Fin 2) * 256 + 1 * (j 1).val = (j 1).val; omega)

/-- Window 4 of region 1 stays at block (0, 0), which is its whole array. -/
theorem iblk1_4_eq (c : Dev nD) (t : Fin cfg1.N) : (iblk1 V c 4 t : S1x1.Idx → Elt F .f32) = V c main_v52 := by
  obtain ⟨e0, e1⟩ := idxIn1_4 t
  funext j
  show V c main_v52 (((cfg1.win 4).blk t).view.emb j) = V c main_v52 j
  congr 1
  funext a
  match a with
  | ⟨0, _⟩ => exact Fin.ext (by show win1_4.index t (0 : Fin 2) * 1 + 1 * (j 0).val = (j 0).val; omega)
  | ⟨1, _⟩ => exact Fin.ext (by show win1_4.index t (1 : Fin 2) * 1 + 1 * (j 1).val = (j 1).val; omega)

end Cert.KernelIdeal.Hand

end
-- ==== Proof.Val.Act.lean ====
/-
  The activation of the graph-convolution layer at ONE element of the extended reals: a leaky rectifier
  with a learned slope. `act a y` is `y` where `y ≥ 0` and `a * y` elsewhere — stated through the very
  comparison and selection both programs apply, so that nothing about the order of the extended reals (what
  `≥` says at the infinities) has to be opened: both sides of the certificate reach the same `act`.
-/
import Idealize.ShloMosaic.PureOps.Ideal
import Idealize.ShloMosaic.PureOps.Ideal.Laws
import Idealize.ShloMosaic.Lib.ValueIdx

noncomputable section

namespace Cert.Proof.Tile

open Idealize.ShloMosaic Idealize.ShloMosaic.ValueIdx

/-- The leaky rectifier with slope `a` at one extended real `y`: `y` itself where `0 ≤ y`, else `a * y`. -/
def act (a y : EReal) : EReal := Scalar.select (Ideal.cmp .oge y 0) y (a * y)

/-- What a vector `select (cmpf oge y 0) y (a * y)` is at one element, at the ideal values: the comparison
    against the f32 zero word is the comparison against the extended real `0`, the product the extended
    reals' product. -/
theorem select_cmpf_oge_zero (a y : Ideal .f32) :
    Scalar.select (FloatOps.cmpf .oge y (Scalar.ofBits .f32 0x00000000#32)) y (FloatOps.mulf a y) = act a y := by
  show Scalar.select (Ideal.cmp .oge y (Ideal.ofBits .f32 0x00000000#32)) y (a * y) = act a y
  rw [Ideal.ofBits_zero_f32]
  rfl

/-- The same with the zero spelt as the instance's `ofBits` (a `constant` splat read at an index). -/
theorem select_cmpf_oge_zero' (a y : Ideal .f32) :
    Scalar.select (FloatOps.cmpf .oge y (FloatOps.ofBits (F := Ideal) .f32 0x00000000#32)) y (FloatOps.mulf a y) = act a y :=
  select_cmpf_oge_zero a y

end Cert.Proof.Tile

end
-- ==== Proof.Val.Tile.lean ====
/-
  One tile of the graph-convolution layer, element by element, at the ideal values.

  A tile holds 2000 rows of the aggregated messages. Each row is scaled by its in-degree factor, multiplied
  into the 256 × 256 weight matrix, shifted by the bias row and passed through the leaky rectifier `act`:
  element `(r, j)` of the tile's result is
      act slope ((∑ k, (agg r k * deg r) * W k j) + bias j).
  A change of float format is the identity on the extended reals, and the matrix product accumulates into zero,
  so nothing else is left of the tile's arithmetic. The second kernel of the program computes the same
  function of its own operands.
-/
import proofs.«115299_j66941360276307_2_alg».proof.Proof.Gen.KernelIdeal.Skeleton
import proofs.«115299_j66941360276307_2_alg».proof.Proof.Val.Act
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.Tile

open Idealize.ShloMosaic Idealize.ShloMosaic.ValueIdx Cert.KernelIdeal Cert.KernelIdeal.Gen

/-! ## The layout operations of the tile, read at `(r, j)` -/

/-- A column `[2000, 1]` broadcast over 256 lanes reads, at `(r, j)`, the column at row `r`. -/
theorem bcast_col_apply {α : Type} (v : S2000x1.Idx → α) (r : Fin 2000) (j : Fin 256) :
    broadcastTo S2000x256 v broadcasts_S2000x1_S2000x256 (ix2 r j) = v (ix2 r (0 : Fin 1)) := by
  refine broadcastTo_apply v broadcasts_S2000x1_S2000x256 (ix2 r j) (ix2 r (0 : Fin 1)) fun ax => ?_
  match ax with
  | ⟨0, _⟩ => rfl
  | ⟨1, _⟩ => rfl

/-- A row `[1, 256]` broadcast over 2000 rows reads, at `(r, j)`, the row at lane `j`. -/
theorem bcast_row_apply {α : Type} (v : S1x256.Idx → α) (r : Fin 2000) (j : Fin 256) :
    broadcastTo S2000x256 v broadcasts_S1x256_S2000x256 (ix2 r j) = v (ix2 (0 : Fin 1) j) :=
  broadcastTo_1b_ab_apply v broadcasts_S1x256_S2000x256 r j

/-- The one element of a `[1, 1]` vector. -/
theorem extract_11 {α : Type} (v : S1x1.Idx → α) :
    extractAt ![0, 0] v inpos_S1x1_p0_0 = v (ix2 (0 : Fin 1) (0 : Fin 1)) := by
  unfold extractAt
  refine congrArg v (funext fun a => Fin.ext ?_)
  match a with
  | ⟨0, _⟩ => rfl
  | ⟨1, _⟩ => rfl

/-! ## The matrix product of the tile, read at `(r, j)` -/

theorem lhs_tile_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_tile_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_tile_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_tile_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The tile's matrix product into a zero accumulator: at `(r, j)` the sum over the 256 contracted
    coordinates of row `r` of the left operand times column `j` of the right. -/
theorem matmul_tile_apply {φ₁ φ₂ : FTy} (l : FVec Ideal S2000x256 φ₁) (w : FVec Ideal S256x256 φ₂) (r : Fin 2000) (j : Fin 256) :
    matmul dot_S2000x256_S256x256_S2000x256_1_0_0_1_n_n none l w (constant S2000x256 .f32 0x00000000#32) (ix2 r j)
      = ∑ k : Fin 256, l (ix2 r k) * w (ix2 k j) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 r j) ((contrEquiv1 dot_S2000x256_S256x256_S2000x256_1_0_0_1_n_n 256 rfl rfl).symm k) = ix2 r k := funext fun a => Fin.ext (by
    match a with
    | ⟨0, _⟩ => exact lhs_tile_0 _ _
    | ⟨1, _⟩ => exact (lhs_tile_1 _ _).trans hk)
  have er : dot_S2000x256_S256x256_S2000x256_1_0_0_1_n_n.rhsIdx (ix2 r j) ((contrEquiv1 dot_S2000x256_S256x256_S2000x256_1_0_0_1_n_n 256 rfl rfl).symm k) = ix2 k j := funext fun a => Fin.ext (by
    match a with
    | ⟨0, _⟩ => exact (rhs_tile_0 _ _).trans hk
    | ⟨1, _⟩ => exact rhs_tile_1 _ _)
  rw [el, er]

/-! ## The tile -/

/-- What element `(r, j)` of a tile's result is, as a function of the tile's operands: the rows `x1` of the
    aggregated messages, their in-degree factors `x2`, the weights `x4`, the bias row `x5` and the slope `x6`. -/
def tileAt (x1 : Vec Ideal S2000x256 .f32) (x2 : Vec Ideal S2000x1 .f32) (x4 : Vec Ideal S256x256 .f32)
    (x5 : Vec Ideal S1x256 .f32) (x6 : Vec Ideal S1x1 .f32) (r : Fin 2000) (j : Fin 256) : EReal :=
  act (x6 (ix2 (0 : Fin 1) (0 : Fin 1)))
    ((∑ k : Fin 256, (x1 (ix2 r k) * x2 (ix2 r (0 : Fin 1))) * x4 (ix2 k j)) + x5 (ix2 (0 : Fin 1) j))

/-- T1: the first kernel's tile payload at `(r, j)`. -/
theorem k0_pay3_apply (x1 : Vec Ideal S2000x256 .f32) (x2 : Vec Ideal S2000x1 .f32) (x4 : Vec Ideal S256x256 .f32)
    (x5 : Vec Ideal S1x256 .f32) (x6 : Vec Ideal S1x1 .f32) (r : Fin 2000) (j : Fin 256) :
    k0_pay3 (F := Ideal) x1 x2 x4 x5 x6 (ix2 r j) = tileAt x1 x2 x4 x5 x6 r j := by
  unfold k0_pay3 tileAt
  simp only [shapeCast_self]
  rw [select_apply, cmpf_apply, mulf_apply, addf_apply, broadcast_apply, broadcast_apply, extract_11,
    bcast_row_apply, matmul_tile_apply]
  refine (select_cmpf_oge_zero _ _).trans ?_
  refine congrArg (act _) (congrArg (· + _) (Finset.sum_congr rfl fun k _ => ?_))
  rw [truncf_apply, truncf_apply, mulf_apply, bcast_col_apply]

/-- T1': the second kernel's tile payload at `(r, j)`: the same function of its own operands. -/
theorem k1_pay2_apply (x1 : Vec Ideal S2000x256 .f32) (x2 : Vec Ideal S2000x1 .f32) (x4 : Vec Ideal S256x256 .f32)
    (x5 : Vec Ideal S1x256 .f32) (x6 : Vec Ideal S1x1 .f32) (r : Fin 2000) (j : Fin 256) :
    k1_pay2 (F := Ideal) x1 x2 x4 x5 x6 (ix2 r j) = tileAt x1 x2 x4 x5 x6 r j := by
  unfold k1_pay2 tileAt
  simp only [shapeCast_self]
  rw [select_apply, cmpf_apply, mulf_apply, addf_apply, broadcast_apply, broadcast_apply, extract_11,
    bcast_row_apply, matmul_tile_apply]
  refine (select_cmpf_oge_zero _ _).trans ?_
  refine congrArg (act _) (congrArg (· + _) (Finset.sum_congr rfl fun k _ => ?_))
  rw [truncf_apply, truncf_apply, mulf_apply, bcast_col_apply]

end Cert.Proof.Tile

end
-- ==== Proof.Val.Host.lean ====
/-
  The graph-convolution layer as the reference program spells it on whole arrays, element by element, at the
  ideal values.

  For the aggregated messages `agg` (50000 rows of 256), the rows' in-degree factors `nd`, the weights `W`,
  the bias `b` and the slope `a`, element `(R, j)` of the layer is
      act a ((∑ k, (agg R k * nd R) * W k j) + b j),
  the same function of row `R` that a tile of the kernel computes of its row `r`. The pooled statistics are
  the column sums of that array over all 50000 rows, laid out as one row of 256.
-/
import proofs.«115299_j66941360276307_2_alg».proof.ReferenceIdeal
import proofs.«115299_j66941360276307_2_alg».proof.Proof.Gen.ReferenceIdeal
import proofs.«115299_j66941360276307_2_alg».proof.Proof.Val.Act
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.Tile.Host

open Idealize.ShloMosaic Idealize.ShloMosaic.ValueIdx Cert.ReferenceIdeal Cert.ReferenceIdeal.Gen Cert.Proof.Tile

/-! ## The broadcasts of the layer, read at an index -/

/-- A scalar broadcast over the whole array reads the scalar everywhere. -/
theorem bcast_scalar_apply {α : Type} (x : S_.Idx → α) (i : S50000x256.Idx) :
    broadcastInDim S50000x256 ![] bcast_S_S50000x256 x i = x ix0 :=
  broadcastInDim_apply _ bcast_S_S50000x256 x i ix0 (fun a => a.elim0)

/-- The column of per-row factors broadcast over 256 lanes reads, at `(R, j)`, the factor of row `R`. -/
theorem bcast_col_apply {α : Type} (x : S50000x1.Idx → α) (R : Fin 50000) (j : Fin 256) :
    broadcastInDim S50000x256 ![0, 1] bcast_S50000x1_S50000x256_0_1 x (ix2 R j) = x (ix2 R (0 : Fin 1)) :=
  broadcastInDim_apply _ bcast_S50000x1_S50000x256_0_1 x (ix2 R j) (ix2 R (0 : Fin 1)) (fun a => match a with
    | ⟨0, _⟩ => by show R.val = if (50000 : Nat) = 1 then 0 else R.val; rw [if_neg (by decide)]
    | ⟨1, _⟩ => by show 0 = if (1 : Nat) = 1 then 0 else j.val; rw [if_pos rfl])

/-- One row broadcast over the 50000 rows reads, at `(R, j)`, the row at lane `j`. -/
theorem bcast_row_apply {α : Type} (x : S1x256.Idx → α) (R : Fin 50000) (j : Fin 256) :
    broadcastInDim S50000x256 ![0, 1] bcast_S1x256_S50000x256_0_1 x (ix2 R j) = x (ix2 (0 : Fin 1) j) :=
  broadcastInDim_apply _ bcast_S1x256_S50000x256_0_1 x (ix2 R j) (ix2 (0 : Fin 1) j) (fun a => match a with
    | ⟨0, _⟩ => by show 0 = if (1 : Nat) = 1 then 0 else R.val; rw [if_pos rfl]
    | ⟨1, _⟩ => by show j.val = if (256 : Nat) = 1 then 0 else j.val; rw [if_neg (by decide)])

/-- A vector of 256 laid out as one row reads, at `(0, j)`, the vector at `j`. -/
theorem bcast_vec_row_apply {α : Type} (x : S256.Idx → α) (u : Fin 1) (j : Fin 256) :
    broadcastInDim S1x256 ![1] bcast_S256_S1x256_1 x (ix2 u j) = x (ix1 j) :=
  broadcastInDim_apply _ bcast_S256_S1x256_1 x (ix2 u j) (ix1 j) (fun a => match a with
    | ⟨0, _⟩ => by show j.val = if (256 : Nat) = 1 then 0 else j.val; rw [if_neg (by decide)])

/-! ## The layer's matrix product, read at `(R, j)` -/

theorem lhs_layer_0 (i : S50000x256.Idx) (q : dot_S50000x256_S256x256_S50000x256_1_0_0_1_n_n.contr.Idx) :
    (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
theorem lhs_layer_1 (i : S50000x256.Idx) (q : dot_S50000x256_S256x256_S50000x256_1_0_0_1_n_n.contr.Idx) :
    (dot_S50000x256_S256x256_S50000x256_1_0_0_1_n_n.lhsIdx i q 1).val = (q ⟨0, by decide⟩).val :=
  dot_S50000x256_S256x256_S50000x256_1_0_0_1_n_n.lhsIdx_val_of_single rfl i q
theorem rhs_layer_0 (i : S50000x256.Idx) (q : dot_S50000x256_S256x256_S50000x256_1_0_0_1_n_n.contr.Idx) :
    (dot_S50000x256_S256x256_S50000x256_1_0_0_1_n_n.rhsIdx i q 0).val = (q ⟨0, by decide⟩).val :=
  dot_S50000x256_S256x256_S50000x256_1_0_0_1_n_n.rhsIdx_val_of_single rfl i q
theorem rhs_layer_1 (i : S50000x256.Idx) (q : dot_S50000x256_S256x256_S50000x256_1_0_0_1_n_n.contr.Idx) :
    (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl

/-- The layer's matrix product: at `(R, j)` the sum over the 256 contracted coordinates of row `R` of the
    left operand times column `j` of the right. -/
theorem dot_layer_apply (l : FVec Ideal S50000x256 .f32) (w : FVec Ideal S256x256 .f32) (R : Fin 50000) (j : Fin 256) :
    Host.dotGeneral dot_S50000x256_S256x256_S50000x256_1_0_0_1_n_n none l w (ix2 R j)
      = ∑ k : Fin 256, l (ix2 R k) * w (ix2 k j) := by
  simp only [Host.dotGeneral]
  rw [Ideal.dotGeneral_apply, ← Equiv.sum_comp (contrEquiv1 dot_S50000x256_S256x256_S50000x256_1_0_0_1_n_n 256 rfl rfl).symm]
  refine Finset.sum_congr rfl fun k _ => ?_
  have hk := contrEquiv1_symm_val dot_S50000x256_S256x256_S50000x256_1_0_0_1_n_n 256 rfl rfl k
  have el : dot_S50000x256_S256x256_S50000x256_1_0_0_1_n_n.lhsIdx (ix2 R j) ((contrEquiv1 dot_S50000x256_S256x256_S50000x256_1_0_0_1_n_n 256 rfl rfl).symm k) = ix2 R k := funext fun a => Fin.ext (by
    match a with
    | ⟨0, _⟩ => exact lhs_layer_0 _ _
    | ⟨1, _⟩ => exact (lhs_layer_1 _ _).trans hk)
  have er : dot_S50000x256_S256x256_S50000x256_1_0_0_1_n_n.rhsIdx (ix2 R j) ((contrEquiv1 dot_S50000x256_S256x256_S50000x256_1_0_0_1_n_n 256 rfl rfl).symm k) = ix2 k j := funext fun a => Fin.ext (by
    match a with
    | ⟨0, _⟩ => exact (rhs_layer_0 _ _).trans hk
    | ⟨1, _⟩ => exact rhs_layer_1 _ _)
  rw [el, er]

/-! ## The layer -/

/-- The layer before its activation: the scaled messages times the weights, plus the bias on every row. -/
def preH (agg : FVec Ideal S50000x256 .f32) (nd : FVec Ideal S50000x1 .f32) (W : FVec Ideal S256x256 .f32)
    (b : FVec Ideal S256 .f32) : FVec Ideal S50000x256 .f32 :=
  addf (Host.dotGeneral dot_S50000x256_S256x256_S50000x256_1_0_0_1_n_n none
      (mulf agg (broadcastInDim S50000x256 ![0, 1] bcast_S50000x1_S50000x256_0_1 nd)) W)
    (broadcastInDim S50000x256 ![0, 1] bcast_S1x256_S50000x256_0_1 (broadcastInDim S1x256 ![1] bcast_S256_S1x256_1 b))

/-- The layer on whole arrays, in the reference program's own operations. -/
def layerH (agg : FVec Ideal S50000x256 .f32) (nd : FVec Ideal S50000x1 .f32) (W : FVec Ideal S256x256 .f32)
    (b : FVec Ideal S256 .f32) (a : FVec Ideal S_ .f32) : FVec Ideal S50000x256 .f32 :=
  select (cmpf .oge (preH agg nd W b) (broadcastInDim S50000x256 ![] bcast_S_S50000x256 (constant (F := Ideal) S_ .f32 0x00000000#32)))
    (preH agg nd W b) (mulf (broadcastInDim S50000x256 ![] bcast_S_S50000x256 a) (preH agg nd W b))

/-- Element `(R, j)` of the layer before its activation. -/
theorem preH_apply (agg : FVec Ideal S50000x256 .f32) (nd : FVec Ideal S50000x1 .f32) (W : FVec Ideal S256x256 .f32)
    (b : FVec Ideal S256 .f32) (R : Fin 50000) (j : Fin 256) :
    preH agg nd W b (ix2 R j) = (∑ k : Fin 256, (agg (ix2 R k) * nd (ix2 R (0 : Fin 1))) * W (ix2 k j)) + b (ix1 j) := by
  unfold preH
  rw [addf_apply, dot_layer_apply, bcast_row_apply, bcast_vec_row_apply]
  refine congrArg (· + _) (Finset.sum_congr rfl fun k _ => ?_)
  rw [mulf_apply, bcast_col_apply]

/-- T4: element `(R, j)` of the layer. -/
theorem layerH_apply (agg : FVec Ideal S50000x256 .f32) (nd : FVec Ideal S50000x1 .f32) (W : FVec Ideal S256x256 .f32)
    (b : FVec Ideal S256 .f32) (a : FVec Ideal S_ .f32) (R : Fin 50000) (j : Fin 256) :
    layerH agg nd W b a (ix2 R j)
      = act (a ix0) ((∑ k : Fin 256, (agg (ix2 R k) * nd (ix2 R (0 : Fin 1))) * W (ix2 k j)) + b (ix1 j)) := by
  unfold layerH
  rw [select_apply, cmpf_apply, mulf_apply, bcast_scalar_apply, bcast_scalar_apply, preH_apply]
  exact select_cmpf_oge_zero' _ _

/-! ## The kernel's bias row and slope are reshapes of the reference's -/

/-- The bias vector reshaped to one row reads, at `(0, j)`, the vector at `j`. -/
theorem shapeCast_bias_apply {α : Type} (b : S256.Idx → α) (h : S256.ShapeCasts S1x256) (u : Fin 1) (j : Fin 256) :
    shapeCast S1x256 b h (ix2 u j) = b (ix1 j) :=
  shapeCast_a_1a_apply b h u j

/-! ## The pooled column sums -/

/-- The host's sum over the rows from a zero initial value: at `j` the sum over all 50000 rows of column `j`. -/
theorem reduce_rows_apply (h : FVec Ideal S50000x256 .f32) (j : Fin 256) :
    Host.reduceAdd h (constant (F := Ideal) S_ .f32 0x00000000#32) reducesTo_S50000x256_S256_d0 h_S_ (ix1 j)
      = ∑ R : Fin 50000, h (ix2 R j) := by
  simp only [Host.reduceAdd, Ideal.hostReduceAdd_def]
  rw [Ideal.hostReduceAdd_single reducesTo_S50000x256_S256_d0 (by decide)]
  show Ideal.ofBits .f32 0x00000000#32 + _ = _
  rw [Ideal.ofBits_zero_f32, zero_add]
  refine Finset.sum_congr rfl fun k _ => ?_
  exact congrArg h (funext fun a => Fin.ext (by match a with | ⟨0, _⟩ => rfl | ⟨1, _⟩ => rfl))

end Cert.Proof.Tile.Host

end
-- ==== Proof.Val.Stats.lean ====
/-
  The column statistics of a tile, element by element, at the ideal values.

  Besides its 2000 × 256 result a tile produces (first kernel only) the result scaled row by row with the rows'
  out-degree factors, and the column sums of the result over the tile's 2000 rows, which are added into a
  running row of 256 sums that starts at zero.
-/
import proofs.«115299_j66941360276307_2_alg».proof.Proof.Gen.KernelIdeal.Skeleton
import proofs.«115299_j66941360276307_2_alg».proof.Proof.Val.Tile
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.Tile

open Idealize.ShloMosaic Idealize.ShloMosaic.ValueIdx Cert.KernelIdeal Cert.KernelIdeal.Gen

/-- The sum of a tile over its rows (a reduction along axis 0 from the zero word): at lane `j` the sum over
    the 2000 rows of column `j`. -/
theorem colsum_apply (src : FVec Ideal S2000x256 .f32) (j : Fin 256) :
    multiReduction .add [0] S256 src 0x00000000#32 reduces_S2000x256_S256 (.inl rfl) rfl (ix1 j)
      = ∑ r : Fin 2000, src (ix2 r j) := by
  refine (Ideal.multiReduction_add_single src 0x00000000#32 reduces_S2000x256_S256 (.inl rfl) rfl (ix1 j)).trans ?_
  show ∑ k : Fin 2000, src (reduces_S2000x256_S256.lift (ix1 j) k) = ∑ r : Fin 2000, src (ix2 r j)
  refine Finset.sum_congr rfl fun k _ => ?_
  exact congrArg src (funext fun a => Fin.ext (by match a with | ⟨0, _⟩ => rfl | ⟨1, _⟩ => rfl))

/-- T2: the scaled copy of the tile: element `(r, j)` of the result times the out-degree factor of row `r`. -/
theorem k0_pay4_apply (x1 : Vec Ideal S2000x256 .f32) (x2 : Vec Ideal S2000x1 .f32) (x4 : Vec Ideal S256x256 .f32)
    (x5 : Vec Ideal S1x256 .f32) (x6 : Vec Ideal S1x1 .f32) (x3 : Vec Ideal S2000x1 .f32) (r : Fin 2000) (j : Fin 256) :
    k0_pay4 (F := Ideal) x1 x2 x4 x5 x6 x3 (ix2 r j)
      = k0_pay3 (F := Ideal) x1 x2 x4 x5 x6 (ix2 r j) * x3 (ix2 r (0 : Fin 1)) := by
  unfold k0_pay4
  generalize k0_pay3 (F := Ideal) x1 x2 x4 x5 x6 = y
  simp only [shapeCast_self]
  rw [truncf_apply, mulf_apply, bcast_col_apply]

/-- T3: the tile's column sums. -/
theorem k0_pay5_apply (x1 : Vec Ideal S2000x256 .f32) (x2 : Vec Ideal S2000x1 .f32) (x4 : Vec Ideal S256x256 .f32)
    (x5 : Vec Ideal S1x256 .f32) (x6 : Vec Ideal S1x1 .f32) (j : Fin 256) :
    k0_pay5 (F := Ideal) x1 x2 x4 x5 x6 (ix1 j) = ∑ r : Fin 2000, k0_pay3 (F := Ideal) x1 x2 x4 x5 x6 (ix2 r j) := by
  unfold k0_pay5
  generalize k0_pay3 (F := Ideal) x1 x2 x4 x5 x6 = y
  exact colsum_apply y j

/-- The running row of sums after a tile: what it held plus the tile's column sums. -/
theorem k0_pay1_apply (v : Vec Ideal S1x256 .f32) (s : FVec Ideal S256 .f32) (u : Fin 1) (j : Fin 256) :
    k0_pay1 (F := Ideal) v s (ix2 u j) = v (ix2 u j) + s (ix1 j) := by
  unfold k0_pay1
  simp only [shapeCast_self]
  rw [addf_apply, shapeCast_a_1a_apply]

/-- The running row of sums starts at zero. -/
theorem k0_pay2_apply (u : Fin 1) (j : Fin 256) : k0_pay2 (F := Ideal) (ix2 u j) = 0 := by
  unfold k0_pay2
  simp only [shapeCast_self]
  rw [broadcast_apply]
  exact Ideal.ofBits_zero_f32

/-- The second kernel's running row of sums starts at zero. -/
theorem k1_pay1_apply (u : Fin 1) (j : Fin 256) : k1_pay1 (F := Ideal) (ix2 u j) = 0 := by
  unfold k1_pay1
  simp only [shapeCast_self]
  rw [broadcast_apply]
  exact Ideal.ofBits_zero_f32

/-- The second kernel's running row of sums after a tile: what it held plus the tile's column sums. -/
theorem k1_pay3_apply (x1 : Vec Ideal S2000x256 .f32) (x2 : Vec Ideal S2000x1 .f32) (x4 : Vec Ideal S256x256 .f32)
    (x5 : Vec Ideal S1x256 .f32) (x6 : Vec Ideal S1x1 .f32) (v : Vec Ideal S1x256 .f32) (u : Fin 1) (j : Fin 256) :
    k1_pay3 (F := Ideal) x1 x2 x4 x5 x6 v (ix2 u j)
      = v (ix2 u j) + ∑ r : Fin 2000, k1_pay2 (F := Ideal) x1 x2 x4 x5 x6 (ix2 r j) := by
  unfold k1_pay3
  generalize k1_pay2 (F := Ideal) x1 x2 x4 x5 x6 = y
  simp only [shapeCast_self]
  rw [addf_apply, shapeCast_a_1a_apply, colsum_apply]

end Cert.Proof.Tile

end
-- ==== Proof.Val.Reshape.lean ====
/-
  Reshapes that move no data: a scalar viewed as a `[1, 1]` array, and a vector of `n` viewed as one row
  `[1, n]`. The kernel receives the layer's slope and bias in these forms; at every index the reshaped array
  reads the one element (the element of the same lane) of the original.
-/
import Idealize.ShloMosaic.Lib.ValueIdx
import Idealize.ShloMosaic.Lib.ValueLayout
import Idealize.ShloMosaic.Lib.Pipeline.Value

noncomputable section

namespace Cert.Proof.Tile

open Idealize.ShloMosaic Idealize.ShloMosaic.ValueIdx

/-- A scalar reshaped to any shape reads the scalar at every index (the scalar shape has one index). -/
theorem shapeCast_scalar_apply {α : Type} {t : Shape} (x : (⟨0, ![]⟩ : Shape).Idx → α)
    (h : (⟨0, ![]⟩ : Shape).ShapeCasts t) (j : t.Idx) : shapeCast t x h j = x ix0 := by
  unfold shapeCast
  exact congrArg x (funext fun a => a.elim0)

/-- A scalar reshaped to `[1, 1]`, at its one index. -/
theorem shapeCast_scalar_11_apply {α : Type} (x : (⟨0, ![]⟩ : Shape).Idx → α)
    (h : (⟨0, ![]⟩ : Shape).ShapeCasts ⟨2, ![1, 1]⟩) (u v : Fin 1) :
    shapeCast ⟨2, ![1, 1]⟩ x h (ix2 u v) = x ix0 :=
  shapeCast_scalar_apply x h (ix2 u v)

/-- A vector of `n` reshaped to one row `[1, n]` reads, at `(u, j)`, the vector at `j`. -/
theorem shapeCast_vec_row_apply {α : Type} {n : ℕ} (x : (⟨1, ![n]⟩ : Shape).Idx → α)
    (h : (⟨1, ![n]⟩ : Shape).ShapeCasts ⟨2, ![1, n]⟩) (u : Fin 1) (j : Fin n) :
    shapeCast ⟨2, ![1, n]⟩ x h (ix2 u j) = x (ix1 j) :=
  shapeCast_a_1a_apply x h u j

/-- A column of 50000 per-row factors spread over 256 lanes reads, at `(R, j)`, the factor of row `R`
    (whatever proof of the shape fact the program carries). -/
theorem spread_col_apply {α : Type}
    (hb : (⟨2, ![50000, 1]⟩ : Shape).BroadcastsInDim ⟨2, ![50000, 256]⟩ (![0, 1] : Fin 2 → Fin 2))
    (x : (⟨2, ![50000, 1]⟩ : Shape).Idx → α) (R : Fin 50000) (j : Fin 256) :
    broadcastInDim ⟨2, ![50000, 256]⟩ ![0, 1] hb x (ix2 R j) = x (ix2 R (0 : Fin 1)) :=
  broadcastInDim_apply _ hb x (ix2 R j) (ix2 R (0 : Fin 1)) (fun a => match a with
    | ⟨0, _⟩ => by show R.val = if (50000 : Nat) = 1 then 0 else R.val; rw [if_neg (by decide)]
    | ⟨1, _⟩ => by show 0 = if (1 : Nat) = 1 then 0 else j.val; rw [if_pos rfl])

/-- An array scaled row by row with a column of factors: element `(R, j)` times the factor of row `R`. -/
theorem mulf_spread_col_apply {φ : FTy}
    (hb : (⟨2, ![50000, 1]⟩ : Shape).BroadcastsInDim ⟨2, ![50000, 256]⟩ (![0, 1] : Fin 2 → Fin 2))
    (h : FVec Ideal ⟨2, ![50000, 256]⟩ φ) (ns : FVec Ideal ⟨2, ![50000, 1]⟩ φ) (R : Fin 50000) (j : Fin 256) :
    mulf h (broadcastInDim ⟨2, ![50000, 256]⟩ ![0, 1] hb ns) (ix2 R j) = h (ix2 R j) * ns (ix2 R (0 : Fin 1)) := by
  rw [mulf_apply, spread_col_apply]

end Cert.Proof.Tile

end
-- ==== Proof.Val.Format.lean ====
/-
  A change of float format does nothing at the ideal values: an array of one format IS the array of the other
  format, the same function from indices to extended reals. So an array narrowed to sixteen bits, gathered row by
  row and widened again is the gather of the original array, and a product against a column of per-row factors
  reads, at an element, the element times its row's factor.
-/
import Idealize.ShloMosaic.PureOps.Ideal
import Idealize.ShloMosaic.Lib.ValueIdx
import Idealize.ShloMosaic.Lib.Pipeline.Value

noncomputable section

namespace Cert.Proof.Tile

open Idealize.ShloMosaic Idealize.ShloMosaic.ValueIdx

/-- At the ideal values an array of any float format is a function into the extended reals; this is the
    array `v` read as one of format `ψ`. (The identity; it only changes the format in the type.) -/
abbrev recast {s : Shape} {φ : FTy} (ψ : FTy) (v : FVec Ideal s φ) : FVec Ideal s ψ := v

/-- Widening an array's format is the identity on its values. -/
theorem extf_eq {s : Shape} {φ : FTy} (ψ : FTy) (v : FVec Ideal s φ) (h : φ.bits < ψ.bits) :
    extf ψ v h = recast ψ v := rfl

/-- Narrowing an array's format is the identity on its values. -/
theorem truncf_eq {s : Shape} {φ : FTy} (ψ : FTy) (v : FVec Ideal s φ) (h : ψ.bits < φ.bits) :
    truncf ψ v h = recast ψ v := rfl

/-- A gather commutes with the change of format: the widened gather of an array is the gather of the array
    read at the wider format. -/
theorem extf_gather {s si t : Shape} {w : ℕ} {φ : FTy} (ψ : FTy) (g : GatherDims s si t) (x : FVec Ideal s φ)
    (i : IVec si w) (h : φ.bits < ψ.bits) :
    extf ψ (Host.gather g x i) h = Host.gather g (recast ψ x) i := rfl

/-- The narrowed-then-gathered-then-widened array is the gather of the original array. -/
theorem extf_gather_truncf {s si t : Shape} {w : ℕ} {φ ψ : FTy} (g : GatherDims s si t) (y : FVec Ideal s φ)
    (i : IVec si w) (h₁ : ψ.bits < φ.bits) (h₂ : ψ.bits < φ.bits) :
    extf φ (Host.gather g (truncf ψ y h₁) i) h₂ = Host.gather g y i := rfl

end Cert.Proof.Tile

end
-- ==== Proof.Val.Chain.lean ====
/-
  The host-side pieces both programs share, as functions of the argument arrays.

  An edge list (src, dst) over 50000 nodes gives each node an out-degree and an in-degree; a layer scales node
  features by the out-degree factor, sends them along the edges (a gather by source, a sum by destination) and scales
  the sums by the in-degree factor. Negative node ids are read as counted from the end, as array indexing does. None of
  these pieces is ever opened: both programs apply the same ones, and the certificate only needs that equal inputs
  give equal outputs.
-/
import proofs.«115299_j66941360276307_2_alg».proof.Proof.Gen.ReferenceIdeal

noncomputable section

namespace Cert.Proof.Chain

open Cert.ReferenceIdeal Cert.ReferenceIdeal.Gen Idealize.ShloMosaic Idealize.ShloMosaic.TcCoe

variable {F : FTy → Type} [FloatOps F]

/-- A node id, with a negative one read as counted from the end. -/
def normIdx (s : (⟨S800000, .i32⟩ : BufTy).Contents (Elt F)) : (⟨S800000, .i32⟩ : BufTy).Contents (Elt F) :=
  select (cmpi .slt s (broadcastInDim S800000 ![] bcast_S_S800000 (constantI S_ 32 0#32))) (addi s (broadcastInDim S800000 ![] bcast_S_S800000 (constantI S_ 32 50000#32))) s

/-- The degree factor of every node, as a column: one over the square root of the number of edge ends at the node,
    the count taken as at least one. -/
def degNorm (s : (⟨S800000, .i32⟩ : BufTy).Contents (Elt F)) : (⟨S50000x1, .f32⟩ : BufTy).Contents (Elt F) :=
  broadcastInDim S50000x1 ![0] bcast_S50000_S50000x1_0 (Host.rsqrt (maximumf (Host.scatterAdd scatter_S50000_S800000x1_S800000_n_0_0_1 (broadcastInDim S50000 ![] bcast_S_S50000 (constant S_ .f32 0x00000000#32)) (broadcastInDim S800000x1 ![0] bcast_S800000_S800000x1_0 (normIdx s)) (broadcastInDim S800000 ![] bcast_S_S800000 (constant S_ .f32 0x3F800000#32))) (broadcastInDim S50000 ![] bcast_S_S50000 (constant S_ .f32 0x3F800000#32))))

/-- A column spread over the 256 feature columns. -/
def spread (v : (⟨S50000x1, .f32⟩ : BufTy).Contents (Elt F)) : (⟨S50000x256, .f32⟩ : BufTy).Contents (Elt F) :=
  broadcastInDim S50000x256 ![0, 1] bcast_S50000x1_S50000x256_0_1 v

/-- Node rows sent along the edges: each edge takes its source's row, each node sums the rows of the edges ending at it. -/
def aggOf (x : (⟨S50000x256, .f32⟩ : BufTy).Contents (Elt F)) (src dst : (⟨S800000, .i32⟩ : BufTy).Contents (Elt F)) :
    (⟨S50000x256, .f32⟩ : BufTy).Contents (Elt F) :=
  Host.scatterAdd scatter_S50000x256_S800000x1_S800000x256_1_0_0_1 (broadcastInDim S50000x256 ![] bcast_S_S50000x256 (constant S_ .f32 0x00000000#32)) (broadcastInDim S800000x1 ![0] bcast_S800000_S800000x1_0 dst) (Host.gather gather_S50000x256_S800000x1_S800000x256_1_0_n_n_0_1_1256 x (broadcastInDim S800000x1 ![0] bcast_S800000_S800000x1_0 (normIdx src)))

/-- The column sums of an activation, as a 1 × 256 row. -/
def poolOf (h : (⟨S50000x256, .f32⟩ : BufTy).Contents (Elt F)) : (⟨S1x256, .f32⟩ : BufTy).Contents (Elt F) :=
  broadcastInDim S1x256 ![1] bcast_S256_S1x256_1 (Host.reduceAdd h (constant S_ .f32 0x00000000#32) reducesTo_S50000x256_S256_d0 h_S_)

end Cert.Proof.Chain

end
-- ==== Proof.KV.Layer.lean ====
/-
  A region's tiled output array IS the host layer of the arrays the region reads.

  Element (R, j) of the array was written by tile R / 2000 at its row R % 2000; that tile read rows of the aggregated
  messages and of the in-degree factors which are the array's rows R…, the whole weights, the bias row and the slope;
  the tile's arithmetic at (R % 2000, j) and the host layer's at (R, j) are the same expression of those numbers.
-/
import proofs.«115299_j66941360276307_2_alg».proof.Proof.KI.Blocks
import proofs.«115299_j66941360276307_2_alg».proof.Proof.Val.Tile
import proofs.«115299_j66941360276307_2_alg».proof.Proof.Val.Host
import proofs.«115299_j66941360276307_2_alg».proof.Proof.Val.Stats
import proofs.«115299_j66941360276307_2_alg».proof.Proof.Val.Reshape
import proofs.«115299_j66941360276307_2_alg».proof.Proof.Val.Format
import proofs.«115299_j66941360276307_2_alg».proof.Proof.Val.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Proof.Tile
open scoped BigOperators

variable (V : (c : Dev nD) → (b : Ref sig .tc) → Buf (Elt Ideal) ((c : Thread nD τ).loc b))

/-- The position of row R inside its tile. -/
abbrev rIn (R : Fin 50000) : Fin 2000 := ⟨R.val % 2000, Nat.mod_lt _ (by norm_num)⟩

theorem row0_rIn (R : Fin 50000) (j : Fin 256) : row0 (tile0 (ix2 R j)) (rIn R) = R :=
  (row0_tile (ix2 R j)).trans (Fin.ext rfl)
theorem row1_rIn (R : Fin 50000) (j : Fin 256) : row1 (tile1 (ix2 R j)) (rIn R) = R :=
  (row1_tile (ix2 R j)).trans (Fin.ext rfl)

/-- Element (R, j) of region 0's first output array, from the arrays the region reads. -/
theorem arrH0_apply (c : Dev nD) (agg : FVec Ideal S50000x256 .f32) (nd : FVec Ideal S50000x1 .f32) (W : FVec Ideal S256x256 .f32)
    (brow : FVec Ideal S1x256 .f32) (a11 : FVec Ideal S1x1 .f32)
    (hagg : V c main_v36 = agg) (hnd : V c main_v24 = nd) (hW : V c main_arg3 = W) (hb : V c main_v37 = brow) (ha : V c main_v38 = a11)
    (R : Fin 50000) (j : Fin 256) :
    arrH0 V c (ix2 R j) = act (a11 (ix2 (0 : Fin 1) (0 : Fin 1)))
      ((∑ k : Fin 256, (agg (ix2 R k) * nd (ix2 R (0 : Fin 1))) * W (ix2 k j)) + brow (ix2 (0 : Fin 1) j)) := by
  subst hagg hnd hW hb ha
  show blkH0 V c (tile0 (ix2 R j)) (ix2 (rIn R) j) = _
  unfold blkH0
  rw [k0_pay3_apply]
  unfold tileAt
  rw [iblk0_3_eq, iblk0_4_eq, iblk0_5_eq]
  simp only [iblk0_0_apply, iblk0_1_apply, row0_rIn]

/-- Element (R, j) of region 0's second output array: the first one's, times the out-degree factor of row R. -/
theorem arrS0_apply (c : Dev nD) (ns : FVec Ideal S50000x1 .f32) (hns : V c main_v20 = ns) (R : Fin 50000) (j : Fin 256) :
    (arrS0 V c (ix2 R j) : EReal) = (arrH0 V c (ix2 R j) : EReal) * ns (ix2 R (0 : Fin 1)) := by
  subst hns
  show blkS0 V c (tile0 (ix2 R j)) (ix2 (rIn R) j) = blkH0 V c (tile0 (ix2 R j)) (ix2 (rIn R) j) * _
  unfold blkS0 blkH0
  rw [k0_pay4_apply, iblk0_2_apply, row0_rIn]

/-- Element (R, j) of region 1's output array. -/
theorem arrH1_apply (c : Dev nD) (agg : FVec Ideal S50000x256 .f32) (nd : FVec Ideal S50000x1 .f32) (W : FVec Ideal S256x256 .f32)
    (brow : FVec Ideal S1x256 .f32) (a11 : FVec Ideal S1x1 .f32)
    (hagg : V c main_v50 = agg) (hnd : V c main_v24 = nd) (hW : V c main_arg5 = W) (hb : V c main_v51 = brow) (ha : V c main_v52 = a11)
    (R : Fin 50000) (j : Fin 256) :
    arrH1 V c (ix2 R j) = act (a11 (ix2 (0 : Fin 1) (0 : Fin 1)))
      ((∑ k : Fin 256, (agg (ix2 R k) * nd (ix2 R (0 : Fin 1))) * W (ix2 k j)) + brow (ix2 (0 : Fin 1) j)) := by
  subst hagg hnd hW hb ha
  show blkH1 V c (tile1 (ix2 R j)) (ix2 (rIn R) j) = _
  unfold blkH1
  rw [k1_pay2_apply]
  unfold tileAt
  rw [iblk1_2_eq, iblk1_3_eq, iblk1_4_eq]
  simp only [iblk1_0_apply, iblk1_1_apply, row1_rIn]

/-- REGION 0's first output array is the host layer of what the region reads. -/
theorem arrH0_eq_layer (c : Dev nD) (agg : FVec Ideal S50000x256 .f32) (nd : FVec Ideal S50000x1 .f32) (W : FVec Ideal S256x256 .f32)
    (b : FVec Ideal S256 .f32) (a : FVec Ideal S_ .f32)
    (hagg : V c main_v36 = agg) (hnd : V c main_v24 = nd) (hW : V c main_arg3 = W)
    (hb : V c main_v37 = shapeCast S1x256 b shapeCasts_S256_S1x256) (ha : V c main_v38 = shapeCast S1x1 a shapeCasts_S_S1x1) :
    arrH0 V c = Host.layerH agg nd W b a := by
  funext i
  obtain ⟨R, j, rfl⟩ : ∃ (R : Fin 50000) (j : Fin 256), i = ix2 R j := ⟨i 0, i 1, eq_ix2 i⟩
  rw [arrH0_apply V c agg nd W _ _ hagg hnd hW hb ha R j, Host.layerH_apply, shapeCast_vec_row_apply, shapeCast_scalar_11_apply]

/-- REGION 1's output array is the host layer of what the region reads. -/
theorem arrH1_eq_layer (c : Dev nD) (agg : FVec Ideal S50000x256 .f32) (nd : FVec Ideal S50000x1 .f32) (W : FVec Ideal S256x256 .f32)
    (b : FVec Ideal S256 .f32) (a : FVec Ideal S_ .f32)
    (hagg : V c main_v50 = agg) (hnd : V c main_v24 = nd) (hW : V c main_arg5 = W)
    (hb : V c main_v51 = shapeCast S1x256 b shapeCasts_S256_S1x256) (ha : V c main_v52 = shapeCast S1x1 a shapeCasts_S_S1x1) :
    arrH1 V c = Host.layerH agg nd W b a := by
  funext i
  obtain ⟨R, j, rfl⟩ : ∃ (R : Fin 50000) (j : Fin 256), i = ix2 R j := ⟨i 0, i 1, eq_ix2 i⟩
  rw [arrH1_apply V c agg nd W _ _ hagg hnd hW hb ha R j, Host.layerH_apply, shapeCast_vec_row_apply, shapeCast_scalar_11_apply]

/-- REGION 0's second output array is the first scaled row by row by the out-degree factors (read in the narrower
    float format, which changes no value). -/
theorem arrS0_eq_scaled (c : Dev nD) (ns : FVec Ideal S50000x1 .f32) (hns : V c main_v20 = ns) :
    arrS0 V c = recast (φ := .f32) .bf16 (mulf (φ := .f32) (arrH0 V c) (Cert.Proof.Chain.spread (F := Ideal) ns)) := by
  funext i
  obtain ⟨R, j, rfl⟩ : ∃ (R : Fin 50000) (j : Fin 256), i = ix2 R j := ⟨i 0, i 1, eq_ix2 i⟩
  refine (arrS0_apply V c ns hns R j).trans ?_
  unfold Cert.Proof.Chain.spread
  exact (mulf_spread_col_apply _ _ ns R j).symm

end Cert.KernelIdeal.Hand

end
-- ==== Proof.Val.Sums.lean ====
/-
  Two facts about finite sums in a commutative additive monoid (the extended reals are one; neither fact needs
  any element to be finite).

  * A sum over the 50000 rows of the layer's output is the sum, over the 25 tiles, of each tile's sum over its
    2000 rows: row `R` is row `r` of tile `t` with `R = 2000 * t + r`.
  * An accumulator that starts at `0 + s 0` and adds `s (n + 1)` at step `n + 1` holds, after the last of its
    steps, the sum of all the `s t`.
-/
import Mathlib.Algebra.BigOperators.Fin
import Mathlib.Logic.Equiv.Fin.Basic
import Mathlib.Algebra.BigOperators.Group.Finset.Basic

open scoped BigOperators

namespace Cert.Proof.Tile

/-- Row `r` of tile `t`, as a row of the whole array. -/
def rowOf (t : Fin 25) (r : Fin 2000) : Fin 50000 :=
  ⟨2000 * t.val + r.val, by have := t.isLt; have := r.isLt; omega⟩

@[simp] theorem rowOf_val (t : Fin 25) (r : Fin 2000) : (rowOf t r).val = 2000 * t.val + r.val := rfl

/-- T5: a sum over all 50000 rows, regrouped tile by tile. -/
theorem sum_rows_eq_sum_tiles {M : Type*} [AddCommMonoid M] (f : Fin 50000 → M) :
    ∑ R : Fin 50000, f R = ∑ t : Fin 25, ∑ r : Fin 2000, f (rowOf t r) := by
  rw [← Equiv.sum_comp (finProdFinEquiv : Fin 25 × Fin 2000 ≃ Fin 50000) f, Fintype.sum_prod_type]
  refine Finset.sum_congr rfl fun t _ => Finset.sum_congr rfl fun r _ => congrArg f (Fin.ext ?_)
  show r.val + 2000 * t.val = 2000 * t.val + r.val
  omega

/-- The accumulator recursion over the natural numbers: `a 0 = 0 + s 0`, `a (n + 1) = a n + s (n + 1)` for the
    steps below `N`; then `a n` is the sum of `s 0 … s n`. -/
theorem acc_eq_sum_range {M : Type*} [AddCommMonoid M] (N : ℕ) (s a : ℕ → M) (h0 : a 0 = 0 + s 0)
    (hs : ∀ n, n + 1 < N → a (n + 1) = a n + s (n + 1)) (n : ℕ) (hn : n < N) :
    a n = ∑ t ∈ Finset.range (n + 1), s t := by
  induction n with
  | zero => rw [h0, zero_add, Finset.sum_range_one]
  | succ n ih => rw [hs n hn, ih (by omega), Finset.sum_range_succ _ (n + 1)]

/-- T5, the recursion over the 25 tiles: after the last tile the accumulator is the sum over the tiles. -/
theorem acc25_eq_sum {M : Type*} [AddCommMonoid M] (s a : Fin 25 → M) (h0 : a 0 = 0 + s 0)
    (hs : ∀ (n : ℕ) (h : n + 1 < 25), a ⟨n + 1, h⟩ = a ⟨n, by omega⟩ + s ⟨n + 1, h⟩) :
    a 24 = ∑ t : Fin 25, s t := by
  have key := acc_eq_sum_range 25 (fun n => if h : n < 25 then s ⟨n, h⟩ else 0)
    (fun n => if h : n < 25 then a ⟨n, h⟩ else 0)
    (by
      simp only [dif_pos (show (0 : ℕ) < 25 by decide)]
      exact h0)
    (fun n hn => by
      have h1 : n < 25 := by omega
      simp only [dif_pos hn, dif_pos h1]
      exact hs n hn) 24 (by decide)
  simp only [dif_pos (show (24 : ℕ) < 25 by decide)] at key
  exact (key.trans (Fin.sum_univ_eq_sum_range (fun n => if h : n < 25 then s ⟨n, h⟩ else 0) 25).symm).trans
    (Finset.sum_congr rfl fun t _ => by rw [dif_pos t.isLt])

end Cert.Proof.Tile
-- ==== Proof.Val.Pool.lean ====
/-
  The pooled statistics of a layer, computed tile by tile.

  The reference sums each of the 256 columns of the layer's 50000 × 256 activation over all rows and lays the
  sums out as one row. The kernel keeps a running row of sums: zero plus the first tile's column sums, then each
  further tile's column sums added in turn. When the activation's rows `2000 t … 2000 t + 1999` are tile `t`, the
  running row after the last of the 25 tiles is the reference's row: a sum over all rows is the sum over the tiles
  of the sums over each tile's rows, in any commutative additive monoid.
-/
import proofs.«115299_j66941360276307_2_alg».proof.Proof.Val.Host
import proofs.«115299_j66941360276307_2_alg».proof.Proof.Val.Sums
import proofs.«115299_j66941360276307_2_alg».proof.Proof.Val.Chain

noncomputable section

open scoped BigOperators

namespace Cert.Proof.Tile

open Idealize.ShloMosaic Idealize.ShloMosaic.ValueIdx Cert.ReferenceIdeal Cert.ReferenceIdeal.Gen

/-- The column sums of the whole activation, at lane `j` of their one row: the sum over the tiles of each
    tile's column sum. -/
theorem poolOf_apply (arr : FVec Ideal S50000x256 .f32) (u : Fin 1) (j : Fin 256) :
    Cert.Proof.Chain.poolOf (F := Ideal) arr (ix2 u j) = ∑ t : Fin 25, ∑ r : Fin 2000, arr (ix2 (rowOf t r) j) := by
  unfold Cert.Proof.Chain.poolOf
  rw [Host.bcast_vec_row_apply, Host.reduce_rows_apply, sum_rows_eq_sum_tiles]

/-- The running row of sums after the last tile is the pooled row of the whole activation. -/
theorem pool_eq (blk : Fin 25 → (⟨2, ![2000, 256]⟩ : Shape).Idx → EReal) (acc : Fin 25 → (⟨2, ![1, 256]⟩ : Shape).Idx → EReal)
    (arr : FVec Ideal S50000x256 .f32)
    (h0 : ∀ j : Fin 256, acc 0 (ix2 (0 : Fin 1) j) = 0 + ∑ r : Fin 2000, blk 0 (ix2 r j))
    (hs : ∀ (n : ℕ) (h : n + 1 < 25) (j : Fin 256),
      acc ⟨n + 1, h⟩ (ix2 (0 : Fin 1) j) = acc ⟨n, by omega⟩ (ix2 (0 : Fin 1) j) + ∑ r : Fin 2000, blk ⟨n + 1, h⟩ (ix2 r j))
    (harr : ∀ (t : Fin 25) (r : Fin 2000) (j : Fin 256), arr (ix2 (rowOf t r) j) = blk t (ix2 r j)) :
    Cert.Proof.Chain.poolOf (F := Ideal) arr = acc 24 := by
  funext i
  obtain ⟨u, j, rfl⟩ : ∃ (u : Fin 1) (j : Fin 256), i = ix2 u j := ⟨i 0, i 1, eq_ix2 i⟩
  obtain rfl : u = 0 := Subsingleton.elim _ _
  rw [poolOf_apply]
  have hacc := acc25_eq_sum (fun t => ∑ r : Fin 2000, blk t (ix2 r j)) (fun t => acc t (ix2 (0 : Fin 1) j))
    (h0 j) (fun n h => hs n h j)
  refine Eq.trans ?_ hacc.symm
  exact Finset.sum_congr rfl fun t _ => Finset.sum_congr rfl fun r _ => harr t r j

end Cert.Proof.Tile

end
-- ==== Proof.KV.Pools.lean ====
/-
  The pooled sums. The scratch row after the last tile is the cleared row plus every tile's column sums, tile after
  tile; the tiles' column sums together are the column sums of the whole output array, which is how the host pools it.
-/
import proofs.«115299_j66941360276307_2_alg».proof.Proof.KV.Layer
import proofs.«115299_j66941360276307_2_alg».proof.Proof.Val.Pool

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Proof.Tile
open scoped BigOperators

variable (V : (c : Dev nD) → (b : Ref sig .tc) → Buf (Elt Ideal) ((c : Thread nD τ).loc b))

/-- Region 0's pooled sum is the host's pooling of the region's first output array. -/
theorem pool0 (c : Dev nD) (h : FVec Ideal S50000x256 .f32) (hh : arrH0 V c = h) :
    acc0 V c 24 (last0).isLt = Cert.Proof.Chain.poolOf (F := Ideal) h := by
  subst hh
  refine (pool_eq (fun t => blkH0 V c (Fin.cast N0_eq.symm t)) (fun t => acc0 V c t.val (lt_of_lt_of_eq t.isLt N0_eq.symm)) (arrH0 V c) ?_ ?_ ?_).symm
  · intro j
    show acc0 V c 0 _ (ix2 (0 : Fin 1) j) = 0 + ∑ r : Fin 2000, blkH0 V c _ (ix2 r j)
    rw [acc0_zero, k0_pay1_apply, k0_pay2_apply]
    unfold colsum0
    rw [k0_pay5_apply]
    rfl
  · intro n hn j
    show acc0 V c (n + 1) _ (ix2 (0 : Fin 1) j) = acc0 V c n _ (ix2 (0 : Fin 1) j) + ∑ r : Fin 2000, blkH0 V c _ (ix2 r j)
    rw [acc0_succ, k0_pay1_apply]
    unfold colsum0
    rw [k0_pay5_apply]
    rfl
  · intro t r j
    show blkH0 V c (tile0 (ix2 (rowOf t r) j)) (inTile (ix2 (rowOf t r) j)) = blkH0 V c (Fin.cast N0_eq.symm t) (ix2 r j)
    obtain ⟨ht, hj⟩ := tile0_of (Fin.cast N0_eq.symm t) (ix2 r j) (ix2 (rowOf t r) j)
      (by show (rowOf t r).val = t.val * 2000 + r.val; rw [rowOf_val]; omega) rfl
    exact blkH0_congr V c ht hj

/-- Region 1's pooled sum is the host's pooling of the region's output array. -/
theorem pool1 (c : Dev nD) (h : FVec Ideal S50000x256 .f32) (hh : arrH1 V c = h) :
    acc1 V c 24 (last1).isLt = Cert.Proof.Chain.poolOf (F := Ideal) h := by
  subst hh
  refine (pool_eq (fun t => blkH1 V c (Fin.cast N1_eq.symm t)) (fun t => acc1 V c t.val (lt_of_lt_of_eq t.isLt N1_eq.symm)) (arrH1 V c) ?_ ?_ ?_).symm
  · intro j
    show acc1 V c 0 _ (ix2 (0 : Fin 1) j) = 0 + ∑ r : Fin 2000, blkH1 V c _ (ix2 r j)
    rw [acc1_zero, k1_pay3_apply, k1_pay1_apply]
    rfl
  · intro n hn j
    show acc1 V c (n + 1) _ (ix2 (0 : Fin 1) j) = acc1 V c n _ (ix2 (0 : Fin 1) j) + ∑ r : Fin 2000, blkH1 V c _ (ix2 r j)
    rw [acc1_pos V c ⟨n + 1, lt_of_lt_of_eq hn N1_eq.symm⟩ (Nat.succ_ne_zero n), k1_pay3_apply]
    rfl
  · intro t r j
    show blkH1 V c (tile1 (ix2 (rowOf t r) j)) (inTile (ix2 (rowOf t r) j)) = blkH1 V c (Fin.cast N1_eq.symm t) (ix2 r j)
    obtain ⟨ht, hj⟩ := tile1_of (Fin.cast N1_eq.symm t) (ix2 r j) (ix2 (rowOf t r) j)
      (by show (rowOf t r).val = t.val * 2000 + r.val; rw [rowOf_val]; omega) rfl
    exact blkH1_congr V c ht hj

end Cert.KernelIdeal.Hand

end
-- ==== Proof.KV.HostVals.lean ====
/-
  What the kernel program's host stretches leave in the arrays the two regions read, as the shared host-side
  functions of the argument arrays: the degree factors, the aggregated messages of layer 1, the bias rows and the slope
  reshaped for the kernels, and — after region 0 — the aggregated messages of layer 2 from region 0's rescaled output.
-/
import proofs.«115299_j66941360276307_2_alg».proof.Proof.KI.Vals
import proofs.«115299_j66941360276307_2_alg».proof.Proof.Val.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.Proof.Chain

variable (m : (ℓ : Loc nD τ sig) → Buf (Elt F) ℓ)

/-! ## Region 0's inputs -/

set_option maxHeartbeats 16000000 in
theorem VA_v20 (c : Dev nD) : VA m c main_v20 = degNorm (m ((c : Thread nD τ).loc main_arg1)) := by
  show StableHlo.after hostOps0 (fun b => m (c, b)) (Proc.devRef .tc main_v20) = _
  after_results_simp
  rfl
set_option maxHeartbeats 16000000 in
theorem VA_v24 (c : Dev nD) : VA m c main_v24 = degNorm (m ((c : Thread nD τ).loc main_arg2)) := by
  show StableHlo.after hostOps0 (fun b => m (c, b)) (Proc.devRef .tc main_v24) = _
  after_results_simp
  rfl
set_option maxHeartbeats 16000000 in
theorem VA_v36 (c : Dev nD) : VA m c main_v36 = aggOf (mulf (m ((c : Thread nD τ).loc main_arg0)) (spread (degNorm (m ((c : Thread nD τ).loc main_arg1)))))
    (m ((c : Thread nD τ).loc main_arg1)) (m ((c : Thread nD τ).loc main_arg2)) := by
  show StableHlo.after hostOps0 (fun b => m (c, b)) (Proc.devRef .tc main_v36) = _
  after_results_simp
  rfl
set_option maxHeartbeats 16000000 in
theorem VA_v37 (c : Dev nD) : VA m c main_v37 = shapeCast S1x256 (m ((c : Thread nD τ).loc main_arg4)) shapeCasts_S256_S1x256 := by
  show StableHlo.after hostOps0 (fun b => m (c, b)) (Proc.devRef .tc main_v37) = _
  after_results_simp
  rfl
set_option maxHeartbeats 16000000 in
theorem VA_v38 (c : Dev nD) : VA m c main_v38 = shapeCast S1x1 (m ((c : Thread nD τ).loc main_arg7)) shapeCasts_S_S1x1 := by
  show StableHlo.after hostOps0 (fun b => m (c, b)) (Proc.devRef .tc main_v38) = _
  after_results_simp
  rfl
theorem VA_arg3 (c : Dev nD) : VA m c main_arg3 = m ((c : Thread nD τ).loc main_arg3) :=
  Gen.V1_of m c main_arg3 (by decide)

/-! ## Region 1's inputs -/

set_option maxHeartbeats 16000000 in
theorem VB_v24 (c : Dev nD) : VB m c main_v24 = degNorm (m ((c : Thread nD τ).loc main_arg2)) :=
  (Gen.V3_of m (outs2 m) c main_v24 (by decide)).trans <| (Gen.V2_of m (outs2 m) c main_v24 (by decide)).trans (VA_v24 m c)
theorem VB_arg5 (c : Dev nD) : VB m c main_arg5 = m ((c : Thread nD τ).loc main_arg5) :=
  (Gen.V3_of m (outs2 m) c main_arg5 (by decide)).trans <| (Gen.V2_of m (outs2 m) c main_arg5 (by decide)).trans (Gen.V1_of m c main_arg5 (by decide))
set_option maxHeartbeats 16000000 in
theorem VB_v51 (c : Dev nD) : VB m c main_v51 = shapeCast S1x256 (m ((c : Thread nD τ).loc main_arg6)) shapeCasts_S256_S1x256 := by
  have h6 : Gen.V2 m (outs2 m) c main_arg6 = m ((c : Thread nD τ).loc main_arg6) :=
    (Gen.V2_of m (outs2 m) c main_arg6 (by decide)).trans (Gen.V1_of m c main_arg6 (by decide))
  rw [← h6]
  show StableHlo.after hostOps1 (Gen.V2 m (outs2 m) c) (Proc.devRef .tc main_v51) = _
  after_results_simp
  rfl
set_option maxHeartbeats 16000000 in
theorem VB_v52 (c : Dev nD) : VB m c main_v52 = shapeCast S1x1 (m ((c : Thread nD τ).loc main_arg7)) shapeCasts_S_S1x1 := by
  have h7 : Gen.V2 m (outs2 m) c main_arg7 = m ((c : Thread nD τ).loc main_arg7) :=
    (Gen.V2_of m (outs2 m) c main_arg7 (by decide)).trans (Gen.V1_of m c main_arg7 (by decide))
  rw [← h7]
  show StableHlo.after hostOps1 (Gen.V2 m (outs2 m) c) (Proc.devRef .tc main_v52) = _
  after_results_simp
  rfl
set_option maxHeartbeats 16000000 in
/-- Layer 2's aggregated messages: region 0's rescaled output gathered along the edges (widened back to the wide float
    format), summed by destination. -/
theorem VB_v50 (c : Dev nD) : VB m c main_v50
    = Host.scatterAdd scatter_S50000x256_S800000x1_S800000x256_1_0_0_1 (broadcastInDim S50000x256 ![] bcast_S_S50000x256 (constant S_ .f32 0x00000000#32))
        (broadcastInDim S800000x1 ![0] bcast_S800000_S800000x1_0 (m ((c : Thread nD τ).loc main_arg2)))
        (extf .f32 (Host.gather gather_S50000x256_S800000x1_S800000x256_1_0_n_n_0_1_1256 ((dat0 (VA m) c).arrAt 7 cfg0.N)
          (broadcastInDim S800000x1 ![0] bcast_S800000_S800000x1_0 (normIdx (m ((c : Thread nD τ).loc main_arg1))))) bitsLt_bf16_f32) := by
  have h1 : Gen.V2 m (outs2 m) c main_arg1 = m ((c : Thread nD τ).loc main_arg1) :=
    (Gen.V2_of m (outs2 m) c main_arg1 (by decide)).trans (Gen.V1_of m c main_arg1 (by decide))
  have h2 : Gen.V2 m (outs2 m) c main_arg2 = m ((c : Thread nD τ).loc main_arg2) :=
    (Gen.V2_of m (outs2 m) c main_arg2 (by decide)).trans (Gen.V1_of m c main_arg2 (by decide))
  rw [← h1, ← h2, ← V2_v39_1 m c]
  show StableHlo.after hostOps1 (Gen.V2 m (outs2 m) c) (Proc.devRef .tc main_v50) = _
  after_results_simp
  rfl

end Cert.KernelIdeal.Hand

end
-- ==== Proof.RefRun.lean ====
/-
  The reference program's run, read back: every weakly fair execution of the reference ends with each result
  at the composed term of its host operations applied to the argument arrays, the arguments unchanged.
  Its frame conjunct is that run with the results dropped.
-/
import proofs.«115299_j66941360276307_2_alg».proof.Defs
import proofs.«115299_j66941360276307_2_alg».proof.Proof.Gen.ReferenceIdeal.Run
import proofs.«115299_j66941360276307_2_alg».proof.Proof.Gen.Pre_finite_inputs

noncomputable section

namespace Cert.Proof.RefRun

open Idealize.ShloMosaic Idealize.ShloMosaic.TcCoe Idealize.SL.Sem

/-- The reference terminates on every weakly fair execution, faults nowhere and leaves its arguments as launched. -/
theorem frame_ri : Cert.frame_ReferenceIdeal := fun m ρ _ =>
  (θ_run Cert.ReferenceIdeal.defs _ _).mono (fun _ h c => (h c).2.2) (Cert.ReferenceIdeal.Value.run (F := Ideal) m ρ)

end Cert.Proof.RefRun

end
-- ==== Proof.KV.Final.lean ====
/-
  The two idealized programs compute the same results.

  Both apply, to the same eight argument arrays, the same host-side steps (degree factors, messages gathered along the
  edges and summed by destination) around two layers. The reference applies each layer as host operations on whole arrays;
  the kernel program applies it tile by tile inside a kernel region, which leaves the same array (its tiles are the
  layer's rows) and, as the pooled sum, the same column sums (regrouped tile by tile). So both programs end with the
  second layer's activation and with the two layers' pooled sums side by side.
-/
import proofs.«115299_j66941360276307_2_alg».proof.Proof.KI.Launch
import proofs.«115299_j66941360276307_2_alg».proof.Proof.KV.Pools
import proofs.«115299_j66941360276307_2_alg».proof.Proof.KV.HostVals
import proofs.«115299_j66941360276307_2_alg».proof.Proof.RefRun

noncomputable section

namespace Cert.Proof.Final

open Idealize.ShloMosaic Idealize.ShloMosaic.TcCoe Idealize.SL.Sem
open Cert.Proof.Chain Cert.Proof.Tile Cert.ReferenceIdeal Cert.ReferenceIdeal.Gen

/-! ## The results as functions of the eight argument arrays -/

section
variable (x : (⟨S50000x256, .f32⟩ : BufTy).Contents (Elt Ideal)) (src dst : (⟨S800000, .i32⟩ : BufTy).Contents (Elt Ideal))
  (W0 : (⟨S256x256, .f32⟩ : BufTy).Contents (Elt Ideal)) (b0 : (⟨S256, .f32⟩ : BufTy).Contents (Elt Ideal))
  (W1 : (⟨S256x256, .f32⟩ : BufTy).Contents (Elt Ideal)) (b1 : (⟨S256, .f32⟩ : BufTy).Contents (Elt Ideal))
  (a : (⟨S_, .f32⟩ : BufTy).Contents (Elt Ideal))

/-- The first layer's activation. -/
def h1 : (⟨S50000x256, .f32⟩ : BufTy).Contents (Elt Ideal) :=
  Host.layerH (aggOf (mulf x (spread (degNorm src))) src dst) (degNorm dst) W0 b0 a
/-- The second layer's activation: the first result. -/
def h2 : (⟨S50000x256, .f32⟩ : BufTy).Contents (Elt Ideal) :=
  Host.layerH (aggOf (mulf (h1 x src dst W0 b0 a) (spread (degNorm src))) src dst) (degNorm dst) W1 b1 a
/-- The two layers' pooled sums side by side: the second result. -/
def pooled : (⟨S1x512, .f32⟩ : BufTy).Contents (Elt Ideal) :=
  concatenate S1x512 1 [⟨S1x256, poolOf (h1 x src dst W0 b0 a)⟩, ⟨S1x256, poolOf (h2 x src dst W0 b0 W1 b1 a)⟩] concatenates_S1x256_S1x256_S1x512_d1
end

/-! ## The reference -/

set_option maxRecDepth 16384 in
/-- The reference's first result is the second layer's activation: its composed term is that, spelt out. -/
theorem ref_v72 (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v72 (F := Ideal) m' c
      = h2 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) := by
  unfold Cert.ReferenceIdeal.Value.res_main_v72 h2 h1 Host.layerH Host.preH aggOf spread degNorm normIdx
  rfl

set_option maxRecDepth 16384 in
/-- The reference's second result is the two pooled sums side by side. -/
theorem ref_v75 (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v75 (F := Ideal) m' c
      = pooled (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) := by
  unfold Cert.ReferenceIdeal.Value.res_main_v75 pooled h2 h1 Host.layerH Host.preH aggOf spread degNorm normIdx poolOf
  rfl

/-! ## The kernel program -/

section Kernel

open Cert.KernelIdeal.Hand

variable (m : (ℓ : Loc Cert.KernelIdeal.nD Cert.KernelIdeal.τ Cert.KernelIdeal.sig) → Buf (Elt Ideal) ℓ)

/-- Region 0's first output array is the first layer's activation. -/
theorem K_h1 (c : Dev Cert.KernelIdeal.nD) : (dat0 (VA m) c).arrAt 6 Cert.KernelIdeal.cfg0.N
    = h1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) :=
  (final0_6 (VA m) c).trans (arrH0_eq_layer (VA m) c _ _ _ _ _ (VA_v36 m c) (VA_v24 m c) (VA_arg3 m c) (VA_v37 m c) (VA_v38 m c))

/-- Region 0's second output array is that activation scaled by the out-degree factors. -/
theorem K_s1 (c : Dev Cert.KernelIdeal.nD) : (dat0 (VA m) c).arrAt 7 Cert.KernelIdeal.cfg0.N
    = recast (φ := .f32) .bf16 (mulf (φ := .f32) (h1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7))) (spread (degNorm (m ((c.tc : Thread Cert.KernelIdeal.nD Cert.KernelIdeal.τ).loc Cert.KernelIdeal.main_arg1))))) :=
  (final0_7 (VA m) c).trans ((arrS0_eq_scaled (VA m) c _ (VA_v20 m c)).trans
    (congrArg (fun h => recast (φ := .f32) .bf16 (mulf (φ := .f32) h (spread (degNorm (m ((c.tc : Thread Cert.KernelIdeal.nD Cert.KernelIdeal.τ).loc Cert.KernelIdeal.main_arg1)))))) ((final0_6 (VA m) c).symm.trans (K_h1 m c))))

/-- The second layer's aggregated messages, as the region after the second host stretch finds them. -/
theorem K_agg1 (c : Dev Cert.KernelIdeal.nD) : VB m c Cert.KernelIdeal.main_v50
    = aggOf (mulf (h1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7))) (spread (degNorm (m ((c.tc : Thread Cert.KernelIdeal.nD Cert.KernelIdeal.τ).loc Cert.KernelIdeal.main_arg1))))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  rw [VB_v50 m c, K_s1 m c, extf_gather]
  unfold aggOf
  rfl

/-- Region 1's output array is the second layer's activation. -/
theorem K_h2 (c : Dev Cert.KernelIdeal.nD) : (dat1 (VB m) c).arrAt 5 Cert.KernelIdeal.cfg1.N
    = h2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
  (final1_5 (VB m) c).trans (arrH1_eq_layer (VB m) c _ _ _ _ _ (K_agg1 m c) (VB_v24 m c) (VB_arg5 m c) (VB_v51 m c) (VB_v52 m c))

/-- Region 0's pooled sum. -/
theorem K_p1 (c : Dev Cert.KernelIdeal.nD) : (dat0 (VA m) c).arrAt 8 Cert.KernelIdeal.cfg0.N
    = poolOf (h1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7))) :=
  (final0_8 (VA m) c).trans (pool0 (VA m) c _ ((final0_6 (VA m) c).symm.trans (K_h1 m c)))

/-- Region 1's pooled sum. -/
theorem K_p2 (c : Dev Cert.KernelIdeal.nD) : (dat1 (VB m) c).arrAt 6 Cert.KernelIdeal.cfg1.N
    = poolOf (h2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) :=
  (final1_6 (VB m) c).trans (pool1 (VB m) c _ ((final1_5 (VB m) c).symm.trans (K_h2 m c)))

end Kernel

/-! ## The claim -/

/-- From memories agreeing on the arguments both idealized programs terminate with the same two results and their
    arguments unchanged. -/
theorem algebraic : Cert.algebraic_KernelIdeal_ReferenceIdeal := by
  intro m ρ m' ρ' _ hagree
  refine ⟨fun c => h2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => pooled (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (K_h2 m c), (h c).2.1.trans (by rw [K_p1 m c, K_p2 m c]; rfl), (h c).2.2⟩)
      (Cert.KernelIdeal.Hand.run_vals (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · rw [ref_v72 m' c, (hagree c).1, (hagree c).2.1, (hagree c).2.2.1, (hagree c).2.2.2.1, (hagree c).2.2.2.2.1, (hagree c).2.2.2.2.2.1, (hagree c).2.2.2.2.2.2.1, (hagree c).2.2.2.2.2.2.2]
    · rw [ref_v75 m' c, (hagree c).1, (hagree c).2.1, (hagree c).2.2.1, (hagree c).2.2.2.1, (hagree c).2.2.2.2.1, (hagree c).2.2.2.2.2.1, (hagree c).2.2.2.2.2.2.1, (hagree c).2.2.2.2.2.2.2]

end Cert.Proof.Final

end
-- ==== Proof.lean ====
/-
  The certificate: a two-layer graph convolution with a leaky rectifier and sum pooling, computed by two tiled kernel
  regions between host-side gather/scatter stretches, against the plain host program.

  * The kernel program (at the machine's words and at the ideal values alike) terminates on every weakly fair execution,
    faults nowhere and leaves its eight argument arrays as launched: each region's body is run symbolically at the
    first, a middle and the last tile, the 1 × 256 running column sum it carries in a scratch row is tracked from tile
    to tile by the region's invariant, and the two regions are composed with the three host stretches around them.
  * The reference terminates likewise: it is a straight line of host operations.
  * The idealization changed no operation, so it preserves the program trivially.
  * At the ideal values both programs end with the same two results: a region's tiles are the rows of the host layer,
    and its running column sum, regrouped tile by tile, is the host's column sum.
-/
import proofs.«115299_j66941360276307_2_alg».proof.Defs
import proofs.«115299_j66941360276307_2_alg».proof.Proof.Gen.Kernel
import proofs.«115299_j66941360276307_2_alg».proof.Proof.Gen.KernelIdeal
import proofs.«115299_j66941360276307_2_alg».proof.Proof.Gen.ReferenceIdeal
import proofs.«115299_j66941360276307_2_alg».proof.Proof.Gen.Pre_finite_inputs
import proofs.«115299_j66941360276307_2_alg».proof.Proof.K.Launch
import proofs.«115299_j66941360276307_2_alg».proof.Proof.KI.Launch
import proofs.«115299_j66941360276307_2_alg».proof.Proof.KV.Final
import proofs.«115299_j66941360276307_2_alg».proof.Proof.RefRun

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.Proof.RefRun.frame_ri,
    trivial,
    Cert.Proof.Final.algebraic⟩

end Cert.Proof

end
